-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x1 .f32) (main_arg12 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S1x1 : Shape := ⟨2, ![1, 1]⟩
abbrev S1x5000x128 : Shape := ⟨3, ![1, 5000, 128]⟩
abbrev S1x1x1 : Shape := ⟨3, ![1, 1, 1]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 162
  | .vmem => 34
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x1, .f32⟩
  | 12 => ⟨S1, .f32⟩
  | 13 => ⟨S50000, .i32⟩
  | 14 => ⟨S1x640000, .i32⟩
  | 15 => ⟨S640000, .i32⟩
  | 16 => ⟨S690000, .i32⟩
  | 17 => ⟨S1x640000, .i32⟩
  | 18 => ⟨S640000, .i32⟩
  | 19 => ⟨S690000, .i32⟩
  | 20 => ⟨S_, .f32⟩
  | 21 => ⟨S690000, .f32⟩
  | 22 => ⟨S_, .f32⟩
  | 23 => ⟨S50000, .f32⟩
  | 24 => ⟨S690000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S690000, .i32⟩
  | 36 => ⟨S690000, .i1⟩
  | 37 => ⟨S_, .i32⟩
  | 38 => ⟨S690000, .i32⟩
  | 39 => ⟨S690000, .i32⟩
  | 40 => ⟨S690000, .i32⟩
  | 41 => ⟨S690000x1, .i32⟩
  | 42 => ⟨S690000, .f32⟩
  | 43 => ⟨S_, .i32⟩
  | 44 => ⟨S690000, .i32⟩
  | 45 => ⟨S690000, .i1⟩
  | 46 => ⟨S_, .i32⟩
  | 47 => ⟨S690000, .i32⟩
  | 48 => ⟨S690000, .i32⟩
  | 49 => ⟨S690000, .i32⟩
  | 50 => ⟨S690000x1, .i32⟩
  | 51 => ⟨S690000, .f32⟩
  | 52 => ⟨S690000, .f32⟩
  | 53 => ⟨S50000x128, .f32⟩
  | 54 => ⟨S_, .i32⟩
  | 55 => ⟨S690000, .i32⟩
  | 56 => ⟨S690000, .i1⟩
  | 57 => ⟨S_, .i32⟩
  | 58 => ⟨S690000, .i32⟩
  | 59 => ⟨S690000, .i32⟩
  | 60 => ⟨S690000, .i32⟩
  | 61 => ⟨S690000x1, .i32⟩
  | 62 => ⟨S690000x128, .f32⟩
  | 63 => ⟨S690000x1, .f32⟩
  | 64 => ⟨S690000x128, .f32⟩
  | 65 => ⟨S690000x128, .f32⟩
  | 66 => ⟨S_, .f32⟩
  | 67 => ⟨S50000x128, .f32⟩
  | 68 => ⟨S690000x1, .i32⟩
  | 69 => ⟨S50000x128, .f32⟩
  | 70 => ⟨S1x128, .f32⟩
  | 71 => ⟨S50000x128, .f32⟩
  | 72 => ⟨S50000x128, .f32⟩
  | 73 => ⟨S1x1, .f32⟩
  | 74 => ⟨S1x1, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1x128, .f32⟩
  | 89 => ⟨S1x128, .f32⟩
  | 90 => ⟨S1x1, .f32⟩
  | 91 => ⟨S1x1, .f32⟩
  | 92 => ⟨S50000x128, .f32⟩
  | 93 => ⟨S50000x128, .f32⟩
  | 94 => ⟨S_, .i32⟩
  | 95 => ⟨S690000, .i32⟩
  | 96 => ⟨S690000, .i1⟩
  | 97 => ⟨S_, .i32⟩
  | 98 => ⟨S690000, .i32⟩
  | 99 => ⟨S690000, .i32⟩
  | 100 => ⟨S690000, .i32⟩
  | 101 => ⟨S690000x1, .i32⟩
  | 102 => ⟨S690000x128, .f32⟩
  | 103 => ⟨S690000x1, .f32⟩
  | 104 => ⟨S690000x128, .f32⟩
  | 105 => ⟨S690000x128, .f32⟩
  | 106 => ⟨S_, .f32⟩
  | 107 => ⟨S50000x128, .f32⟩
  | 108 => ⟨S690000x1, .i32⟩
  | 109 => ⟨S50000x128, .f32⟩
  | 110 => ⟨S1x128, .f32⟩
  | 111 => ⟨S50000x128, .f32⟩
  | 112 => ⟨S50000x128, .f32⟩
  | 113 => ⟨S1x1, .f32⟩
  | 114 => ⟨S1x1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x1, .f32⟩
  | 3 => ⟨S1x1, .f32⟩
  | 4 => ⟨S50000x128, .f32⟩
  | 5 => ⟨S_, .f32⟩
  | 6 => ⟨S64x128, .f32⟩
  | 7 => ⟨S50000x1, .i32⟩
  | 8 => ⟨S64x128, .f32⟩
  | 9 => ⟨S_, .f32⟩
  | 10 => ⟨S50000, .f32⟩
  | 11 => ⟨S_, .f32⟩
  | 12 => ⟨S64, .f32⟩
  | 13 => ⟨S50000x1, .i32⟩
  | 14 => ⟨S64, .f32⟩
  | 15 => ⟨S_, .f32⟩
  | 16 => ⟨S64, .f32⟩
  | 17 => ⟨S64, .f32⟩
  | 18 => ⟨S64x1, .f32⟩
  | 19 => ⟨S64x128, .f32⟩
  | 20 => ⟨S64x128, .f32⟩
  | 21 => ⟨S64x1, .f32⟩
  | 22 => ⟨S1x1, .f32⟩
  | 23 => ⟨S64x1, .f32⟩
  | 24 => ⟨S64x1, .f32⟩
  | 25 => ⟨S64x1, .f32⟩
  | 26 => ⟨S64x1, .f32⟩
  | 27 => ⟨S_, .f32⟩
  | 28 => ⟨S64x1, .f32⟩
  | 29 => ⟨S64x1, .f32⟩
  | 30 => ⟨S_, .f32⟩
  | 31 => ⟨S64x1, .f32⟩
  | 32 => ⟨S64x1, .f32⟩
  | 33 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x1, .f32⟩
  | .local _ .vmem, ⟨8, _⟩ => ⟨S1x1, .f32⟩
  | .local _ .vmem, ⟨9, _⟩ => ⟨S5000x128, .f32⟩
  | .local _ .vmem, ⟨10, _⟩ => ⟨S5000x128, .f32⟩
  | .local _ .vmem, ⟨11, _⟩ => ⟨S1x1, .f32⟩
  | .local _ .vmem, ⟨12, _⟩ => ⟨S1x1, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x1, .f32⟩
  | .local _ .vmem, ⟨25, _⟩ => ⟨S1x1, .f32⟩
  | .local _ .vmem, ⟨26, _⟩ => ⟨S5000x128, .f32⟩
  | .local _ .vmem, ⟨27, _⟩ => ⟨S5000x128, .f32⟩
  | .local _ .vmem, ⟨28, _⟩ => ⟨S1x1, .f32⟩
  | .local _ .vmem, ⟨29, _⟩ => ⟨S1x1, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79_0 : Ref sig .tc := ⟨.hbm, 113, rfl⟩
abbrev main_v79_1 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_cst_19 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_24 : Ref sig .tc := ⟨.hbm, 155, rfl⟩
abbrev main_v112 : Ref sig .tc := ⟨.hbm, 156, rfl⟩
abbrev main_v113 : Ref sig .tc := ⟨.hbm, 157, rfl⟩
abbrev main_cst_25 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S5000x128_S1x5000x128 : S5000x128.ShapeCasts S1x5000x128
  reduces_S1x5000x128_S1 : S1x5000x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  shapeCasts_S128_S1x128 : S128.ShapeCasts S1x128
  shapeCasts_S_S1x1 : S_.ShapeCasts S1x1
  inpos_S1x1_p0_0 : ∀ a, (![0, 0] : Fin 2 → Nat) a < S1x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x1.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79_0) S1x1.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79_1) S1x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 205
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x1, .f32⟩
  | 12 => ⟨S1, .f32⟩
  | 13 => ⟨S50000, .i32⟩
  | 14 => ⟨S1x640000, .i32⟩
  | 15 => ⟨S640000, .i32⟩
  | 16 => ⟨S690000, .i32⟩
  | 17 => ⟨S1x640000, .i32⟩
  | 18 => ⟨S640000, .i32⟩
  | 19 => ⟨S690000, .i32⟩
  | 20 => ⟨S50000x128, .f32⟩
  | 21 => ⟨S_, .f32⟩
  | 22 => ⟨S690000, .f32⟩
  | 23 => ⟨S_, .f32⟩
  | 24 => ⟨S50000, .f32⟩
  | 25 => ⟨S690000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S690000, .i32⟩
  | 37 => ⟨S690000, .i1⟩
  | 38 => ⟨S_, .i32⟩
  | 39 => ⟨S690000, .i32⟩
  | 40 => ⟨S690000, .i32⟩
  | 41 => ⟨S690000, .i32⟩
  | 42 => ⟨S690000x1, .i32⟩
  | 43 => ⟨S690000, .f32⟩
  | 44 => ⟨S_, .i32⟩
  | 45 => ⟨S690000, .i32⟩
  | 46 => ⟨S690000, .i1⟩
  | 47 => ⟨S_, .i32⟩
  | 48 => ⟨S690000, .i32⟩
  | 49 => ⟨S690000, .i32⟩
  | 50 => ⟨S690000, .i32⟩
  | 51 => ⟨S690000x1, .i32⟩
  | 52 => ⟨S690000, .f32⟩
  | 53 => ⟨S690000, .f32⟩
  | 54 => ⟨S_, .i32⟩
  | 55 => ⟨S690000, .i32⟩
  | 56 => ⟨S690000, .i1⟩
  | 57 => ⟨S_, .i32⟩
  | 58 => ⟨S690000, .i32⟩
  | 59 => ⟨S690000, .i32⟩
  | 60 => ⟨S690000, .i32⟩
  | 61 => ⟨S690000x1, .i32⟩
  | 62 => ⟨S690000x128, .f32⟩
  | 63 => ⟨S690000x1, .f32⟩
  | 64 => ⟨S690000x128, .f32⟩
  | 65 => ⟨S690000x128, .f32⟩
  | 66 => ⟨S_, .f32⟩
  | 67 => ⟨S50000x128, .f32⟩
  | 68 => ⟨S690000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S50000x128, .f32⟩
  | 78 => ⟨S50000x128, .f32⟩
  | 79 => ⟨S50000x128, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S_, .f32⟩
  | 100 => ⟨S690000, .f32⟩
  | 101 => ⟨S_, .f32⟩
  | 102 => ⟨S50000, .f32⟩
  | 103 => ⟨S690000x1, .i32⟩
  | 104 => ⟨S50000, .f32⟩
  | 105 => ⟨S_, .f32⟩
  | 106 => ⟨S50000, .f32⟩
  | 107 => ⟨S50000, .i1⟩
  | 108 => ⟨S50000, .f32⟩
  | 109 => ⟨S_, .f32⟩
  | 110 => ⟨S_, .f32⟩
  | 111 => ⟨S50000, .f32⟩
  | 112 => ⟨S50000, .f32⟩
  | 113 => ⟨S_, .i32⟩
  | 114 => ⟨S690000, .i32⟩
  | 115 => ⟨S690000, .i1⟩
  | 116 => ⟨S_, .i32⟩
  | 117 => ⟨S690000, .i32⟩
  | 118 => ⟨S690000, .i32⟩
  | 119 => ⟨S690000, .i32⟩
  | 120 => ⟨S690000x1, .i32⟩
  | 121 => ⟨S690000, .f32⟩
  | 122 => ⟨S_, .i32⟩
  | 123 => ⟨S690000, .i32⟩
  | 124 => ⟨S690000, .i1⟩
  | 125 => ⟨S_, .i32⟩
  | 126 => ⟨S690000, .i32⟩
  | 127 => ⟨S690000, .i32⟩
  | _ => ⟨S50000x128, .f32⟩

abbrev hbmTy0_1 (i : Nat) : BufTy := match i % 128 with
  | 0 => ⟨S690000, .i32⟩
  | 1 => ⟨S690000x1, .i32⟩
  | 2 => ⟨S690000, .f32⟩
  | 3 => ⟨S690000, .f32⟩
  | 4 => ⟨S_, .i32⟩
  | 5 => ⟨S690000, .i32⟩
  | 6 => ⟨S690000, .i1⟩
  | 7 => ⟨S_, .i32⟩
  | 8 => ⟨S690000, .i32⟩
  | 9 => ⟨S690000, .i32⟩
  | 10 => ⟨S690000, .i32⟩
  | 11 => ⟨S690000x1, .i32⟩
  | 12 => ⟨S690000x128, .f32⟩
  | 13 => ⟨S690000x1, .f32⟩
  | 14 => ⟨S690000x128, .f32⟩
  | 15 => ⟨S690000x128, .f32⟩
  | 16 => ⟨S_, .f32⟩
  | 17 => ⟨S50000x128, .f32⟩
  | 18 => ⟨S690000x1, .i32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S_, .f32⟩
  | 25 => ⟨S_, .f32⟩
  | 26 => ⟨S_, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S64x128, .f32⟩
  | 50 => ⟨S50000x1, .i32⟩
  | 51 => ⟨S64x128, .f32⟩
  | 52 => ⟨S_, .f32⟩
  | 53 => ⟨S50000, .f32⟩
  | 54 => ⟨S_, .f32⟩
  | 55 => ⟨S64, .f32⟩
  | 56 => ⟨S50000x1, .i32⟩
  | 57 => ⟨S64, .f32⟩
  | 58 => ⟨S_, .f32⟩
  | 59 => ⟨S64, .f32⟩
  | 60 => ⟨S64, .f32⟩
  | 61 => ⟨S64x1, .f32⟩
  | 62 => ⟨S64x128, .f32⟩
  | 63 => ⟨S64x128, .f32⟩
  | 64 => ⟨S64x1, .f32⟩
  | 65 => ⟨S1x1, .f32⟩
  | 66 => ⟨S64x1, .f32⟩
  | 67 => ⟨S64x1, .f32⟩
  | 68 => ⟨S64x1, .f32⟩
  | 69 => ⟨S64x1, .f32⟩
  | 70 => ⟨S_, .f32⟩
  | 71 => ⟨S64x1, .f32⟩
  | 72 => ⟨S64x1, .f32⟩
  | 73 => ⟨S_, .f32⟩
  | 74 => ⟨S64x1, .f32⟩
  | 75 => ⟨S64x1, .f32⟩
  | 76 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call1_cst : Ref sig .tc := ⟨.hbm, 95, rfl⟩
abbrev main_call1_v0 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_17 : Ref sig .tc := ⟨.hbm, 109, rfl⟩
abbrev main_call2_v0 : Ref sig .tc := ⟨.hbm, 110, rfl⟩
abbrev main_call2_v1 : Ref sig .tc := ⟨.hbm, 111, rfl⟩
abbrev main_v73 : Ref sig .tc := ⟨.hbm, 112, rfl⟩
abbrev main_c_18 : Ref sig .tc := ⟨.hbm, 113, rfl⟩
abbrev main_v74 : Ref sig .tc := ⟨.hbm, 114, rfl⟩
abbrev main_v75 : Ref sig .tc := ⟨.hbm, 115, rfl⟩
abbrev main_c_19 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_20 : Ref sig .tc := ⟨.hbm, 122, rfl⟩
abbrev main_v81 : Ref sig .tc := ⟨.hbm, 123, rfl⟩
abbrev main_v82 : Ref sig .tc := ⟨.hbm, 124, rfl⟩
abbrev main_c_21 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_22 : Ref sig .tc := ⟨.hbm, 132, rfl⟩
abbrev main_v89 : Ref sig .tc := ⟨.hbm, 133, rfl⟩
abbrev main_v90 : Ref sig .tc := ⟨.hbm, 134, rfl⟩
abbrev main_c_23 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_25 : Ref sig .tc := ⟨.hbm, 151, rfl⟩
abbrev main_v105 : Ref sig .tc := ⟨.hbm, 152, rfl⟩
abbrev main_cst_26 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_27 : Ref sig .tc := ⟨.hbm, 158, rfl⟩
abbrev main_v110 : Ref sig .tc := ⟨.hbm, 159, rfl⟩
abbrev main_cst_28 : Ref sig .tc := ⟨.hbm, 160, rfl⟩
abbrev main_v111 : Ref sig .tc := ⟨.hbm, 161, rfl⟩
abbrev main_v112 : Ref sig .tc := ⟨.hbm, 162, rfl⟩
abbrev main_cst_29 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_call3_cst : Ref sig .tc := ⟨.hbm, 173, rfl⟩
abbrev main_call3_v0 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_31 : Ref sig .tc := ⟨.hbm, 180, rfl⟩
abbrev main_v126 : Ref sig .tc := ⟨.hbm, 181, rfl⟩
abbrev main_cst_32 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_33 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_34 : Ref sig .tc := ⟨.hbm, 198, rfl⟩
abbrev main_v141 : Ref sig .tc := ⟨.hbm, 199, rfl⟩
abbrev main_v142 : Ref sig .tc := ⟨.hbm, 200, rfl⟩
abbrev main_cst_35 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel's run with its result named. Every weakly fair execution of @main ends, on each core, with the
  result buffer holding what the last stretch of host operations leaves there — the contents `W14` obtained by folding
  the fourteen segments of @main (eight stretches of host operations, six kernel regions) over the launch memory — and
  with the thirteen argument arrays as launched. The segments, their proof data and the launch are the frame's; only
  the final reading is widened from the arguments to the result buffer.
-/
import proofs.«144501_j25658134627030_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer at
    the last boundary's contents and the argument arrays as launched. -/
theorem run_result : θ_run defs (onTc (τ := τ) (main (F := F))) ⟨m, fun _ => 0, ρ⟩ (fun r => ∀ c : Dev nD,
      r.2.mem ((c.tc : Thread nD τ).loc main_v116) = W14 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v116 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.RunValue

end
-- ==== Proof.Carry.lean ====
/-
  Buffers that a stretch of host operations or a kernel region does not write keep their contents across it. Read back
  through the fold of @main's segments: each argument array, at the boundary where it is next read, still holds its
  launch contents; the two edge lists and the edge weights computed before the first region are unchanged when the
  second layer reads them; each layer's pre-normalisation activations are unchanged between the statistics region and the
  normalising region (a region's input array ends as it was entered).
-/
import proofs.«144501_j25658134627030_1_alg».proof.Proof.Gen.KernelIdeal.Frame

set_option maxRecDepth 16384

noncomputable section

namespace Cert.KernelIdeal.Carry

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-- No operation of the named stretch writes the buffer at hand, so the stretch leaves it as it found it. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem arg0_at3 : W3 m ρ c (Proc.devRef .tc main_arg0) = m ((c : Thread nD τ).loc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

theorem arg3_at3 : W3 m ρ c (Proc.devRef .tc main_arg3) = m ((c : Thread nD τ).loc main_arg3) :=
  calc W3 m ρ c (Proc.devRef .tc main_arg3)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

theorem arg4_at4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl

theorem arg5_at6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl

theorem arg6_at6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl

theorem arg7_at8 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keep hostOps2
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

theorem arg8_at9 : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = m ((c : Thread nD τ).loc main_arg8) := rfl

theorem arg9_at11 : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := by host_keep hostOps4
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c : Thread nD τ).loc main_arg9) := rfl

theorem arg10_at11 : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := by host_keep hostOps4
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0
    _ = m ((c : Thread nD τ).loc main_arg10) := rfl

theorem arg2_at13 : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := by host_keep hostOps5
    _ = W10 m ρ c (Proc.devRef .tc main_arg2) := W11_of_ne m ρ c main_arg2 (by decide)
    _ = W9 m ρ c (Proc.devRef .tc main_arg2) := by host_keep hostOps4
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := by host_keep hostOps2
    _ = W5 m ρ c (Proc.devRef .tc main_arg2) := W6_of_ne m ρ c main_arg2 (by decide)
    _ = W4 m ρ c (Proc.devRef .tc main_arg2) := by host_keep hostOps1
    _ = W3 m ρ c (Proc.devRef .tc main_arg2) := W4_of_ne m ρ c main_arg2 (by decide)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

theorem arg11_at13 : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := by host_keep hostOps5
    _ = W10 m ρ c (Proc.devRef .tc main_arg11) := W11_of_ne m ρ c main_arg11 (by decide)
    _ = W9 m ρ c (Proc.devRef .tc main_arg11) := by host_keep hostOps4
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := by host_keep hostOps2
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c : Thread nD τ).loc main_arg11) := rfl

theorem arg12_at13 : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := by host_keep hostOps5
    _ = W10 m ρ c (Proc.devRef .tc main_arg12) := W11_of_ne m ρ c main_arg12 (by decide)
    _ = W9 m ρ c (Proc.devRef .tc main_arg12) := by host_keep hostOps4
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := by host_keep hostOps2
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0
    _ = m ((c : Thread nD τ).loc main_arg12) := rfl

theorem v3_at4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem v6_at4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem v29_at4 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem v3_at9 : W9 m ρ c (Proc.devRef .tc main_v3) = W4 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1

theorem v6_at9 : W9 m ρ c (Proc.devRef .tc main_v6) = W4 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1

theorem v29_at9 : W9 m ρ c (Proc.devRef .tc main_v29) = W4 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1

theorem v46_at7 : W7 m ρ c (Proc.devRef .tc main_v46) = W5 m ρ c (Proc.devRef .tc main_v46) :=
  calc W7 m ρ c (Proc.devRef .tc main_v46)
    _ = W6 m ρ c (Proc.devRef .tc main_v46) := by host_keep hostOps2
    _ = W5 m ρ c (Proc.devRef .tc main_v46) := (W6_arr m ρ c 0).trans (((dat1 (V5 m ρ) c).arrAt_in 0 rfl _).trans (A_eq1 (V5 m ρ) c 0))

theorem v78_at12 : W12 m ρ c (Proc.devRef .tc main_v78) = W10 m ρ c (Proc.devRef .tc main_v78) :=
  calc W12 m ρ c (Proc.devRef .tc main_v78)
    _ = W11 m ρ c (Proc.devRef .tc main_v78) := by host_keep hostOps5
    _ = W10 m ρ c (Proc.devRef .tc main_v78) := (W11_arr m ρ c 0).trans (((dat4 (V10 m ρ) c).arrAt_in 0 rfl _).trans (A_eq4 (V10 m ρ) c 0))

end Cert.KernelIdeal.Carry

end
-- ==== Proof.HostLayers.lean ====
/-
  The host operations around the kernel regions, read off the fold of @main's segments and compared with the
  reference's stages. Both programs build the row and column lists (the given edges followed by one self-loop per
  node), count the in-degree of every node by an accumulating scatter of ones, take deg^(-1/2) where the degree is
  positive and 0 elsewhere, and weight edge (r, s) by dinv[r]·dinv[s]. Each layer gathers the projected features along
  the rows, scales each by its edge weight, accumulates them along the columns and adds the bias. The operations are
  the same on both sides, so once the projected features agree the two terms are one.
-/
import proofs.«144501_j25658134627030_1_alg».proof.Proof.Carry
import proofs.«144501_j25658134627030_1_alg».proof.Proof.RefReadP

set_option maxRecDepth 16384

noncomputable section

namespace Cert.KernelIdeal.HostLayers

open Idealize.ShloMosaic Idealize.ShloMosaic.TcCoe Idealize.SL.Sem Idealize.ShloMosaic.StableHlo
open Idealize.ShloMosaic.Pipeline (Dat Cfg Window)
open Cert.KernelIdeal Cert.KernelIdeal.Gen
open Cert.ReferenceIdeal.ReadP

variable (m : (ℓ : Loc nD τ sig) → Buf (Elt Ideal) ℓ) (ρ : Dev nD → PrngReg) (c : Dev nD)

/-! ## The edge lists and the edge weights at the first region's entry

The host operations before the first region come in three stretches: the lists, the degrees and their guards; the
`where` that picks the inverse square root at positive degrees; the two gathers and the product. Each stretch is read
over the contents the previous one leaves. -/

section Prologue

/-- After the first stretch the row list is the reference's: the given rows followed by one self-loop per node. -/
theorem rows_at1 :
    W1 m ρ c (Proc.devRef .tc main_v3) = val_main_v3 (F := Ideal) (m ((c : Thread nD τ).loc main_arg1)) := by
  show StableHlo.after hostOps0 (W0 m ρ c) (Proc.devRef .tc main_v3) = _
  after_results
  rfl

/-- After the first stretch the column list is the reference's. -/
theorem cols_at1 :
    W1 m ρ c (Proc.devRef .tc main_v6) = val_main_v6 (F := Ideal) (m ((c : Thread nD τ).loc main_arg1)) := by
  show StableHlo.after hostOps0 (W0 m ρ c) (Proc.devRef .tc main_v6) = _
  after_results
  rfl

/-- After the first stretch the mask "the degree is positive" is the reference's. -/
theorem degree_pos_at1 :
    W1 m ρ c (Proc.devRef .tc main_v12) = val_main_v13 (F := Ideal) (m ((c : Thread nD τ).loc main_arg1)) := by
  show StableHlo.after hostOps0 (W0 m ρ c) (Proc.devRef .tc main_v12) = _
  after_results
  rfl

/-- After the first stretch the inverse square root of the degrees is the reference's. -/
theorem degree_rsqrt_at1 :
    W1 m ρ c (Proc.devRef .tc main_v13) = val_main_v14 (F := Ideal) (m ((c : Thread nD τ).loc main_arg1)) := by
  show StableHlo.after hostOps0 (W0 m ρ c) (Proc.devRef .tc main_v13) = _
  after_results
  rfl

/-- After the first stretch the fallback scalar of the `where` is the reference's zero. -/
theorem zero_at1 :
    W1 m ρ c (Proc.devRef .tc main_cst_2) = val_main_cst_2 (F := Ideal) := by
  show StableHlo.after hostOps0 (W0 m ρ c) (Proc.devRef .tc main_cst_2) = _
  after_results
  rfl

/-- The `where` over any contents: it picks, entry by entry, the second operand where the mask is set and the
    broadcast scalar elsewhere. -/
theorem where_step (V : Valuation τ sig (Elt Ideal)) :
    StableHlo.after hostOps0_1 V (Proc.devRef .tc main_v14)
      = select (V (Proc.devRef .tc main_v12)) (V (Proc.devRef .tc main_v13))
          (broadcastInDim S50000 ![] bcast_S_S50000 (id (V (Proc.devRef .tc main_cst_2)))) := by
  after_results
  rfl

/-- After the `where` the normalised inverse square root of the degrees is the reference's. -/
theorem dinv_at2 :
    W2 m ρ c (Proc.devRef .tc main_v14) = val_main_v15 (F := Ideal) (m ((c : Thread nD τ).loc main_arg1)) := by
  show StableHlo.after hostOps0_1 (W1 m ρ c) (Proc.devRef .tc main_v14) = _
  rw [where_step, degree_pos_at1, degree_rsqrt_at1, zero_at1]
  rfl

/-- The `where` leaves the row list as it was. -/
theorem rows_at2 :
    W2 m ρ c (Proc.devRef .tc main_v3) = val_main_v3 (F := Ideal) (m ((c : Thread nD τ).loc main_arg1)) :=
  (show W2 m ρ c (Proc.devRef .tc main_v3) = W1 m ρ c (Proc.devRef .tc main_v3) by host_keep hostOps0_1).trans
    (rows_at1 m ρ c)

/-- The `where` leaves the column list as it was. -/
theorem cols_at2 :
    W2 m ρ c (Proc.devRef .tc main_v6) = val_main_v6 (F := Ideal) (m ((c : Thread nD τ).loc main_arg1)) :=
  (show W2 m ρ c (Proc.devRef .tc main_v6) = W1 m ρ c (Proc.devRef .tc main_v6) by host_keep hostOps0_1).trans
    (cols_at1 m ρ c)

/-- The row list at the first region's entry is the reference's. -/
theorem rows_eq :
    W3 m ρ c (Proc.devRef .tc main_v3) = val_main_v3 (F := Ideal) (m ((c : Thread nD τ).loc main_arg1)) :=
  (show W3 m ρ c (Proc.devRef .tc main_v3) = W2 m ρ c (Proc.devRef .tc main_v3) by host_keep hostOps0_2).trans
    (rows_at2 m ρ c)

/-- The column list at the first region's entry is the reference's. -/
theorem cols_eq :
    W3 m ρ c (Proc.devRef .tc main_v6) = val_main_v6 (F := Ideal) (m ((c : Thread nD τ).loc main_arg1)) :=
  (show W3 m ρ c (Proc.devRef .tc main_v6) = W2 m ρ c (Proc.devRef .tc main_v6) by host_keep hostOps0_2).trans
    (cols_at2 m ρ c)

set_option maxHeartbeats 2000000 in
/-- The edge weights at the first region's entry are the reference's: `dinv[row] · dinv[col]` along the edges. -/
theorem weights_eq :
    W3 m ρ c (Proc.devRef .tc main_v29) = val_main_v30 (F := Ideal) (m ((c : Thread nD τ).loc main_arg1)) := by
  have h3 := rows_at2 m ρ c
  have h6 := cols_at2 m ρ c
  have h14 := dinv_at2 m ρ c
  show StableHlo.after hostOps0_2 (W2 m ρ c) (Proc.devRef .tc main_v29) = _
  generalize W2 m ρ c = V at h3 h6 h14 ⊢
  after_results
  rw [h3, h6, h14]
  rfl

end Prologue

/-! ## The two graph-convolution layers and the readout -/

section Layers

/-- The reference computes the edge weights a second time for its second layer; the operations are the first
    computation's, so the two are one function of the edge list. -/
theorem weights_again (x1 : (⟨Cert.ReferenceIdeal.S2x640000, .i32⟩ : BufTy).Contents (Elt Ideal)) :
    val_main_v88 (F := Ideal) x1 = val_main_v30 (F := Ideal) x1 := rfl

set_option maxHeartbeats 2000000 in
/-- The first layer's aggregation: once the projected features agree, the gather along the rows, the scaling by the
    edge weights, the accumulation along the columns and the bias give the reference's pre-normalisation activations. -/
theorem layer1_eq
    (hproj : W4 m ρ c (Proc.devRef .tc main_v30) = val_main_v7 (F := Ideal) (m ((c : Thread nD τ).loc main_arg0)) (m ((c : Thread nD τ).loc main_arg3))) :
    W5 m ρ c (Proc.devRef .tc main_v46) = val_main_v46 (F := Ideal) (m ((c : Thread nD τ).loc main_arg0)) (m ((c : Thread nD τ).loc main_arg1)) (m ((c : Thread nD τ).loc main_arg3)) (m ((c : Thread nD τ).loc main_arg4)) := by
  have h3 := (Carry.v3_at4 m ρ c).trans (rows_eq m ρ c)
  have h6 := (Carry.v6_at4 m ρ c).trans (cols_eq m ρ c)
  have h29 := (Carry.v29_at4 m ρ c).trans (weights_eq m ρ c)
  have hb := Carry.arg4_at4 m ρ c
  show StableHlo.after hostOps1 (W4 m ρ c) (Proc.devRef .tc main_v46) = _
  generalize W4 m ρ c = V at hproj h3 h6 h29 hb ⊢
  after_results
  rw [hproj, h3, h6, h29, hb]
  rfl

set_option maxHeartbeats 2000000 in
/-- The second layer's aggregation, likewise, over the edge lists and weights carried from before the first region. -/
theorem layer2_eq
    (hproj : W9 m ρ c (Proc.devRef .tc main_v62) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W10 m ρ c (Proc.devRef .tc main_v78) = val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h3 := ((Carry.v3_at9 m ρ c).trans (Carry.v3_at4 m ρ c)).trans (rows_eq m ρ c)
  have h6 := ((Carry.v6_at9 m ρ c).trans (Carry.v6_at4 m ρ c)).trans (cols_eq m ρ c)
  have h29 := (((Carry.v29_at9 m ρ c).trans (Carry.v29_at4 m ρ c)).trans (weights_eq m ρ c)).trans
    (weights_again (m ((c : Thread nD τ).loc main_arg1))).symm
  have hb := Carry.arg8_at9 m ρ c
  show StableHlo.after hostOps4 (W9 m ρ c) (Proc.devRef .tc main_v78) = _
  generalize W9 m ρ c = V at hproj h3 h6 h29 hb ⊢
  after_results
  rw [hproj, h3, h6, h29, hb]
  rfl

set_option maxHeartbeats 2000000 in
/-- The readout: the per-graph mean of the activations (an accumulating scatter by graph, divided by the graph's
    node count clamped below at one), the linear head and the logistic function, as the reference spells them. -/
theorem out_eq
    (hrelu : W13 m ρ c (Proc.devRef .tc main_v93) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W14 m ρ c (Proc.devRef .tc main_v116) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hg := Carry.arg2_at13 m ρ c
  have hw := Carry.arg11_at13 m ρ c
  have hc := Carry.arg12_at13 m ρ c
  show StableHlo.after hostOps6 (W13 m ρ c) (Proc.devRef .tc main_v116) = _
  generalize W13 m ρ c = V at hrelu hg hw hc ⊢
  after_results
  rw [hrelu, hg, hw, hc]
  rfl

end Layers

end Cert.KernelIdeal.HostLayers

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.MatmulRows.lean ====
import proofs.«144501_j25658134627030_1_alg».proof.Proof.Gen.KernelIdeal.Frame
import proofs.«144501_j25658134627030_1_alg».proof.Proof.LibDenseRows
import Idealize.ShloMosaic.Lib.Pipeline.Value
import Idealize.ShloMosaic.Lib.ValueIdx
import Idealize.ShloMosaic.PureOps.Ideal.Laws

/-!
# The two blocked matrix products

Two regions of the program are the same blocked product on a grid of ten points. Point `t` takes rows
`5000 t … 5000 t + 4999` of a `[50000, 128]` left array and the whole `[128, 128]` right array, rounds both to a
narrower float format (which changes nothing on the extended reals), multiplies them starting from the zero accumulator,
and writes the product to the same rows of the `[50000, 128]` output. Since every row of the output belongs to exactly one
block and entry `(r, j)` of a product depends on row `r` of the left factor only, the output array ends as the
row-by-row product `mmRows` of the two arrays as the region found them:

* `pay0_apply`, `pay3_apply`: one block's product at an entry, as a sum over the shared extent;
* `idx_facts0`, `idx_facts3`: which block of each array a grid point uses;
* `blk0_eq`, `blk3_eq`: what a point writes back is its block of `mmRows`;
* `cover0`, `cover3`: row `r` is written by point `r / 5000`;
* `final0`, `final3`: the output array after the ten points.
-/

noncomputable section

open scoped BigOperators

namespace Cert.MatmulRows

open Cert.KernelIdeal Cert.KernelIdeal.Gen Idealize.ShloMosaic Idealize.ShloMosaic.TcCoe Idealize.SL.Sem
open Idealize.ShloMosaic.ValueIdx
open Idealize.ShloMosaic.Pipeline (Dat)

/-- The row-by-row product of a `[50000, 128]` array and a `[128, 128]` array on the extended reals: entry `(r, j)` is
    `∑ k, x (r, k) · w (k, j)`. -/
def mmRows (x : S50000x128.Idx → EReal) (w : S128x128.Idx → EReal) : S50000x128.Idx → EReal :=
  fun i => ∑ k : Fin 128, x (ix2 (i 0 : Fin 50000) k) * w (ix2 k (i 1 : Fin 128))

/-- The zero offsets of a whole-block access. -/
theorem hz : (![0, 0] : Fin 2 → Nat) = fun _ => 0 := funext fun a => by fin_cases a <;> rfl

/-- Region 0's block product at entry `(p, q)`: rounding the operands to the narrower format is the identity on the
    extended reals, and the product into the zero accumulator is the sum over the shared extent. -/
theorem pay0_apply (x0 : Vec Ideal S5000x128 .f32) (x1 : Vec Ideal S128x128 .f32) (p : Fin 5000) (q : Fin 128) :
    k0_pay1 (F := Ideal) x0 x1 (ix2 p q) = ∑ u : Fin 128, x0 (ix2 p u) * x1 (ix2 u q) :=
  Cert.DenseRows.matmul_rows_apply dot_S5000x128_S128x128_S5000x128_1_0_0_1_n_n rfl rfl
    (fun _ _ => rfl) (fun _ _ => rfl) (fun _ _ => rfl) (fun _ _ => rfl) none x0 x1 p q

/-- Region 3's block product at entry `(p, q)`: the same, after a re-laying of the left block to its own shape, which is
    the identity. -/
theorem pay3_apply (x0 : Vec Ideal S5000x128 .f32) (x1 : Vec Ideal S128x128 .f32) (p : Fin 5000) (q : Fin 128) :
    k3_pay1 (F := Ideal) x0 x1 (ix2 p q) = ∑ u : Fin 128, x0 (ix2 p u) * x1 (ix2 u q) := by
  unfold k3_pay1
  rw [shapeCast_self]
  exact Cert.DenseRows.matmul_rows_apply dot_S5000x128_S128x128_S5000x128_1_0_0_1_n_n rfl rfl
    (fun _ _ => rfl) (fun _ _ => rfl) (fun _ _ => rfl) (fun _ _ => rfl) none x0 x1 p q

variable (V : (c : Dev nD) → (b : Ref sig .tc) → Buf (Elt Ideal) ((c : Thread nD τ).loc b))

/-! ## Region 0 -/

/-- The block indices of region 0's three windows at grid point `t`, decided once over the ten points: the left array and
    the output move by whole row blocks with the point, the right array stays put. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is rows `5000 t … 5000 t + 4999` of the row-by-row product of the two arrays as the region
    finds them: entry `(p, q)` of the block is `∑ u, X (5000 t + p, u) · W (u, q)`. -/
theorem blk0_eq (c : Dev nD) (t : Fin cfg0.N) :
    (dat0 (F := Ideal) V c).flushed 2 t
      = ((cfg0.win 2).blk t).view.read (Elt Ideal) (mmRows (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts0 t
  funext y
  obtain ⟨p, q, rfl⟩ : ∃ (p : Fin 5000) (q : Fin 128), y = (ix2 p q : S5000x128.Idx) :=
    ⟨y 0, y 1, eq_ix2 (n0 := 5000) (n1 := 128) y⟩
  show k0_pay1 (F := Ideal) (iblk0 V c 0 t) (iblk0 V c 1 t) (ix2 p q)
    = mmRows (V c (Pipeline.arrRef spec0 0)) (V c (Pipeline.arrRef spec0 1)) (((cfg0.win 2).blk t).view.emb (ix2 p q))
  refine (pay0_apply _ _ p q).trans ?_
  unfold mmRows
  refine Finset.sum_congr rfl fun u _ => ?_
  have h0 : iblk0 V c 0 t (ix2 p u)
      = V c (Pipeline.arrRef spec0 0) (ix2 (((cfg0.win 2).blk t).view.emb (ix2 p q) 0) u) := by
    show V c (Pipeline.arrRef spec0 0) (((cfg0.win 0).blk t).view.emb (ix2 p u)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * u.val = u.val; omega
  have h1 : iblk0 V c 1 t (ix2 u q)
      = V c (Pipeline.arrRef spec0 1) (ix2 u (((cfg0.win 2).blk t).view.emb (ix2 p q) 1)) := by
    show V c (Pipeline.arrRef spec0 1) (((cfg0.win 1).blk t).view.emb (ix2 u q)) = _
    refine congrArg _ (funext fun a => Fin.ext ?_)
    match a with
    | ⟨0, _⟩ => show win0_1.index t (0 : Fin 2) * 128 + 1 * u.val = u.val; omega
    | ⟨1, _⟩ => show win0_1.index t (1 : Fin 2) * 128 + 1 * q.val = win0_2.index t (1 : Fin 2) * 128 + 1 * q.val; omega
  rw [h0, h1]

/-- An index of the output array lies in point `t`'s block iff each coordinate lies in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row of the output is written: row `r` lies in the block of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨_, _, _, _, e20, e21⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the ten points the output array of region 0 is the row-by-row product of the left array and the right array as
    the region found them. -/
theorem final0 (c : Dev nD) :
    (dat0 (F := Ideal) V c).arrAt 2 cfg0.N
      = mmRows (V c (Pipeline.arrRef spec0 0)) (V c (Pipeline.arrRef spec0 1)) :=
  (dat0 (F := Ideal) V c).arrAt_eq_of_cover 2
    (mmRows (V c (Pipeline.arrRef spec0 0)) (V c (Pipeline.arrRef spec0 1)))
    (fun t _ => blk0_eq V c t) (cover0)

/-! ## Region 3 -/

/-- The block indices of region 3's three windows at grid point `t`, decided once over the ten points: the left array and
    the output move by whole row blocks with the point, the right array stays put. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is rows `5000 t … 5000 t + 4999` of the row-by-row product of the two arrays as the region
    finds them: entry `(p, q)` of the block is `∑ u, X (5000 t + p, u) · W (u, q)`. -/
theorem blk3_eq (c : Dev nD) (t : Fin cfg3.N) :
    (dat3 (F := Ideal) V c).flushed 2 t
      = ((cfg3.win 2).blk t).view.read (Elt Ideal) (mmRows (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S128x128) hz]
  obtain ⟨e00, e01, e10, e11, e20, e21⟩ := idx_facts3 t
  funext y
  obtain ⟨p, q, rfl⟩ : ∃ (p : Fin 5000) (q : Fin 128), y = (ix2 p q : S5000x128.Idx) :=
    ⟨y 0, y 1, eq_ix2 (n0 := 5000) (n1 := 128) y⟩
  show k3_pay1 (F := Ideal) (iblk3 V c 0 t) (iblk3 V c 1 t) (ix2 p q)
    = mmRows (V c (Pipeline.arrRef spec3 0)) (V c (Pipeline.arrRef spec3 1)) (((cfg3.win 2).blk t).view.emb (ix2 p q))
  refine (pay3_apply _ _ p q).trans ?_
  unfold mmRows
  refine Finset.sum_congr rfl fun u _ => ?_
  have h0 : iblk3 V c 0 t (ix2 p u)
      = V c (Pipeline.arrRef spec3 0) (ix2 (((cfg3.win 2).blk t).view.emb (ix2 p q) 0) u) := by
    show V c (Pipeline.arrRef spec3 0) (((cfg3.win 0).blk t).view.emb (ix2 p u)) = _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * u.val = u.val; omega
  have h1 : iblk3 V c 1 t (ix2 u q)
      = V c (Pipeline.arrRef spec3 1) (ix2 u (((cfg3.win 2).blk t).view.emb (ix2 p q) 1)) := by
    show V c (Pipeline.arrRef spec3 1) (((cfg3.win 1).blk t).view.emb (ix2 u q)) = _
    refine congrArg _ (funext fun a => Fin.ext ?_)
    match a with
    | ⟨0, _⟩ => show win3_1.index t (0 : Fin 2) * 128 + 1 * u.val = u.val; omega
    | ⟨1, _⟩ => show win3_1.index t (1 : Fin 2) * 128 + 1 * q.val = win3_2.index t (1 : Fin 2) * 128 + 1 * q.val; omega
  rw [h0, h1]

/-- An index of the output array lies in point `t`'s block iff each coordinate lies in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v62).slice (win3_2.rect t)).set ↔ _
  rw [View.set_slice_whole, Rect.mem_set_unit]
  exact Iff.rfl

/-- Every row of the output is written: row `r` lies in the block of point `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show _ < grid3.N; rw [N_3]; omega⟩, rfl⟩
  obtain ⟨_, _, _, _, e20, e21⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- After the ten points the output array of region 3 is the row-by-row product of the left array and the right array as
    the region found them. -/
theorem final3 (c : Dev nD) :
    (dat3 (F := Ideal) V c).arrAt 2 cfg3.N
      = mmRows (V c (Pipeline.arrRef spec3 0)) (V c (Pipeline.arrRef spec3 1)) :=
  (dat3 (F := Ideal) V c).arrAt_eq_of_cover 2
    (mmRows (V c (Pipeline.arrRef spec3 0)) (V c (Pipeline.arrRef spec3 1)))
    (fun t _ => blk3_eq V c t) (cover3)

end Cert.MatmulRows

end
-- ==== Proof.Projections.lean ====
import proofs.«144501_j25658134627030_1_alg».proof.Proof.MatmulRows
import proofs.«144501_j25658134627030_1_alg».proof.Proof.Carry
import proofs.«144501_j25658134627030_1_alg».proof.Proof.RefReadP
import Idealize.ShloMosaic.Lib.Pipeline.Value
import Idealize.ShloMosaic.Lib.ValueIdx
import Idealize.ShloMosaic.PureOps.Ideal.Laws

/-!
# The two projections of the layers

Each layer begins by multiplying a `[50000, 128]` array of per-node rows by a `[128, 128]` weight matrix. The kernel does
it block of rows by block of rows; the reference does it as one general dot product contracting the columns of the left
factor against the rows of the right one. Entry `(r, j)` of either is `∑ k, x (r, k) · w (k, j)`, so the two agree
(`mmRows_eq_dot`). Read along the program's fold of buffer contents:

* `proj1_eq`: after the first blocked product its output holds the dot product of the node features and the first weight
  matrix, both at their launch contents (neither has been written before that point);
* `proj2_eq`: after the second blocked product its output holds the dot product of the rectified first layer — supplied
  as a hypothesis about the array that product reads — and the second weight matrix at its launch contents.
-/

noncomputable section

open scoped BigOperators

namespace Cert.KernelIdeal.Projections

open Idealize.ShloMosaic Idealize.ShloMosaic.TcCoe Idealize.SL.Sem
open Idealize.ShloMosaic.ValueIdx
open Cert.KernelIdeal Cert.KernelIdeal.Gen
open Cert.ReferenceIdeal.ReadP (val_main_v7 val_main_v7_apply val_main_v64 val_main_v65)

/-- The row-by-row product is the host's general dot product contracting the left factor's columns against the right
    factor's rows: at entry `(r, j)` both are `∑ k, x (r, k) · w (k, j)`. -/
theorem mmRows_eq_dot (x : S50000x128.Idx → EReal) (w : S128x128.Idx → EReal) :
    Cert.MatmulRows.mmRows x w = val_main_v7 (F := Ideal) x w := by
  funext i
  rw [val_main_v7_apply]
  unfold Cert.MatmulRows.mmRows
  refine Finset.sum_congr rfl fun k _ => ?_
  have el : (ix2 (i 0 : Fin 50000) k : S50000x128.Idx) = Cert.ReferenceIdeal.ReadP.lidx_main_v7 i k :=
    funext fun a => by match a with | ⟨0, _⟩ => rfl | ⟨1, _⟩ => rfl
  have er : (ix2 k (i 1 : Fin 128) : S128x128.Idx) = Cert.ReferenceIdeal.ReadP.ridx_main_v7 i k :=
    funext fun a => by match a with | ⟨0, _⟩ => rfl | ⟨1, _⟩ => rfl
  rw [el, er]

variable (m : (ℓ : Loc nD τ sig) → Buf (Elt Ideal) ℓ) (ρ : Dev nD → PrngReg) (c : Dev nD)

/-- The first projection: when the first blocked product has run, its output array holds the host's dot product of the
    node features and the first weight matrix, both still at their launch contents. -/
theorem proj1_eq :
    W4 m ρ c (Proc.devRef .tc main_v30)
      = val_main_v7 (F := Ideal) (m ((c : Thread nD τ).loc main_arg0)) (m ((c : Thread nD τ).loc main_arg3)) := by
  refine (W4_arr m ρ c 2).trans ?_
  refine (Cert.MatmulRows.final0 (V3 m ρ) c).trans ?_
  show Cert.MatmulRows.mmRows (W3 m ρ c (Proc.devRef .tc main_arg0)) (W3 m ρ c (Proc.devRef .tc main_arg3)) = _
  rw [Carry.arg0_at3, Carry.arg3_at3]
  exact mmRows_eq_dot _ _

/-- The second projection: given that the array the second blocked product reads holds the reference's rectified first
    layer, its output array holds the host's dot product of that layer and the second weight matrix. -/
theorem proj2_eq
    (hrelu : W8 m ρ c (Proc.devRef .tc main_v61)
      = val_main_v64 (F := Ideal) (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))) :
    W9 m ρ c (Proc.devRef .tc main_v62)
      = val_main_v65 (F := Ideal) (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) := by
  refine (W9_arr m ρ c 2).trans ?_
  refine (Cert.MatmulRows.final3 (V8 m ρ) c).trans ?_
  show Cert.MatmulRows.mmRows (W8 m ρ c (Proc.devRef .tc main_v61)) (W8 m ρ c (Proc.devRef .tc main_arg7)) = _
  rw [hrelu, Carry.arg7_at8]
  exact mmRows_eq_dot _ _

end Cert.KernelIdeal.Projections

end
-- ==== Proof.NormRelu.lean ====
/-
  Regions 2 and 5 of the kernel's @main: normalise, scale, shift, clamp at zero — one pointwise kernel on a
  grid of ten points, each point a block of 5000 rows of a [50000, 128] array.

  At every index `i = (r, k)` the region's output array ends holding

      max ((X i − MU (0,0)) · INV (0,0) · Wt (0,k) + B (0,k)) 0

  of the arrays the region finds: `X` the [50000,128] operand, `MU` and `INV` the two [1,1] scalars (the mean
  and the reciprocal of the denominator, whatever they hold), `Wt` and `B` the two [1,128] rows.

  The steps.  (1) The body's arithmetic at one index of a block: the scalar operands are extracted at
  position (0,0) and splat, the two rows are broadcast along the block's rows, and subtraction, the two products, the sum and
  the maximum are the extended reals' own at that index.  (2) Each input block read where the output's
  rectangle says: point `t`'s block of `X` and of the output are rows `5000·t … 5000·t + 4999`, all 128
  columns; the four small operands have one block, the whole array, at every point.  (3) So what point `t`
  writes back is block `t` of the function above.  (4) Row `r` lies in the block of point `r / 5000`, so the
  ten blocks cover the array, and the array ends holding the function everywhere.
-/
import proofs.«144501_j25658134627030_1_alg».proof.Proof.Gen.KernelIdeal.Frame
import Idealize.ShloMosaic.Lib.Pipeline.Value
import Idealize.ShloMosaic.Lib.ValueIdx
import Idealize.ShloMosaic.Lib.ValueIdxCoords
import Idealize.ShloMosaic.PureOps.Ideal
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace NormRelu

open Cert.KernelIdeal Cert.KernelIdeal.Gen

/-- The zero offsets of a whole-block access, as a constant function. -/
theorem hz : (![0, 0] : Fin 2 → Nat) = fun _ => 0 := funext fun a => by fin_cases a <;> rfl

/-! ## The function the output array ends holding -/

/-- Normalise by a given mean and reciprocal denominator (each a [1,1] array read at (0,0)), scale and shift
    column by column (two [1,128] rows), clamp at zero: the value at index `i = (r, k)`. -/
abbrev normAffineRelu (X : S50000x128.Idx → EReal) (MU INV : S1x1.Idx → EReal) (Wt B : S1x128.Idx → EReal) :
    S50000x128.Idx → EReal :=
  fun i => max ((X i - MU (ix2 0 0)) * INV (ix2 0 0) * Wt (ix2 0 (i 1)) + B (ix2 0 (i 1))) 0

/-! ## The body's arithmetic at an index of a block -/

/-- Extracting position (0,0) of a [1,1] vector reads it at the index (0,0). -/
theorem extract00 {α : Type} (v : S1x1.Idx → α) (h : ∀ a, (![0, 0] : Fin 2 → Nat) a < S1x1.size a) :
    extractAt ![0, 0] v h = v (ix2 0 0) :=
  congrArg v (funext fun a => by match a with | ⟨0, _⟩ => rfl | ⟨1, _⟩ => rfl)

/-- A [1,128] row broadcast to [5000,128], read at (p, q), is the row at (0, q). -/
theorem bcastRow {α : Type} (v : S1x128.Idx → α) (h : S1x128.Broadcasts S5000x128) (p : Fin 5000) (q : Fin 128) :
    broadcastTo S5000x128 v h (ix2 p q) = v (ix2 0 q) :=
  broadcastTo_apply v h (ix2 p q) (ix2 0 q) fun a => by
    match a with
    | ⟨0, _⟩ => rfl
    | ⟨1, _⟩ => rfl

/-- The payload of region 2's one store, at the index (p, q) of the block: the block of `X` there minus the
    extracted mean, times the extracted reciprocal, times the scale row at column `q`, plus the shift row at
    column `q`, clamped at zero. -/
theorem pay2_apply (v0 v2 : Vec Ideal S1x1 .f32) (v4 : Vec Ideal S5000x128 .f32) (v10 v14 : Vec Ideal S1x128 .f32)
    (p : Fin 5000) (q : Fin 128) :
    k2_pay1 (F := Ideal) v0 v2 v4 v10 v14 (ix2 p q)
      = max ((v4 (ix2 p q) - v0 (ix2 0 0)) * v2 (ix2 0 0) * v10 (ix2 0 q) + v14 (ix2 0 q)) 0 := by
  unfold k2_pay1
  rw [maximumf_apply, addf_apply, mulf_apply, mulf_apply, subf_apply, broadcast_apply, broadcast_apply,
    broadcast_apply, shapeCast_self, shapeCast_self, shapeCast_self, bcastRow, bcastRow, extract00, extract00]
  show max _ (Ideal.ofBits .f32 0x00000000#32) = _
  rw [Ideal.ofBits_zero_f32]

/-! ## Region 2: the blocks, the write-back, the cover -/

section Region2

variable (V : (c : Dev nD) → (b : Ref sig .tc) → Buf (Elt Ideal) ((c : Thread nD τ).loc b))

/-- The printed index maps, decided over the ten points: the [50000,128] operand's and the output's block at point `t`
    is block `(t, 0)`; every small operand's is block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The [50000,128] operand's block at point `t`, at (y₀, y₁), is the array at row `5000·t + y₀`, column `y₁`. -/
theorem blkX2 (c : Dev nD) (t : Fin cfg2.N) (y : S5000x128.Idx) (k : S50000x128.Idx)
    (hk0 : (k 0).val = 5000 * t.val + (y 0).val) (hk1 : (k 1).val = (y 1).val) :
    (iblk2 (F := Ideal) V c 0 t : Vec Ideal S5000x128 .f32) y
      = (V c (Pipeline.arrRef spec2 0) : S50000x128.Idx → EReal) k := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- The mean's [1,1] block at any point is the array. -/
theorem blkMU2 (c : Dev nD) (t : Fin cfg2.N) (y k : S1x1.Idx) (hk0 : (k 0).val = (y 0).val) (hk1 : (k 1).val = (y 1).val) :
    (iblk2 (F := Ideal) V c 1 t : Vec Ideal S1x1 .f32) y = (V c (Pipeline.arrRef spec2 1) : S1x1.Idx → EReal) k := by
  obtain ⟨-, -, e0, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * (y 0).val = (k 0).val; rw [e0, hk0]; omega
  | ⟨1, _⟩ => show win2_1.index t 1 * 1 + 1 * (y 1).val = (k 1).val; rw [e1, hk1]; omega

/-- The reciprocal's [1,1] block at any point is the array. -/
theorem blkINV2 (c : Dev nD) (t : Fin cfg2.N) (y k : S1x1.Idx) (hk0 : (k 0).val = (y 0).val) (hk1 : (k 1).val = (y 1).val) :
    (iblk2 (F := Ideal) V c 2 t : Vec Ideal S1x1 .f32) y = (V c (Pipeline.arrRef spec2 2) : S1x1.Idx → EReal) k := by
  obtain ⟨-, -, -, -, e0, e1, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * (y 0).val = (k 0).val; rw [e0, hk0]; omega
  | ⟨1, _⟩ => show win2_2.index t 1 * 1 + 1 * (y 1).val = (k 1).val; rw [e1, hk1]; omega

/-- The scale row's [1,128] block at any point is the array. -/
theorem blkWt2 (c : Dev nD) (t : Fin cfg2.N) (y k : S1x128.Idx) (hk0 : (k 0).val = (y 0).val) (hk1 : (k 1).val = (y 1).val) :
    (iblk2 (F := Ideal) V c 3 t : Vec Ideal S1x128 .f32) y = (V c (Pipeline.arrRef spec2 3) : S1x128.Idx → EReal) k := by
  obtain ⟨-, -, -, -, -, -, e0, e1, -⟩ := idx_facts2 t
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * (y 0).val = (k 0).val; rw [e0, hk0]; omega
  | ⟨1, _⟩ => show win2_3.index t 1 * 128 + 1 * (y 1).val = (k 1).val; rw [e1, hk1]; omega

/-- The shift row's [1,128] block at any point is the array. -/
theorem blkB2 (c : Dev nD) (t : Fin cfg2.N) (y k : S1x128.Idx) (hk0 : (k 0).val = (y 0).val) (hk1 : (k 1).val = (y 1).val) :
    (iblk2 (F := Ideal) V c 4 t : Vec Ideal S1x128 .f32) y = (V c (Pipeline.arrRef spec2 4) : S1x128.Idx → EReal) k := by
  obtain ⟨-, -, -, -, -, -, -, -, e0, e1, -⟩ := idx_facts2 t
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (y 0).val = (k 0).val; rw [e0, hk0]; omega
  | ⟨1, _⟩ => show win2_4.index t 1 * 128 + 1 * (y 1).val = (k 1).val; rw [e1, hk1]; omega

/-- Where the output's block at point `t` sits in the array: row `5000·t + y₀`, … -/
theorem embOut2_0 (t : Fin cfg2.N) (y : S5000x128.Idx) :
    ((((cfg2.win 5).blk t).view.emb y : S50000x128.Idx) 0).val = 5000 * t.val + (y 0).val := by
  obtain ⟨-, -, -, -, -, -, -, -, -, -, e0, e1⟩ := idx_facts2 t
  show win2_5.index t 0 * 5000 + 1 * (y 0).val = _
  rw [e0]; omega

/-- … column `y₁`. -/
theorem embOut2_1 (t : Fin cfg2.N) (y : S5000x128.Idx) :
    ((((cfg2.win 5).blk t).view.emb y : S50000x128.Idx) 1).val = (y 1).val := by
  obtain ⟨-, -, -, -, -, -, -, -, -, -, e0, e1⟩ := idx_facts2 t
  show win2_5.index t 1 * 128 + 1 * (y 1).val = _
  rw [e1]; omega

/-- The block equation at one index: the body's payload of the input blocks at point `t`, at index `j` of the block, is
    `normAffineRelu` of the arrays at the place of the array where the output's block has its index `j`. -/
theorem point2_eq (c : Dev nD) (t : Fin cfg2.N) (j : S5000x128.Idx) :
    k2_pay1 (F := Ideal) (iblk2 V c 1 t) (iblk2 V c 2 t) (iblk2 V c 0 t) (iblk2 V c 3 t) (iblk2 V c 4 t) j
      = normAffineRelu (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb j) := by
  obtain ⟨p, q, rfl⟩ : ∃ (p : Fin 5000) (q : Fin 128), j = ix2 p q := ⟨j 0, j 1, eq_ix2 j⟩
  refine (pay2_apply (iblk2 V c 1 t) (iblk2 V c 2 t) (iblk2 V c 0 t) (iblk2 V c 3 t) (iblk2 V c 4 t) p q).trans ?_
  have h1 : ((((cfg2.win 5).blk t).view.emb (ix2 p q) : S50000x128.Idx) 1).val = q.val := embOut2_1 t (ix2 p q)
  rw [blkX2 V c t (ix2 p q) (((cfg2.win 5).blk t).view.emb (ix2 p q)) (embOut2_0 t (ix2 p q)) (embOut2_1 t (ix2 p q)),
    blkMU2 V c t (ix2 0 0) (ix2 0 0) rfl rfl, blkINV2 V c t (ix2 0 0) (ix2 0 0) rfl rfl,
    blkWt2 V c t (ix2 0 q) (ix2 0 ((((cfg2.win 5).blk t).view.emb (ix2 p q) : S50000x128.Idx) 1)) rfl h1,
    blkB2 V c t (ix2 0 q) (ix2 0 ((((cfg2.win 5).blk t).view.emb (ix2 p q) : S50000x128.Idx) 1)) rfl h1]

/-- WHAT POINT `t` WRITES BACK is block `t` of `normAffineRelu` of the arrays the region finds. -/
theorem flushed2_eq (c : Dev nD) (t : Fin cfg2.N) :
    (dat2 (F := Ideal) V c).flushed 5 t
      = ((cfg2.win 5).blk t).view.read (Elt Ideal)
          (normAffineRelu (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x1) hz, View.ld_unit_zero (S := S1x128) hz]
  funext j
  exact point2_eq V c t j

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v61).slice (win2_5.rect t)).set ↔ _
  rw [View.set_slice_whole, Rect.mem_set_unit]
  exact Iff.rfl

/-- THE COVER: row `r` is in the block of point `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  refine ⟨⟨(i 0).val / 5000, ht⟩, flush2_5 _, ?_⟩
  rw [mem_blk2]
  obtain ⟨-, -, -, -, -, -, -, -, -, -, e0, e1⟩ := idx_facts2 ⟨(i 0).val / 5000, ht⟩
  intro a
  match a with
  | ⟨0, _⟩ =>
    show win2_5.index ⟨(i 0).val / 5000, ht⟩ 0 * 5000 ≤ (i 0).val ∧ (i 0).val < win2_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ 1 * 128 ≤ (i 1).val ∧ (i 1).val < win2_5.index ⟨(i 0).val / 5000, ht⟩ 1 * 128 + 128
    rw [e1]; omega

/-- THE ARRAY region 2 leaves: normalise, scale, shift, clamp at zero, at every index (`normAffineRelu` is
    reducible: it is `fun i => max ((X i - MU (0,0)) * INV (0,0) * Wt (0, i 1) + B (0, i 1)) 0`). -/
theorem final2 (c : Dev nD) :
    (dat2 (F := Ideal) V c).arrAt 5 cfg2.N
      = normAffineRelu (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5
    (normAffineRelu (V c (Pipeline.arrRef spec2 0)) (V c (Pipeline.arrRef spec2 1)) (V c (Pipeline.arrRef spec2 2))
      (V c (Pipeline.arrRef spec2 3)) (V c (Pipeline.arrRef spec2 4)))
    (fun t _ => flushed2_eq V c t) (cover2)

/-- The same, with the five arrays the region finds given names. -/
theorem final2_fun (c : Dev nD) (X : S50000x128.Idx → EReal) (MU INV : S1x1.Idx → EReal) (Wt B : S1x128.Idx → EReal)
    (hX : V c (Pipeline.arrRef spec2 0) = X) (hMU : V c (Pipeline.arrRef spec2 1) = MU)
    (hINV : V c (Pipeline.arrRef spec2 2) = INV) (hWt : V c (Pipeline.arrRef spec2 3) = Wt)
    (hB : V c (Pipeline.arrRef spec2 4) = B) :
    (dat2 (F := Ideal) V c).arrAt 5 cfg2.N
      = fun i : S50000x128.Idx => max ((X i - MU (ix2 0 0)) * INV (ix2 0 0) * Wt (ix2 0 (i 1)) + B (ix2 0 (i 1))) 0 := by
  subst hX hMU hINV hWt hB
  exact final2 V c

end Region2

/-! ## Region 5: the same kernel on its own arrays -/

/-- The payload of region 5's one store, at the index (p, q) of the block: the block of `X` there minus the
    extracted mean, times the extracted reciprocal, times the scale row at column `q`, plus the shift row at
    column `q`, clamped at zero. -/
theorem pay5_apply (v0 v2 : Vec Ideal S1x1 .f32) (v4 : Vec Ideal S5000x128 .f32) (v10 v14 : Vec Ideal S1x128 .f32)
    (p : Fin 5000) (q : Fin 128) :
    k5_pay1 (F := Ideal) v0 v2 v4 v10 v14 (ix2 p q)
      = max ((v4 (ix2 p q) - v0 (ix2 0 0)) * v2 (ix2 0 0) * v10 (ix2 0 q) + v14 (ix2 0 q)) 0 := by
  unfold k5_pay1
  rw [maximumf_apply, addf_apply, mulf_apply, mulf_apply, subf_apply, broadcast_apply, broadcast_apply,
    broadcast_apply, shapeCast_self, shapeCast_self, shapeCast_self, bcastRow, bcastRow, extract00, extract00]
  show max _ (Ideal.ofBits .f32 0x00000000#32) = _
  rw [Ideal.ofBits_zero_f32]

section Region5

variable (V : (c : Dev nD) → (b : Ref sig .tc) → Buf (Elt Ideal) ((c : Thread nD τ).loc b))

/-- The printed index maps, decided over the ten points: the [50000,128] operand's and the output's block at point `t`
    is block `(t, 0)`; every small operand's is block `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The [50000,128] operand's block at point `t`, at (y₀, y₁), is the array at row `5000·t + y₀`, column `y₁`. -/
theorem blkX5 (c : Dev nD) (t : Fin cfg5.N) (y : S5000x128.Idx) (k : S50000x128.Idx)
    (hk0 : (k 0).val = 5000 * t.val + (y 0).val) (hk1 : (k 1).val = (y 1).val) :
    (iblk5 (F := Ideal) V c 0 t : Vec Ideal S5000x128 .f32) y
      = (V c (Pipeline.arrRef spec5 0) : S50000x128.Idx → EReal) k := by
  obtain ⟨e0, e1, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t 0 * 5000 + 1 * (y 0).val = (k 0).val; rw [e0, hk0]; omega
  | ⟨1, _⟩ => show win5_0.index t 1 * 128 + 1 * (y 1).val = (k 1).val; rw [e1, hk1]; omega

/-- The mean's [1,1] block at any point is the array. -/
theorem blkMU5 (c : Dev nD) (t : Fin cfg5.N) (y k : S1x1.Idx) (hk0 : (k 0).val = (y 0).val) (hk1 : (k 1).val = (y 1).val) :
    (iblk5 (F := Ideal) V c 1 t : Vec Ideal S1x1 .f32) y = (V c (Pipeline.arrRef spec5 1) : S1x1.Idx → EReal) k := by
  obtain ⟨-, -, e0, e1, -⟩ := idx_facts5 t
  unfold iblk5
  rw [View.read_apply]
  show V c (Pipeline.arrRef spec5 1) _ = V c (Pipeline.arrRef spec5 1) _
  congr 1
  funext a
  apply Fin.ext
  match a with
  | ⟨0, _⟩ => show win5_1.index t 0 * 1 + 1 * (y 0).val = (k 0).val; rw [e0, hk0]; omega
  | ⟨1, _⟩ => show win5_1.index t 1 * 1 + 1 * (y 1).val = (k 1).val; rw [e1, hk1]; omega

/-- The reciprocal's [1,1] block at any point is the array. -/
theorem blkINV5 (c : Dev nD) (t : Fin cfg5.N) (y k : S1x1.Idx) (hk0 : (k 0).val = (y 0).val) (hk1 : (k 1).val = (y 1).val) :
    (iblk5 (F := Ideal) V c 2 t : Vec Ideal S1x1 .f32) y = (V c (Pipeline.arrRef spec5 2) : S1x1.Idx → EReal) k := by
  obtain ⟨-, -, -, -, e0, e1, -⟩ := idx_facts5 t
  unfold iblk5
  rw [View.read_apply]
  show V c (Pipeline.arrRef spec5 2) _ = V c (Pipeline.arrRef spec5 2) _
  congr 1
  funext a
  apply Fin.ext
  match a with
  | ⟨0, _⟩ => show win5_2.index t 0 * 1 + 1 * (y 0).val = (k 0).val; rw [e0, hk0]; omega
  | ⟨1, _⟩ => show win5_2.index t 1 * 1 + 1 * (y 1).val = (k 1).val; rw [e1, hk1]; omega

/-- The scale row's [1,128] block at any point is the array. -/
theorem blkWt5 (c : Dev nD) (t : Fin cfg5.N) (y k : S1x128.Idx) (hk0 : (k 0).val = (y 0).val) (hk1 : (k 1).val = (y 1).val) :
    (iblk5 (F := Ideal) V c 3 t : Vec Ideal S1x128 .f32) y = (V c (Pipeline.arrRef spec5 3) : S1x128.Idx → EReal) k := by
  obtain ⟨-, -, -, -, -, -, e0, e1, -⟩ := idx_facts5 t
  unfold iblk5
  rw [View.read_apply]
  show V c (Pipeline.arrRef spec5 3) _ = V c (Pipeline.arrRef spec5 3) _
  congr 1
  funext a
  apply Fin.ext
  match a with
  | ⟨0, _⟩ => show win5_3.index t 0 * 1 + 1 * (y 0).val = (k 0).val; rw [e0, hk0]; omega
  | ⟨1, _⟩ => show win5_3.index t 1 * 128 + 1 * (y 1).val = (k 1).val; rw [e1, hk1]; omega

/-- The shift row's [1,128] block at any point is the array. -/
theorem blkB5 (c : Dev nD) (t : Fin cfg5.N) (y k : S1x128.Idx) (hk0 : (k 0).val = (y 0).val) (hk1 : (k 1).val = (y 1).val) :
    (iblk5 (F := Ideal) V c 4 t : Vec Ideal S1x128 .f32) y = (V c (Pipeline.arrRef spec5 4) : S1x128.Idx → EReal) k := by
  obtain ⟨-, -, -, -, -, -, -, -, e0, e1, -⟩ := idx_facts5 t
  unfold iblk5
  rw [View.read_apply]
  show V c (Pipeline.arrRef spec5 4) _ = V c (Pipeline.arrRef spec5 4) _
  congr 1
  funext a
  apply Fin.ext
  match a with
  | ⟨0, _⟩ => show win5_4.index t 0 * 1 + 1 * (y 0).val = (k 0).val; rw [e0, hk0]; omega
  | ⟨1, _⟩ => show win5_4.index t 1 * 128 + 1 * (y 1).val = (k 1).val; rw [e1, hk1]; omega

/-- Where the output's block at point `t` sits in the array: row `5000·t + y₀`, … -/
theorem embOut5_0 (t : Fin cfg5.N) (y : S5000x128.Idx) :
    ((((cfg5.win 5).blk t).view.emb y : S50000x128.Idx) 0).val = 5000 * t.val + (y 0).val := by
  obtain ⟨-, -, -, -, -, -, -, -, -, -, e0, e1⟩ := idx_facts5 t
  show win5_5.index t 0 * 5000 + 1 * (y 0).val = _
  rw [e0]; omega

/-- … column `y₁`. -/
theorem embOut5_1 (t : Fin cfg5.N) (y : S5000x128.Idx) :
    ((((cfg5.win 5).blk t).view.emb y : S50000x128.Idx) 1).val = (y 1).val := by
  obtain ⟨-, -, -, -, -, -, -, -, -, -, e0, e1⟩ := idx_facts5 t
  show win5_5.index t 1 * 128 + 1 * (y 1).val = _
  rw [e1]; omega

/-- The block equation at one index: the body's payload of the input blocks at point `t`, at index `j` of the block, is
    `normAffineRelu` of the arrays at the place of the array where the output's block has its index `j`. -/
theorem point5_eq (c : Dev nD) (t : Fin cfg5.N) (j : S5000x128.Idx) :
    k5_pay1 (F := Ideal) (iblk5 V c 1 t) (iblk5 V c 2 t) (iblk5 V c 0 t) (iblk5 V c 3 t) (iblk5 V c 4 t) j
      = normAffineRelu (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb j) := by
  obtain ⟨p, q, rfl⟩ : ∃ (p : Fin 5000) (q : Fin 128), j = ix2 p q := ⟨j 0, j 1, eq_ix2 j⟩
  refine (pay5_apply (iblk5 V c 1 t) (iblk5 V c 2 t) (iblk5 V c 0 t) (iblk5 V c 3 t) (iblk5 V c 4 t) p q).trans ?_
  have h1 : ((((cfg5.win 5).blk t).view.emb (ix2 p q) : S50000x128.Idx) 1).val = q.val := embOut5_1 t (ix2 p q)
  rw [blkX5 V c t (ix2 p q) (((cfg5.win 5).blk t).view.emb (ix2 p q)) (embOut5_0 t (ix2 p q)) (embOut5_1 t (ix2 p q)),
    blkMU5 V c t (ix2 0 0) (ix2 0 0) rfl rfl, blkINV5 V c t (ix2 0 0) (ix2 0 0) rfl rfl,
    blkWt5 V c t (ix2 0 q) (ix2 0 ((((cfg5.win 5).blk t).view.emb (ix2 p q) : S50000x128.Idx) 1)) rfl h1,
    blkB5 V c t (ix2 0 q) (ix2 0 ((((cfg5.win 5).blk t).view.emb (ix2 p q) : S50000x128.Idx) 1)) rfl h1]

/-- WHAT POINT `t` WRITES BACK is block `t` of `normAffineRelu` of the arrays the region finds. -/
theorem flushed5_eq (c : Dev nD) (t : Fin cfg5.N) :
    (dat5 (F := Ideal) V c).flushed 5 t
      = ((cfg5.win 5).blk t).view.read (Elt Ideal)
          (normAffineRelu (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x1) hz, View.ld_unit_zero (S := S1x128) hz]
  funext j
  exact point5_eq V c t j

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v93).slice (win5_5.rect t)).set ↔ _
  rw [View.set_slice_whole, Rect.mem_set_unit]
  exact Iff.rfl

/-- THE COVER: row `r` is in the block of point `r / 5000`. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  have ht : (i 0).val / 5000 < cfg5.N := by rw [hN]; omega
  refine ⟨⟨(i 0).val / 5000, ht⟩, flush5_5 _, ?_⟩
  rw [mem_blk5]
  obtain ⟨-, -, -, -, -, -, -, -, -, -, e0, e1⟩ := idx_facts5 ⟨(i 0).val / 5000, ht⟩
  intro a
  match a with
  | ⟨0, _⟩ =>
    show win5_5.index ⟨(i 0).val / 5000, ht⟩ 0 * 5000 ≤ (i 0).val ∧ (i 0).val < win5_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win5_5.index ⟨(i 0).val / 5000, ht⟩ 1 * 128 ≤ (i 1).val ∧ (i 1).val < win5_5.index ⟨(i 0).val / 5000, ht⟩ 1 * 128 + 128
    rw [e1]; omega

/-- THE ARRAY region 5 leaves: normalise, scale, shift, clamp at zero, at every index (`normAffineRelu` is
    reducible: it is `fun i => max ((X i - MU (0,0)) * INV (0,0) * Wt (0, i 1) + B (0, i 1)) 0`). -/
theorem final5 (c : Dev nD) :
    (dat5 (F := Ideal) V c).arrAt 5 cfg5.N
      = normAffineRelu (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5
    (normAffineRelu (V c (Pipeline.arrRef spec5 0)) (V c (Pipeline.arrRef spec5 1)) (V c (Pipeline.arrRef spec5 2))
      (V c (Pipeline.arrRef spec5 3)) (V c (Pipeline.arrRef spec5 4)))
    (fun t _ => flushed5_eq V c t) (cover5)

/-- The same, with the five arrays the region finds given names. -/
theorem final5_fun (c : Dev nD) (X : S50000x128.Idx → EReal) (MU INV : S1x1.Idx → EReal) (Wt B : S1x128.Idx → EReal)
    (hX : V c (Pipeline.arrRef spec5 0) = X) (hMU : V c (Pipeline.arrRef spec5 1) = MU)
    (hINV : V c (Pipeline.arrRef spec5 2) = INV) (hWt : V c (Pipeline.arrRef spec5 3) = Wt)
    (hB : V c (Pipeline.arrRef spec5 4) = B) :
    (dat5 (F := Ideal) V c).arrAt 5 cfg5.N
      = fun i : S50000x128.Idx => max ((X i - MU (ix2 0 0)) * INV (ix2 0 0) * Wt (ix2 0 (i 1)) + B (ix2 0 (i 1))) 0 := by
  subst hX hMU hINV hWt hB
  exact final5 V c

end Region5

end NormRelu

end
-- ==== Proof.SumSquares.lean ====
/-
  The two whole-array reductions of the first sum / sum-of-squares region.

  The region walks a [50000,128] array in ten row blocks of 5000 rows each. It keeps two [1,1] accumulators whose
  block never moves: at the first row block both are reset to zero, and at every row block the block's sum is added
  to the first accumulator and the sum of the block's squares to the second; both are written back once, after the
  last row block. So the first result array ends holding the sum of x i, and the second the sum of x i * x i, over
  every entry i of the array, as extended reals. The only law used is that a sum may be regrouped (here: by row
  blocks), which needs commutativity and associativity of the addition and nothing else, so no entry is assumed
  finite.
-/
import proofs.«144501_j25658134627030_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.Proof.SumSquares

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-! ## What each case of the body leaves in the two accumulators

At the first grid point the body stores a zero in each accumulator, reads it back, and adds the block's
sum (resp. the sum of the block's squares); at every later point it adds to what the point before left. -/

/-- First point, sum accumulator: the zero just stored, plus the block's sum. -/
theorem out_A_1 (c : Dev nD) (i : grid1.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : cond1_0 i) (x : Vec F S5000x128 .f32) :
    out1_A_1 c i a1 h1 a2 h2 a3 h3 hc x = k1_pay4 x (k1_pay2 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S5000x128) hz]

/-- First point, sum-of-squares accumulator: the zero just stored, plus the sum of the block's squares. -/
theorem out_A_2 (c : Dev nD) (i : grid1.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : cond1_0 i) (x : Vec F S5000x128 .f32) :
    out1_A_2 c i a1 h1 a2 h2 a3 h3 hc x = k1_pay5 x (k1_pay3 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S5000x128) hz]

/-- Later points, sum accumulator: what it held, plus the block's sum. -/
theorem out_B_1 (c : Dev nD) (i : grid1.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : ¬cond1_0 i) (x : Vec F S5000x128 .f32) (xo1 xo2 : Vec F S1x1 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S5000x128) hz,
    View.ld_unit_zero (S := S1x1) hz]

/-- Later points, sum-of-squares accumulator: what it held, plus the sum of the block's squares. -/
theorem out_B_2 (c : Dev nD) (i : grid1.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : ¬cond1_0 i) (x : Vec F S5000x128 .f32) (xo1 xo2 : Vec F S1x1 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S5000x128) hz,
    View.ld_unit_zero (S := S1x1) hz]

/-! ## The body's arithmetic

The body reduces the block over both axes (after re-laying it with a leading unit axis), takes the one entry of the
result, and adds it to the accumulator. Over the extended reals that entry is the sum over every entry of the
block: re-laying is a bijection of the index sets, and a sum does not depend on the order of its terms. -/

/-- The block's total as the body computes it, at any float values: reduce over both axes, re-lay the one entry,
    extract it. -/
@[irreducible] def blockTotal (x : Vec F S5000x128 .f32) : F .f32 :=
  extractAt ![0, 0, 0] (shapeCast S1x1x1
    (multiReduction .add [1, 2] S1 (shapeCast S1x5000x128 x shapeCasts_S5000x128_S1x5000x128) 0x00000000#32
      reduces_S1x5000x128_S1 (.inl rfl) rfl) shapeCasts_S1_S1x1x1) inpos_S1x1x1_p0_0_0

/-- The sum accumulator's new contents: the old ones plus the block's total, at any float values. -/
theorem pay4_eq (x : Vec F S5000x128 .f32) (acc : Vec F S1x1 .f32) :
    k1_pay4 x acc = addf acc (broadcast S1x1 (blockTotal x)) := by
  unfold k1_pay4 k1_pay1 blockTotal
  simp only [shapeCast_self]

/-- The sum-of-squares accumulator's new contents: the old ones plus the total of the block's squares. -/
theorem pay5_eq (x : Vec F S5000x128 .f32) (acc : Vec F S1x1 .f32) :
    k1_pay5 x acc = addf acc (broadcast S1x1 (blockTotal (mulf x x))) := by
  unfold k1_pay5 k1_pay1 blockTotal
  simp only [shapeCast_self]

/-- Summing a block re-laid with a leading unit axis is summing the block. -/
theorem sum_relaid (x : FVec Ideal S5000x128 .f32) (h : S5000x128.ShapeCasts S1x5000x128) :
    ∑ i : S1x5000x128.Idx, shapeCast S1x5000x128 x h i = ∑ k : S5000x128.Idx, x k := by
  unfold shapeCast
  exact Equiv.sum_comp (Shape.reshapeEquiv h) x

/-- Over the extended reals the reduction over both axes, re-laid and extracted, is the sum over the block. -/
theorem total_eq (x : FVec Ideal S5000x128 .f32) (hφ : FKind.Formats FTy.f32)
    (hacc : (0x00000000#32 : BitVec 32) = FKind.add.neutral FTy.f32 hφ) :
    extractAt ![0, 0, 0] (shapeCast S1x1x1
      (multiReduction .add [1, 2] S1 (shapeCast S1x5000x128 x shapeCasts_S5000x128_S1x5000x128) 0x00000000#32
        reduces_S1x5000x128_S1 hφ hacc) shapeCasts_S1_S1x1x1) inpos_S1x1x1_p0_0_0
      = ∑ k : S5000x128.Idx, x k := by
  unfold extractAt
  unfold shapeCast
  refine (Ideal.multiReduction_add_total _ _ reduces_S1x5000x128_S1 (fun b => by fin_cases b; rfl) hφ hacc _).trans ?_
  exact sum_relaid x shapeCasts_S5000x128_S1x5000x128

/-- So the block's total is the sum over the block. -/
theorem blockTotal_eq (x : FVec Ideal S5000x128 .f32) : blockTotal (F := Ideal) x = ∑ k : S5000x128.Idx, x k := by
  unfold blockTotal
  exact total_eq x _ _

/-- The sum accumulator after a point: what it held plus the block's sum. -/
theorem pay4_apply (x : FVec Ideal S5000x128 .f32) (acc : FVec Ideal S1x1 .f32) (j : S1x1.Idx) :
    k1_pay4 (F := Ideal) x acc j = acc j + ∑ k : S5000x128.Idx, x k := by
  rw [pay4_eq, ValueIdx.addf_apply, ValueIdx.broadcast_apply, blockTotal_eq]

/-- The sum-of-squares accumulator after a point: what it held plus the sum of the block's squares. -/
theorem pay5_apply (x : FVec Ideal S5000x128 .f32) (acc : FVec Ideal S1x1 .f32) (j : S1x1.Idx) :
    k1_pay5 (F := Ideal) x acc j = acc j + ∑ k : S5000x128.Idx, x k * x k := by
  rw [pay5_eq, ValueIdx.addf_apply, ValueIdx.broadcast_apply, blockTotal_eq]
  rfl

/-- The contents the first point stores before accumulating are zero. -/
theorem pay2_apply (j : S1x1.Idx) : k1_pay2 (F := Ideal) j = 0 := by
  unfold k1_pay2
  exact Ideal.ofBits_zero_f32
theorem pay3_apply (j : S1x1.Idx) : k1_pay3 (F := Ideal) j = 0 := by
  unfold k1_pay3
  exact Ideal.ofBits_zero_f32

/-! ## Regrouping the whole array's sum by row blocks

The [50000,128] array is ten consecutive blocks of 5000 rows. Row `r` is row `r % 5000` of block `r / 5000`, so a
sum over every entry of the array is the sum over the blocks of each block's sum: only the commutativity and the
associativity of the addition are used, so this holds for any values, infinite ones included. -/

/-- Where entry `y` of row block `t` sits in the whole array: row `5000 t + y₀`, column `y₁`. -/
def rowIdx (t : ℕ) (ht : t < 10) (y : S5000x128.Idx) : S50000x128.Idx :=
  ValueIdx.ix2 (⟨5000 * t + (y 0).val, by have h0 : (y 0).val < 5000 := (y 0).isLt; omega⟩ : Fin 50000) (y 1 : Fin 128)

/-- The sum of `f` over row block `t` (zero past the last block). -/
def blockSum (f : S50000x128.Idx → EReal) (t : ℕ) : EReal :=
  if ht : t < 10 then ∑ y : S5000x128.Idx, f (rowIdx t ht y) else 0

/-- A sum over the 50000 rows, block by block. -/
theorem sum_rows (g : Fin 50000 → EReal) :
    ∑ a : Fin 50000, g a
      = ∑ t : Fin 10, ∑ p : Fin 5000, g ⟨5000 * t.val + p.val, by have := t.isLt; have := p.isLt; omega⟩ := by
  have e := Fintype.sum_equiv (finProdFinEquiv (m := 10) (n := 5000))
    (fun tp : Fin 10 × Fin 5000 => g ⟨5000 * tp.1.val + tp.2.val, by have := tp.1.isLt; have := tp.2.isLt; omega⟩)
    (fun a : Fin (10 * 5000) => g a)
    (fun tp => congrArg g (Fin.ext (by
      show 5000 * tp.1.val + tp.2.val = tp.2.val + 5000 * tp.1.val
      omega)))
  rw [Fintype.sum_prod_type] at e
  exact e.symm

/-- The whole array's sum is the sum of its ten row blocks' sums. -/
theorem sum_blocks (f : S50000x128.Idx → EReal) :
    ∑ t ∈ Finset.range 10, blockSum f t = ∑ i : S50000x128.Idx, f i := by
  rw [Finset.sum_range, ValueIdx.sum_idx2 f, sum_rows fun a => ∑ b : Fin 128, f (ValueIdx.ix2 a b)]
  refine Finset.sum_congr rfl fun t _ => ?_
  unfold blockSum
  rw [dif_pos t.isLt, ValueIdx.sum_idx2 fun y : S5000x128.Idx => f (rowIdx t.val t.isLt y)]
  rfl

/-! ## A row block, read off the array -/

variable (V : (c : Dev nD) → (b : Ref sig .tc) → Buf (Elt Ideal) ((c : Thread nD τ).loc b))

/-- The [50000,128] array the region reads, as the region finds it. -/
abbrev arr1 (c : Dev nD) : S50000x128.Idx → EReal := V c (Pipeline.arrRef spec1 0)

/-- The block of it the input window holds at point `t`. -/
abbrev blk1 (c : Dev nD) (t : Fin cfg1.N) : FVec Ideal S5000x128 .f32 := iblk1 (F := Ideal) V c 0 t

/-- The input window's block index at point `t` is `(t, 0)`: decided over the grid. -/
theorem idx_facts1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry `y` of the block the input window holds at point `t` is the array's entry at row `5000 t + y₀`,
    column `y₁`. -/
theorem blk1_apply (c : Dev nD) (t : Fin cfg1.N) (ht : t.val < 10) (y : S5000x128.Idx) :
    blk1 V c t y = arr1 V c (rowIdx t.val ht y) := by
  unfold blk1 iblk1
  rw [View.read_apply]
  show V c (Pipeline.arrRef spec1 0) _ = V c (Pipeline.arrRef spec1 0) _
  congr 1
  funext a
  apply Fin.ext
  match a with
  | ⟨0, _⟩ =>
    show win1_0.index t 0 * 5000 + 1 * (y 0).val = 5000 * t.val + (y 0).val
    rw [(idx_facts1 t).1]; omega
  | ⟨1, _⟩ =>
    show win1_0.index t 1 * 128 + 1 * (y 1).val = (y 1).val
    rw [(idx_facts1 t).2]; omega

/-- So the block's sum is the array's sum over row block `t`, -/
theorem blk_sum (c : Dev nD) (t : Fin cfg1.N) :
    ∑ y : S5000x128.Idx, blk1 V c t y = blockSum (arr1 V c) t.val := by
  have ht : t.val < 10 := lt_of_lt_of_eq t.isLt (show cfg1.N = 10 from N_1)
  unfold blockSum
  rw [dif_pos ht]
  exact Finset.sum_congr rfl fun y _ => blk1_apply V c t ht y

/-- and the sum of its squares is the sum of the array's squares over row block `t`. -/
theorem blk_sq (c : Dev nD) (t : Fin cfg1.N) :
    ∑ y : S5000x128.Idx, blk1 V c t y * blk1 V c t y = blockSum (fun i => arr1 V c i * arr1 V c i) t.val := by
  have ht : t.val < 10 := lt_of_lt_of_eq t.isLt (show cfg1.N = 10 from N_1)
  unfold blockSum
  rw [dif_pos ht]
  exact Finset.sum_congr rfl fun y _ => by rw [blk1_apply V c t ht y]

/-! ## The accumulators after each point

After point `n` the first accumulator holds the sum of the row blocks `0 … n` and the second the sum of their
squares: at point `0` both are reset to zero before the block's contribution is added, and every later point adds
its block's contribution to what the point before left. By induction on the point. -/

/-- What the first point leaves: zero plus the block's contribution, in each accumulator. -/
theorem outs_zero (c : Dev nD) (h : 0 < cfg1.N) :
    outsAt1 (F := Ideal) V c 0 h
      = (k1_pay4 (F := Ideal) (blk1 V c ⟨0, h⟩) (k1_pay2 (F := Ideal)),
         k1_pay5 (F := Ideal) (blk1 V c ⟨0, h⟩) (k1_pay3 (F := Ideal))) :=
  (outsAt1_A V c ⟨0, h⟩ rfl).trans (Prod.ext
    (out_A_1 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩))
    (out_A_2 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩)))

/-- What a later point leaves: the block's contribution added to what the point before left. -/
theorem outs_succ (c : Dev nD) (n : ℕ) (h : n + 1 < cfg1.N) :
    outsAt1 (F := Ideal) V c (n + 1) h
      = (k1_pay4 (blk1 V c ⟨n + 1, h⟩) (outsAt1 V c n (Nat.lt_of_succ_lt h)).1,
         k1_pay5 (blk1 V c ⟨n + 1, h⟩) (outsAt1 V c n (Nat.lt_of_succ_lt h)).2) := by
  have hN : cfg1.N = 10 := N_1
  have hB : ¬(⟨n + 1, h⟩ : Fin cfg1.N).val % 10 = 0 := by dsimp only; omega
  rw [outsAt1_B V c ⟨n + 1, h⟩ hB, out_B_1, out_B_2]
  rfl

/-- The invariant: after point `n`, the sums over the row blocks `0 … n`. -/
theorem outs_eq (c : Dev nD) : ∀ (n : ℕ) (h : n < cfg1.N) (j : S1x1.Idx),
    (outsAt1 (F := Ideal) V c n h).1 j = ∑ t ∈ Finset.range (n + 1), blockSum (arr1 V c) t
    ∧ (outsAt1 (F := Ideal) V c n h).2 j
        = ∑ t ∈ Finset.range (n + 1), blockSum (fun i => arr1 V c i * arr1 V c i) t
  | 0, h, j => by
    rw [outs_zero V c h]
    dsimp only
    rw [pay4_apply, pay5_apply, pay2_apply, pay3_apply]
    simp only [zero_add, Finset.sum_range_one]
    exact ⟨blk_sum V c ⟨0, h⟩, blk_sq V c ⟨0, h⟩⟩
  | n + 1, h, j => by
    obtain ⟨ih1, ih2⟩ := outs_eq c n (Nat.lt_of_succ_lt h) j
    rw [outs_succ V c n h]
    dsimp only
    rw [pay4_apply, pay5_apply, ih1, ih2, Finset.sum_range_succ _ (n + 1), Finset.sum_range_succ _ (n + 1)]
    exact ⟨congrArg _ (blk_sum V c ⟨n + 1, h⟩), congrArg _ (blk_sq V c ⟨n + 1, h⟩)⟩

/-! ## The result arrays

Each accumulator's block is the whole [1,1] array at every point, and it is written back after the last point
only; so the array ends holding what the last point leaves: the sum over all ten row blocks, which is the sum over
the whole array. -/

theorem lt9 : 9 < cfg1.N := by rw [show cfg1.N = 10 from N_1]; decide

/-- What the last point leaves in the sum accumulator, as contents of the result array (its one block IS the array). -/
abbrev res1_1 (c : Dev nD) : Buf (Elt Ideal) ((c : Thread nD τ).loc main_v47_0) := (outsAt1 (F := Ideal) V c 9 lt9).1
/-- What the last point leaves in the sum-of-squares accumulator, as contents of the result array. -/
abbrev res1_2 (c : Dev nD) : Buf (Elt Ideal) ((c : Thread nD τ).loc main_v47_1) := (outsAt1 (F := Ideal) V c 9 lt9).2

/-- The one write-back of the sum accumulator, after the last point, writes what that point leaves. -/
theorem flushed_eq_1 (c : Dev nD) (t : Fin cfg1.N) (hf : (cfg1.win 1).flush t = true) :
    (dat1 (F := Ideal) V c).flushed 1 t = ((cfg1.win 1).blk t).view.read (Elt Ideal) (res1_1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1]
  have hz' : (fun a => win1_1.index t1_9 a * main_v47_0.ty.shape.size a) = fun _ => 0 :=
    funext fun a => by fin_cases a <;> decide
  exact (Memref.read_access_unit_zero (Elt Ideal) main_v47_0 hz' (fun a => by rw [congrFun hz' a]; simp)
    (res1_1 V c)).symm

/-- The one write-back of the sum-of-squares accumulator likewise. -/
theorem flushed_eq_2 (c : Dev nD) (t : Fin cfg1.N) (hf : (cfg1.win 2).flush t = true) :
    (dat1 (F := Ideal) V c).flushed 2 t = ((cfg1.win 2).blk t).view.read (Elt Ideal) (res1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v47_1.ty.shape.size a) = fun _ => 0 :=
    funext fun a => by fin_cases a <;> decide
  exact (Memref.read_access_unit_zero (Elt Ideal) main_v47_1 hz' (fun a => by rw [congrFun hz' a]; simp)
    (res1_2 V c)).symm

/-- So the sum array ends holding what the last point leaves: that point's block covers its one entry. -/
theorem final_1 (c : Dev nD) : (dat1 (F := Ideal) V c).arrAt 1 cfg1.N = res1_1 V c :=
  (dat1 (F := Ideal) V c).arrAt_eq_of_cover 1 (res1_1 V c) (flushed_eq_1 V c) fun i =>
    ⟨t1_9, (flush1_1 t1_9).mpr rfl, by
      show i ∈ ((View.whole main_v47_0).slice (win1_1.rect t1_9)).set
      rw [View.set_slice_whole, Rect.mem_set_unit]
      intro a
      have h0 : (i 0 : Nat) < 1 := (i 0).isLt
      have h1 : (i 1 : Nat) < 1 := (i 1).isLt
      match a with
      | ⟨0, _⟩ =>
        show win1_1.index t1_9 0 * win1_1.size 0 ≤ (i 0 : Nat)
          ∧ (i 0 : Nat) < win1_1.index t1_9 0 * win1_1.size 0 + win1_1.xsize (grid1.coords t1_9) 0
        rw [show win1_1.index t1_9 0 * win1_1.size 0 = 0 from by decide +kernel,
          show win1_1.xsize (grid1.coords t1_9) 0 = 1 from by decide +kernel]; omega
      | ⟨1, _⟩ =>
        show win1_1.index t1_9 1 * win1_1.size 1 ≤ (i 1 : Nat)
          ∧ (i 1 : Nat) < win1_1.index t1_9 1 * win1_1.size 1 + win1_1.xsize (grid1.coords t1_9) 1
        rw [show win1_1.index t1_9 1 * win1_1.size 1 = 0 from by decide +kernel,
          show win1_1.xsize (grid1.coords t1_9) 1 = 1 from by decide +kernel]; omega⟩

/-- The sum-of-squares array likewise. -/
theorem final_2 (c : Dev nD) : (dat1 (F := Ideal) V c).arrAt 2 cfg1.N = res1_2 V c :=
  (dat1 (F := Ideal) V c).arrAt_eq_of_cover 2 (res1_2 V c) (flushed_eq_2 V c) fun i =>
    ⟨t1_9, (flush1_2 t1_9).mpr rfl, by
      show i ∈ ((View.whole main_v47_1).slice (win1_2.rect t1_9)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 1 from by decide +kernel]; omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 1 from by decide +kernel]; omega⟩

/-- The region's first result: every entry (there is one) of the array is the sum of every entry of the
    [50000,128] array the region reads. -/
theorem final1_sum (c : Dev nD) :
    ∀ j, (dat1 (F := Ideal) V c).arrAt 1 cfg1.N j = ∑ i : S50000x128.Idx, arr1 V c i := fun j => by
  rw [final_1 V c]
  exact ((outs_eq V c 9 lt9 j).1).trans (sum_blocks (arr1 V c))

/-- The region's second result: every entry of the array is the sum of the squares of every entry of the
    [50000,128] array the region reads. -/
theorem final1_sq (c : Dev nD) :
    ∀ j, (dat1 (F := Ideal) V c).arrAt 2 cfg1.N j = ∑ i : S50000x128.Idx, arr1 V c i * arr1 V c i := fun j => by
  rw [final_2 V c]
  exact ((outs_eq V c 9 lt9 j).2).trans (sum_blocks fun i => arr1 V c i * arr1 V c i)

end Cert.Proof.SumSquares

end
-- ==== Proof.SumSquares4.lean ====
/-
  The two whole-array reductions of the second sum / sum-of-squares region.

  The region walks a [50000,128] array in ten row blocks of 5000 rows each. It keeps two [1,1] accumulators whose
  block never moves: at the first row block both are reset to zero, and at every row block the block's sum is added
  to the first accumulator and the sum of the block's squares to the second; both are written back once, after the
  last row block. So the first result array ends holding the sum of x i, and the second the sum of x i * x i, over
  every entry i of the array, as extended reals. The only law used is that a sum may be regrouped (here: by row
  blocks), which needs commutativity and associativity of the addition and nothing else, so no entry is assumed
  finite.
-/
import proofs.«144501_j25658134627030_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.Proof.SumSquares4

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-! ## What each case of the body leaves in the two accumulators

At the first grid point the body stores a zero in each accumulator, reads it back, and adds the block's
sum (resp. the sum of the block's squares); at every later point it adds to what the point before left. -/

/-- First point, sum accumulator: the zero just stored, plus the block's sum. -/
theorem out_A_1 (c : Dev nD) (i : grid4.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : cond4_0 i) (x : Vec F S5000x128 .f32) :
    out4_A_1 c i a1 h1 a2 h2 a3 h3 hc x = k4_pay4 x (k4_pay2 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x1) hz, View.readCov_unit_zero (S := S1x1) _ hz]
  simp only [View.readAt_eq_ld, h1.read_unread, View.ld_unit_zero (S := S5000x128) hz]

/-- First point, sum-of-squares accumulator: the zero just stored, plus the sum of the block's squares. -/
theorem out_A_2 (c : Dev nD) (i : grid4.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : cond4_0 i) (x : Vec F S5000x128 .f32) :
    out4_A_2 c i a1 h1 a2 h2 a3 h3 hc x = k4_pay5 x (k4_pay3 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x1) hz, View.readCov_unit_zero (S := S1x1) _ hz]
  simp only [View.readAt_eq_ld, h1.read_unread, View.ld_unit_zero (S := S5000x128) hz]

/-- Later points, sum accumulator: what it held, plus the block's sum. -/
theorem out_B_1 (c : Dev nD) (i : grid4.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : ¬cond4_0 i) (x : Vec F S5000x128 .f32) (xo1 xo2 : Vec F S1x1 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S5000x128) hz,
    View.ld_unit_zero (S := S1x1) hz]

/-- Later points, sum-of-squares accumulator: what it held, plus the sum of the block's squares. -/
theorem out_B_2 (c : Dev nD) (i : grid4.Coords) (a1 : Memref sig .tc .vmem S5000x128 .f32) (h1 : a1.IsWhole)
    (a2 : Memref sig .tc .vmem S1x1 .f32) (h2 : a2.IsWhole) (a3 : Memref sig .tc .vmem S1x1 .f32) (h3 : a3.IsWhole)
    (hc : ¬cond4_0 i) (x : Vec F S5000x128 .f32) (xo1 xo2 : Vec F S1x1 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S5000x128) hz,
    View.ld_unit_zero (S := S1x1) hz]

/-! ## The body's arithmetic

The body reduces the block over both axes (after re-laying it with a leading unit axis), takes the one entry of the
result, and adds it to the accumulator. Over the extended reals that entry is the sum over every entry of the
block: re-laying is a bijection of the index sets, and a sum does not depend on the order of its terms. -/

/-- The block's total as the body computes it, at any float values: reduce over both axes, re-lay the one entry,
    extract it. -/
@[irreducible] def blockTotal (x : Vec F S5000x128 .f32) : F .f32 :=
  extractAt ![0, 0, 0] (shapeCast S1x1x1
    (multiReduction .add [1, 2] S1 (shapeCast S1x5000x128 x shapeCasts_S5000x128_S1x5000x128) 0x00000000#32
      reduces_S1x5000x128_S1 (.inl rfl) rfl) shapeCasts_S1_S1x1x1) inpos_S1x1x1_p0_0_0

/-- The sum accumulator's new contents: the old ones plus the block's total, at any float values. -/
theorem pay4_eq (x : Vec F S5000x128 .f32) (acc : Vec F S1x1 .f32) :
    k4_pay4 x acc = addf acc (broadcast S1x1 (blockTotal x)) := by
  unfold k4_pay4 k4_pay1 blockTotal
  simp only [shapeCast_self]

/-- The sum-of-squares accumulator's new contents: the old ones plus the total of the block's squares. -/
theorem pay5_eq (x : Vec F S5000x128 .f32) (acc : Vec F S1x1 .f32) :
    k4_pay5 x acc = addf acc (broadcast S1x1 (blockTotal (mulf x x))) := by
  unfold k4_pay5 k4_pay1 blockTotal
  simp only [shapeCast_self]

/-- Summing a block re-laid with a leading unit axis is summing the block. -/
theorem sum_relaid (x : FVec Ideal S5000x128 .f32) (h : S5000x128.ShapeCasts S1x5000x128) :
    ∑ i : S1x5000x128.Idx, shapeCast S1x5000x128 x h i = ∑ k : S5000x128.Idx, x k := by
  unfold shapeCast
  exact Equiv.sum_comp (Shape.reshapeEquiv h) x

/-- Over the extended reals the reduction over both axes, re-laid and extracted, is the sum over the block. -/
theorem total_eq (x : FVec Ideal S5000x128 .f32) (hφ : FKind.Formats FTy.f32)
    (hacc : (0x00000000#32 : BitVec 32) = FKind.add.neutral FTy.f32 hφ) :
    extractAt ![0, 0, 0] (shapeCast S1x1x1
      (multiReduction .add [1, 2] S1 (shapeCast S1x5000x128 x shapeCasts_S5000x128_S1x5000x128) 0x00000000#32
        reduces_S1x5000x128_S1 hφ hacc) shapeCasts_S1_S1x1x1) inpos_S1x1x1_p0_0_0
      = ∑ k : S5000x128.Idx, x k := by
  unfold extractAt
  unfold shapeCast
  refine (Ideal.multiReduction_add_total _ _ reduces_S1x5000x128_S1 (fun b => by fin_cases b; rfl) hφ hacc _).trans ?_
  exact sum_relaid x shapeCasts_S5000x128_S1x5000x128

/-- So the block's total is the sum over the block. -/
theorem blockTotal_eq (x : FVec Ideal S5000x128 .f32) : blockTotal (F := Ideal) x = ∑ k : S5000x128.Idx, x k := by
  unfold blockTotal
  exact total_eq x _ _

/-- The sum accumulator after a point: what it held plus the block's sum. -/
theorem pay4_apply (x : FVec Ideal S5000x128 .f32) (acc : FVec Ideal S1x1 .f32) (j : S1x1.Idx) :
    k4_pay4 (F := Ideal) x acc j = acc j + ∑ k : S5000x128.Idx, x k := by
  rw [pay4_eq, ValueIdx.addf_apply, ValueIdx.broadcast_apply, blockTotal_eq]

/-- The sum-of-squares accumulator after a point: what it held plus the sum of the block's squares. -/
theorem pay5_apply (x : FVec Ideal S5000x128 .f32) (acc : FVec Ideal S1x1 .f32) (j : S1x1.Idx) :
    k4_pay5 (F := Ideal) x acc j = acc j + ∑ k : S5000x128.Idx, x k * x k := by
  rw [pay5_eq, ValueIdx.addf_apply, ValueIdx.broadcast_apply, blockTotal_eq]
  rfl

/-- The contents the first point stores before accumulating are zero. -/
theorem pay2_apply (j : S1x1.Idx) : k4_pay2 (F := Ideal) j = 0 := by
  unfold k4_pay2
  exact Ideal.ofBits_zero_f32
theorem pay3_apply (j : S1x1.Idx) : k4_pay3 (F := Ideal) j = 0 := by
  unfold k4_pay3
  exact Ideal.ofBits_zero_f32

/-! ## Regrouping the whole array's sum by row blocks

The [50000,128] array is ten consecutive blocks of 5000 rows. Row `r` is row `r % 5000` of block `r / 5000`, so a
sum over every entry of the array is the sum over the blocks of each block's sum: only the commutativity and the
associativity of the addition are used, so this holds for any values, infinite ones included. -/

/-- Where entry `y` of row block `t` sits in the whole array: row `5000 t + y₀`, column `y₁`. -/
def rowIdx (t : ℕ) (ht : t < 10) (y : S5000x128.Idx) : S50000x128.Idx :=
  ValueIdx.ix2 (⟨5000 * t + (y 0).val, by have h0 : (y 0).val < 5000 := (y 0).isLt; omega⟩ : Fin 50000) (y 1 : Fin 128)

/-- The sum of `f` over row block `t` (zero past the last block). -/
def blockSum (f : S50000x128.Idx → EReal) (t : ℕ) : EReal :=
  if ht : t < 10 then ∑ y : S5000x128.Idx, f (rowIdx t ht y) else 0

/-- A sum over the 50000 rows, block by block. -/
theorem sum_rows (g : Fin 50000 → EReal) :
    ∑ a : Fin 50000, g a
      = ∑ t : Fin 10, ∑ p : Fin 5000, g ⟨5000 * t.val + p.val, by have := t.isLt; have := p.isLt; omega⟩ := by
  have e := Fintype.sum_equiv (finProdFinEquiv (m := 10) (n := 5000))
    (fun tp : Fin 10 × Fin 5000 => g ⟨5000 * tp.1.val + tp.2.val, by have := tp.1.isLt; have := tp.2.isLt; omega⟩)
    (fun a : Fin (10 * 5000) => g a)
    (fun tp => congrArg g (Fin.ext (by
      show 5000 * tp.1.val + tp.2.val = tp.2.val + 5000 * tp.1.val
      omega)))
  rw [Fintype.sum_prod_type] at e
  exact e.symm

/-- The whole array's sum is the sum of its ten row blocks' sums. -/
theorem sum_blocks (f : S50000x128.Idx → EReal) :
    ∑ t ∈ Finset.range 10, blockSum f t = ∑ i : S50000x128.Idx, f i := by
  rw [Finset.sum_range, ValueIdx.sum_idx2 f, sum_rows fun a => ∑ b : Fin 128, f (ValueIdx.ix2 a b)]
  refine Finset.sum_congr rfl fun t _ => ?_
  unfold blockSum
  rw [dif_pos t.isLt, ValueIdx.sum_idx2 fun y : S5000x128.Idx => f (rowIdx t.val t.isLt y)]
  rfl

/-! ## A row block, read off the array -/

variable (V : (c : Dev nD) → (b : Ref sig .tc) → Buf (Elt Ideal) ((c : Thread nD τ).loc b))

/-- The [50000,128] array the region reads, as the region finds it. -/
abbrev arr4 (c : Dev nD) : S50000x128.Idx → EReal := V c (Pipeline.arrRef spec4 0)

/-- The block of it the input window holds at point `t`. -/
abbrev blk4 (c : Dev nD) (t : Fin cfg4.N) : FVec Ideal S5000x128 .f32 := iblk4 (F := Ideal) V c 0 t

/-- The input window's block index at point `t` is `(t, 0)`: decided over the grid. -/
theorem idx_facts4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Entry `y` of the block the input window holds at point `t` is the array's entry at row `5000 t + y₀`,
    column `y₁`. -/
theorem blk4_apply (c : Dev nD) (t : Fin cfg4.N) (ht : t.val < 10) (y : S5000x128.Idx) :
    blk4 V c t y = arr4 V c (rowIdx t.val ht y) := by
  unfold blk4 iblk4
  rw [View.read_apply]
  show V c (Pipeline.arrRef spec4 0) _ = V c (Pipeline.arrRef spec4 0) _
  congr 1
  funext a
  apply Fin.ext
  match a with
  | ⟨0, _⟩ =>
    show win4_0.index t 0 * 5000 + 1 * (y 0).val = 5000 * t.val + (y 0).val
    rw [(idx_facts4 t).1]; omega
  | ⟨1, _⟩ =>
    show win4_0.index t 1 * 128 + 1 * (y 1).val = (y 1).val
    rw [(idx_facts4 t).2]; omega

/-- So the block's sum is the array's sum over row block `t`, -/
theorem blk_sum (c : Dev nD) (t : Fin cfg4.N) :
    ∑ y : S5000x128.Idx, blk4 V c t y = blockSum (arr4 V c) t.val := by
  have ht : t.val < 10 := lt_of_lt_of_eq t.isLt (show cfg4.N = 10 from N_4)
  unfold blockSum
  rw [dif_pos ht]
  exact Finset.sum_congr rfl fun y _ => blk4_apply V c t ht y

/-- and the sum of its squares is the sum of the array's squares over row block `t`. -/
theorem blk_sq (c : Dev nD) (t : Fin cfg4.N) :
    ∑ y : S5000x128.Idx, blk4 V c t y * blk4 V c t y = blockSum (fun i => arr4 V c i * arr4 V c i) t.val := by
  have ht : t.val < 10 := lt_of_lt_of_eq t.isLt (show cfg4.N = 10 from N_4)
  unfold blockSum
  rw [dif_pos ht]
  exact Finset.sum_congr rfl fun y _ => by rw [blk4_apply V c t ht y]

/-! ## The accumulators after each point

After point `n` the first accumulator holds the sum of the row blocks `0 … n` and the second the sum of their
squares: at point `0` both are reset to zero before the block's contribution is added, and every later point adds
its block's contribution to what the point before left. By induction on the point. -/

/-- What the first point leaves: zero plus the block's contribution, in each accumulator. -/
theorem outs_zero (c : Dev nD) (h : 0 < cfg4.N) :
    outsAt4 (F := Ideal) V c 0 h
      = (k4_pay4 (F := Ideal) (blk4 V c ⟨0, h⟩) (k4_pay2 (F := Ideal)),
         k4_pay5 (F := Ideal) (blk4 V c ⟨0, h⟩) (k4_pay3 (F := Ideal))) :=
  (outsAt4_A V c ⟨0, h⟩ rfl).trans (Prod.ext
    (out_A_1 (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr rfl) (iblk4 V c 0 ⟨0, h⟩))
    (out_A_2 (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr rfl) (iblk4 V c 0 ⟨0, h⟩)))

/-- What a later point leaves: the block's contribution added to what the point before left. -/
theorem outs_succ (c : Dev nD) (n : ℕ) (h : n + 1 < cfg4.N) :
    outsAt4 (F := Ideal) V c (n + 1) h
      = (k4_pay4 (blk4 V c ⟨n + 1, h⟩) (outsAt4 V c n (Nat.lt_of_succ_lt h)).1,
         k4_pay5 (blk4 V c ⟨n + 1, h⟩) (outsAt4 V c n (Nat.lt_of_succ_lt h)).2) := by
  have hN : cfg4.N = 10 := N_4
  have hB : ¬(⟨n + 1, h⟩ : Fin cfg4.N).val % 10 = 0 := by dsimp only; omega
  rw [outsAt4_B V c ⟨n + 1, h⟩ hB, out_B_1, out_B_2]
  rfl

/-- The invariant: after point `n`, the sums over the row blocks `0 … n`. -/
theorem outs_eq (c : Dev nD) : ∀ (n : ℕ) (h : n < cfg4.N) (j : S1x1.Idx),
    (outsAt4 (F := Ideal) V c n h).1 j = ∑ t ∈ Finset.range (n + 1), blockSum (arr4 V c) t
    ∧ (outsAt4 (F := Ideal) V c n h).2 j
        = ∑ t ∈ Finset.range (n + 1), blockSum (fun i => arr4 V c i * arr4 V c i) t
  | 0, h, j => by
    rw [outs_zero V c h]
    dsimp only
    rw [pay4_apply, pay5_apply, pay2_apply, pay3_apply]
    simp only [zero_add, Finset.sum_range_one]
    exact ⟨blk_sum V c ⟨0, h⟩, blk_sq V c ⟨0, h⟩⟩
  | n + 1, h, j => by
    obtain ⟨ih1, ih2⟩ := outs_eq c n (Nat.lt_of_succ_lt h) j
    rw [outs_succ V c n h]
    dsimp only
    rw [pay4_apply, pay5_apply, ih1, ih2, Finset.sum_range_succ _ (n + 1), Finset.sum_range_succ _ (n + 1)]
    exact ⟨congrArg _ (blk_sum V c ⟨n + 1, h⟩), congrArg _ (blk_sq V c ⟨n + 1, h⟩)⟩

/-! ## The result arrays

Each accumulator's block is the whole [1,1] array at every point, and it is written back after the last point
only; so the array ends holding what the last point leaves: the sum over all ten row blocks, which is the sum over
the whole array. -/

theorem lt9 : 9 < cfg4.N := by rw [show cfg4.N = 10 from N_4]; decide

/-- What the last point leaves in the sum accumulator, as contents of the result array (its one block IS the array). -/
abbrev res4_1 (c : Dev nD) : Buf (Elt Ideal) ((c : Thread nD τ).loc main_v79_0) := (outsAt4 (F := Ideal) V c 9 lt9).1
/-- What the last point leaves in the sum-of-squares accumulator, as contents of the result array. -/
abbrev res4_2 (c : Dev nD) : Buf (Elt Ideal) ((c : Thread nD τ).loc main_v79_1) := (outsAt4 (F := Ideal) V c 9 lt9).2

/-- The one write-back of the sum accumulator, after the last point, writes what that point leaves. -/
theorem flushed_eq_1 (c : Dev nD) (t : Fin cfg4.N) (hf : (cfg4.win 1).flush t = true) :
    (dat4 (F := Ideal) V c).flushed 1 t = ((cfg4.win 1).blk t).view.read (Elt Ideal) (res4_1 V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 (F := Ideal) V c).after 1 t4_9) = _
  rw [after4_1]
  have hz' : (fun a => win4_1.index t4_9 a * main_v79_0.ty.shape.size a) = fun _ => 0 :=
    funext fun a => by fin_cases a <;> decide
  exact (Memref.read_access_unit_zero (Elt Ideal) main_v79_0 hz' (fun a => by rw [congrFun hz' a]; simp)
    (res4_1 V c)).symm

/-- The one write-back of the sum-of-squares accumulator likewise. -/
theorem flushed_eq_2 (c : Dev nD) (t : Fin cfg4.N) (hf : (cfg4.win 2).flush t = true) :
    (dat4 (F := Ideal) V c).flushed 2 t = ((cfg4.win 2).blk t).view.read (Elt Ideal) (res4_2 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 (F := Ideal) V c).after 2 t4_9) = _
  rw [after4_2]
  have hz' : (fun a => win4_2.index t4_9 a * main_v79_1.ty.shape.size a) = fun _ => 0 :=
    funext fun a => by fin_cases a <;> decide
  exact (Memref.read_access_unit_zero (Elt Ideal) main_v79_1 hz' (fun a => by rw [congrFun hz' a]; simp)
    (res4_2 V c)).symm

/-- So the sum array ends holding what the last point leaves: that point's block covers its one entry. -/
theorem final_1 (c : Dev nD) : (dat4 (F := Ideal) V c).arrAt 1 cfg4.N = res4_1 V c :=
  (dat4 (F := Ideal) V c).arrAt_eq_of_cover 1 (res4_1 V c) (flushed_eq_1 V c) fun i =>
    ⟨t4_9, (flush4_1 t4_9).mpr rfl, by
      show i ∈ ((View.whole main_v79_0).slice (win4_1.rect t4_9)).set
      rw [View.set_slice_whole, Rect.mem_set_unit]
      intro a
      have h0 : (i 0 : Nat) < 1 := (i 0).isLt
      have h1 : (i 1 : Nat) < 1 := (i 1).isLt
      match a with
      | ⟨0, _⟩ =>
        show win4_1.index t4_9 0 * win4_1.size 0 ≤ (i 0 : Nat)
          ∧ (i 0 : Nat) < win4_1.index t4_9 0 * win4_1.size 0 + win4_1.xsize (grid4.coords t4_9) 0
        rw [show win4_1.index t4_9 0 * win4_1.size 0 = 0 from by decide +kernel,
          show win4_1.xsize (grid4.coords t4_9) 0 = 1 from by decide +kernel]; omega
      | ⟨1, _⟩ =>
        show win4_1.index t4_9 1 * win4_1.size 1 ≤ (i 1 : Nat)
          ∧ (i 1 : Nat) < win4_1.index t4_9 1 * win4_1.size 1 + win4_1.xsize (grid4.coords t4_9) 1
        rw [show win4_1.index t4_9 1 * win4_1.size 1 = 0 from by decide +kernel,
          show win4_1.xsize (grid4.coords t4_9) 1 = 1 from by decide +kernel]; omega⟩

/-- The sum-of-squares array likewise. -/
theorem final_2 (c : Dev nD) : (dat4 (F := Ideal) V c).arrAt 2 cfg4.N = res4_2 V c :=
  (dat4 (F := Ideal) V c).arrAt_eq_of_cover 2 (res4_2 V c) (flushed_eq_2 V c) fun i =>
    ⟨t4_9, (flush4_2 t4_9).mpr rfl, by
      show i ∈ ((View.whole main_v79_1).slice (win4_2.rect t4_9)).set
      rw [View.set_slice_whole, Rect.mem_set_unit]
      intro a
      have h0 : (i 0 : Nat) < 1 := (i 0).isLt
      have h1 : (i 1 : Nat) < 1 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 1 from by decide +kernel]; omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 1 from by decide +kernel]; omega⟩

/-- The region's first result: every entry (there is one) of the array is the sum of every entry of the
    [50000,128] array the region reads. -/
theorem final4_sum (c : Dev nD) :
    ∀ j, (dat4 (F := Ideal) V c).arrAt 1 cfg4.N j = ∑ i : S50000x128.Idx, arr4 V c i := fun j => by
  rw [final_1 V c]
  exact ((outs_eq V c 9 lt9 j).1).trans (sum_blocks (arr4 V c))

/-- The region's second result: every entry of the array is the sum of the squares of every entry of the
    [50000,128] array the region reads. -/
theorem final4_sq (c : Dev nD) :
    ∀ j, (dat4 (F := Ideal) V c).arrAt 2 cfg4.N j = ∑ i : S50000x128.Idx, arr4 V c i * arr4 V c i := fun j => by
  rw [final_2 V c]
  exact ((outs_eq V c 9 lt9 j).2).trans (sum_blocks fun i => arr4 V c i * arr4 V c i)

end Cert.Proof.SumSquares4

end
-- ==== Proof.Consts.lean ====
/-
  The float words the two programs spell, as the extended reals they denote at the exact instance: zero, one, the
  element count 50000·128 = 6400000 by which both programs divide the sums, and the small positive constant
  10995116 / 2^40 (the single-precision word nearest 1e-5) added to the standard deviation.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 6.4e6 denotes the real 6400000, the number of entries of a 50000 × 128 array. -/
theorem ofBits_count : Ideal.ofBits .f32 0x4AC35000#32 = ((6400000 : ℝ) : EReal) := by
  simp [Ideal.ofBits, Ideal.ieee, -EReal.coe_mul]; norm_num

/-- The word 0x3727C5AC denotes the positive real 10995116 / 2^40. -/
theorem ofBits_eps : Ideal.ofBits .f32 0x3727C5AC#32 = (((10995116 : ℝ) / 2 ^ 40 : ℝ) : EReal) := by
  simp [Ideal.ofBits, Ideal.ieee, -EReal.coe_mul]; norm_num

theorem eps_pos : (0 : ℝ) < (10995116 : ℝ) / 2 ^ 40 := by norm_num

end Cert.Consts

end
-- ==== Proof.NormScalars.lean ====
/-
  The normalisation scalars of each layer, and its weight and bias rows.

  Between a layer's statistics step, which leaves the two [1,1] sums S (of the entries) and Q (of their squares)
  of the 50000 × 128 activations, and its normalising step, the program computes, on scalars,
      mu  = S / n,        n = 50000 · 128 = 6400000,
      inv = 1 / (sqrt (Q / n - mu · mu) + eps),   eps = 10995116 / 2^40,
  stores each as a [1,1] array, and lays the layer's weight and bias vectors [128] out as rows [1,128].
  Read at their indices these arrays are exactly those expressions of the sums' entries (0, 0), with the division,
  the square root, the sum, the difference and the product those of the extended reals, and the rows are the
  argument vectors' launch contents. A reshape moves no value: between shapes of one element it reads the one
  entry, and [128] → [1,128] at (0, j) reads entry j.
-/
import proofs.«144501_j25658134627030_1_alg».proof.Proof.Carry
import proofs.«144501_j25658134627030_1_alg».proof.Proof.Consts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.NormScalars

open Idealize.ShloMosaic Idealize.ShloMosaic.TcCoe Idealize.SL.Sem
open Idealize.ShloMosaic.Pipeline (Dat Cfg Window)
open Cert.KernelIdeal Cert.KernelIdeal.Gen
open Idealize.ShloMosaic.StableHlo Idealize.ShloMosaic.ValueIdx

variable (m : (ℓ : Loc nD τ sig) → Buf (Elt Ideal) ℓ) (ρ : Dev nD → PrngReg) (c : Dev nD)

/-! ## Reshapes between shapes of one element -/

/-- A reshape between two shapes of one element each reads the one entry: both row-major positions are 0. -/
theorem shapeCast_single {s t : Shape} {α : Type} (hs : s.numel = 1) (ht : t.numel = 1) (x : s.Idx → α)
    (h : s.ShapeCasts t) (j : t.Idx) (k : s.Idx) : shapeCast t x h j = x k :=
  shapeCast_apply x h j k (by
    have h1 := (s.rowMajor k).isLt
    have h2 := (t.rowMajor j).isLt
    omega)

/-- The [1,1] array reshaped to a scalar, read at the scalar's one index, is its entry (0, 0). -/
theorem toScalar_at {α : Type} (x : S1x1.Idx → α) (h : S1x1.ShapeCasts S_) :
    shapeCast S_ x h ix0 = x (ix2 0 0) :=
  shapeCast_single (by decide) (by decide) x h ix0 (ix2 0 0)

/-- A scalar reshaped to [1,1], read at (0, 0), is the scalar. -/
theorem ofScalar_at {α : Type} (x : S_.Idx → α) (h : S_.ShapeCasts S1x1) :
    shapeCast S1x1 x h (ix2 0 0) = x ix0 :=
  shapeCast_single (by decide) (by decide) x h (ix2 0 0) ix0

/-! ## Layer 1 -/

/-- Layer 1's mean: the [1,1] sum S divided by the element count, mu = S / 6400000. -/
theorem mean1_at :
    W7 m ρ c (Proc.devRef .tc main_v59) (ix2 0 0) = Ideal.div (W6 m ρ c (Proc.devRef .tc main_v47_0) (ix2 0 0)) ((6400000 : ℝ) : EReal) := by
  show StableHlo.after hostOps2 (W6 m ρ c) (Proc.devRef .tc main_v59) (ix2 0 0) = _
  after_results
  show shapeCast S1x1 (Host.divf (shapeCast S_ (W6 m ρ c (Proc.devRef .tc main_v47_0)) shapeCasts_S1x1_S_) (constant (F := Ideal) S_ .f32 0x4AC35000#32)) shapeCasts_S_S1x1 (ix2 0 0) = _
  rw [ofScalar_at]
  show Ideal.div ((shapeCast S_ (W6 m ρ c (Proc.devRef .tc main_v47_0)) shapeCasts_S1x1_S_) ix0) (Ideal.ofBits .f32 0x4AC35000#32) = _
  rw [toScalar_at, Cert.Consts.ofBits_count]

/-- Layer 1's reciprocal deviation: with S and Q the two [1,1] sums and n = 6400000,
    inv = 1 / (sqrt (Q / n - (S / n) * (S / n)) + eps), eps = 10995116 / 2^40. -/
theorem inv1_at :
    W7 m ρ c (Proc.devRef .tc main_v60) (ix2 0 0)
      = Ideal.div 1 (Ideal.sqrt (Ideal.div (W6 m ρ c (Proc.devRef .tc main_v47_1) (ix2 0 0)) ((6400000 : ℝ) : EReal)
          - Ideal.div (W6 m ρ c (Proc.devRef .tc main_v47_0) (ix2 0 0)) ((6400000 : ℝ) : EReal) * Ideal.div (W6 m ρ c (Proc.devRef .tc main_v47_0) (ix2 0 0)) ((6400000 : ℝ) : EReal))
        + (((10995116 : ℝ) / 2 ^ 40 : ℝ) : EReal)) := by
  show StableHlo.after hostOps2 (W6 m ρ c) (Proc.devRef .tc main_v60) (ix2 0 0) = _
  after_results
  show shapeCast S1x1 (Host.divf (constant (F := Ideal) S_ .f32 0x3F800000#32)
      (addf (Host.sqrt (subf (Host.divf (shapeCast S_ (W6 m ρ c (Proc.devRef .tc main_v47_1)) shapeCasts_S1x1_S_) (constant (F := Ideal) S_ .f32 0x4AC35000#32)) (mulf (Host.divf (shapeCast S_ (W6 m ρ c (Proc.devRef .tc main_v47_0)) shapeCasts_S1x1_S_) (constant (F := Ideal) S_ .f32 0x4AC35000#32)) (Host.divf (shapeCast S_ (W6 m ρ c (Proc.devRef .tc main_v47_0)) shapeCasts_S1x1_S_) (constant (F := Ideal) S_ .f32 0x4AC35000#32)))))
        (constant (F := Ideal) S_ .f32 0x3727C5AC#32))) shapeCasts_S_S1x1 (ix2 0 0) = _
  rw [ofScalar_at]
  show Ideal.div (Ideal.ofBits .f32 0x3F800000#32)
      (Ideal.sqrt (Ideal.div ((shapeCast S_ (W6 m ρ c (Proc.devRef .tc main_v47_1)) shapeCasts_S1x1_S_) ix0) (Ideal.ofBits .f32 0x4AC35000#32)
          - Ideal.div ((shapeCast S_ (W6 m ρ c (Proc.devRef .tc main_v47_0)) shapeCasts_S1x1_S_) ix0) (Ideal.ofBits .f32 0x4AC35000#32)
            * Ideal.div ((shapeCast S_ (W6 m ρ c (Proc.devRef .tc main_v47_0)) shapeCasts_S1x1_S_) ix0) (Ideal.ofBits .f32 0x4AC35000#32))
        + Ideal.ofBits .f32 0x3727C5AC#32) = _
  rw [toScalar_at, toScalar_at, Cert.Consts.ofBits_one, Cert.Consts.ofBits_count, Cert.Consts.ofBits_eps,
    EReal.coe_one]

/-- Layer 1's weight row: the weight vector [128] reshaped to [1,128], read at (0, j), is the launch
    contents of the weight argument at j (no earlier step writes that argument). -/
theorem weight1_at (j : Fin 128) :
    W7 m ρ c (Proc.devRef .tc main_v57) (ix2 0 j) = m ((c : Thread nD τ).loc main_arg5) (ix1 j) := by
  show StableHlo.after hostOps2 (W6 m ρ c) (Proc.devRef .tc main_v57) (ix2 0 j) = _
  after_results
  show shapeCast S1x128 (W6 m ρ c (Proc.devRef .tc main_arg5)) shapeCasts_S128_S1x128 (ix2 0 j) = _
  rw [shapeCast_a_1a_apply]
  exact congrFun (Carry.arg5_at6 m ρ c) (ix1 j)

/-- Layer 1's bias row: the bias vector [128] reshaped to [1,128], read at (0, j), is the launch
    contents of the bias argument at j. -/
theorem bias1_at (j : Fin 128) :
    W7 m ρ c (Proc.devRef .tc main_v58) (ix2 0 j) = m ((c : Thread nD τ).loc main_arg6) (ix1 j) := by
  show StableHlo.after hostOps2 (W6 m ρ c) (Proc.devRef .tc main_v58) (ix2 0 j) = _
  after_results
  show shapeCast S1x128 (W6 m ρ c (Proc.devRef .tc main_arg6)) shapeCasts_S128_S1x128 (ix2 0 j) = _
  rw [shapeCast_a_1a_apply]
  exact congrFun (Carry.arg6_at6 m ρ c) (ix1 j)

/-! ## Layer 2 -/

/-- Layer 2's mean: the [1,1] sum S divided by the element count, mu = S / 6400000. -/
theorem mean2_at :
    W12 m ρ c (Proc.devRef .tc main_v91) (ix2 0 0) = Ideal.div (W11 m ρ c (Proc.devRef .tc main_v79_0) (ix2 0 0)) ((6400000 : ℝ) : EReal) := by
  show StableHlo.after hostOps5 (W11 m ρ c) (Proc.devRef .tc main_v91) (ix2 0 0) = _
  after_results
  show shapeCast S1x1 (Host.divf (shapeCast S_ (W11 m ρ c (Proc.devRef .tc main_v79_0)) shapeCasts_S1x1_S_) (constant (F := Ideal) S_ .f32 0x4AC35000#32)) shapeCasts_S_S1x1 (ix2 0 0) = _
  rw [ofScalar_at]
  show Ideal.div ((shapeCast S_ (W11 m ρ c (Proc.devRef .tc main_v79_0)) shapeCasts_S1x1_S_) ix0) (Ideal.ofBits .f32 0x4AC35000#32) = _
  rw [toScalar_at, Cert.Consts.ofBits_count]

/-- Layer 2's reciprocal deviation: with S and Q the two [1,1] sums and n = 6400000,
    inv = 1 / (sqrt (Q / n - (S / n) * (S / n)) + eps), eps = 10995116 / 2^40. -/
theorem inv2_at :
    W12 m ρ c (Proc.devRef .tc main_v92) (ix2 0 0)
      = Ideal.div 1 (Ideal.sqrt (Ideal.div (W11 m ρ c (Proc.devRef .tc main_v79_1) (ix2 0 0)) ((6400000 : ℝ) : EReal)
          - Ideal.div (W11 m ρ c (Proc.devRef .tc main_v79_0) (ix2 0 0)) ((6400000 : ℝ) : EReal) * Ideal.div (W11 m ρ c (Proc.devRef .tc main_v79_0) (ix2 0 0)) ((6400000 : ℝ) : EReal))
        + (((10995116 : ℝ) / 2 ^ 40 : ℝ) : EReal)) := by
  show StableHlo.after hostOps5 (W11 m ρ c) (Proc.devRef .tc main_v92) (ix2 0 0) = _
  after_results
  show shapeCast S1x1 (Host.divf (constant (F := Ideal) S_ .f32 0x3F800000#32)
      (addf (Host.sqrt (subf (Host.divf (shapeCast S_ (W11 m ρ c (Proc.devRef .tc main_v79_1)) shapeCasts_S1x1_S_) (constant (F := Ideal) S_ .f32 0x4AC35000#32)) (mulf (Host.divf (shapeCast S_ (W11 m ρ c (Proc.devRef .tc main_v79_0)) shapeCasts_S1x1_S_) (constant (F := Ideal) S_ .f32 0x4AC35000#32)) (Host.divf (shapeCast S_ (W11 m ρ c (Proc.devRef .tc main_v79_0)) shapeCasts_S1x1_S_) (constant (F := Ideal) S_ .f32 0x4AC35000#32)))))
        (constant (F := Ideal) S_ .f32 0x3727C5AC#32))) shapeCasts_S_S1x1 (ix2 0 0) = _
  rw [ofScalar_at]
  show Ideal.div (Ideal.ofBits .f32 0x3F800000#32)
      (Ideal.sqrt (Ideal.div ((shapeCast S_ (W11 m ρ c (Proc.devRef .tc main_v79_1)) shapeCasts_S1x1_S_) ix0) (Ideal.ofBits .f32 0x4AC35000#32)
          - Ideal.div ((shapeCast S_ (W11 m ρ c (Proc.devRef .tc main_v79_0)) shapeCasts_S1x1_S_) ix0) (Ideal.ofBits .f32 0x4AC35000#32)
            * Ideal.div ((shapeCast S_ (W11 m ρ c (Proc.devRef .tc main_v79_0)) shapeCasts_S1x1_S_) ix0) (Ideal.ofBits .f32 0x4AC35000#32))
        + Ideal.ofBits .f32 0x3727C5AC#32) = _
  rw [toScalar_at, toScalar_at, Cert.Consts.ofBits_one, Cert.Consts.ofBits_count, Cert.Consts.ofBits_eps,
    EReal.coe_one]

/-- Layer 2's weight row: the weight vector [128] reshaped to [1,128], read at (0, j), is the launch
    contents of the weight argument at j (no earlier step writes that argument). -/
theorem weight2_at (j : Fin 128) :
    W12 m ρ c (Proc.devRef .tc main_v89) (ix2 0 j) = m ((c : Thread nD τ).loc main_arg9) (ix1 j) := by
  show StableHlo.after hostOps5 (W11 m ρ c) (Proc.devRef .tc main_v89) (ix2 0 j) = _
  after_results
  show shapeCast S1x128 (W11 m ρ c (Proc.devRef .tc main_arg9)) shapeCasts_S128_S1x128 (ix2 0 j) = _
  rw [shapeCast_a_1a_apply]
  exact congrFun (Carry.arg9_at11 m ρ c) (ix1 j)

/-- Layer 2's bias row: the bias vector [128] reshaped to [1,128], read at (0, j), is the launch
    contents of the bias argument at j. -/
theorem bias2_at (j : Fin 128) :
    W12 m ρ c (Proc.devRef .tc main_v90) (ix2 0 j) = m ((c : Thread nD τ).loc main_arg10) (ix1 j) := by
  show StableHlo.after hostOps5 (W11 m ρ c) (Proc.devRef .tc main_v90) (ix2 0 j) = _
  after_results
  show shapeCast S1x128 (W11 m ρ c (Proc.devRef .tc main_arg10)) shapeCasts_S128_S1x128 (ix2 0 j) = _
  rw [shapeCast_a_1a_apply]
  exact congrFun (Carry.arg10_at11 m ρ c) (ix1 j)

end Cert.KernelIdeal.NormScalars

end
-- ==== Proof.LibLayerNormForms.lean ====
/-
  Two forms of the variance, and the two forms of "normalise, scale, shift, clamp at zero" built on
  them, agree on finite data.

  Over a finite index type `ι` let `x : ι → EReal` have every entry a real, let `N` be the number of
  indices (as a real, positive) and `e > 0`.  Write

    S  = ∑ x i                       Q  = ∑ x i · x i
    μ  = S / N                       d i = x i − μ
    vK = Q / N − μ · μ               ("mean of the squares minus the square of the mean")
    vR = (∑ d i · d i) / N           ("mean of the squared deviations")

  with `/` the extended-real division `Ideal.div` (the product with the reciprocal off zero).  Then
  `vK = vR`, a real `≥ 0`; `√vR + e` is a real `> 0`; multiplying a deviation by the reciprocal
  `1 / (√vK + e)` is dividing it by `√vR + e`; and so the two affine-then-clamp expressions
  `max (d i · (1 / (√vK + e)) · w + b) 0` and `max (d i / (√vR + e) · w + b) 0` are the same real.

  Everything is proved in `ℝ`: real witnesses are chosen for the entries, the coercion `ℝ → EReal` is
  pushed out of the finite sums and of `+`, `−`, `·`, and what remains is the textbook identity
  `∑ (r i − m)² = ∑ r i² − N · m²` for `m = (∑ r i) / N`.
-/
import Idealize.ShloMosaic.PureOps.Ideal
import Idealize.ShloMosaic.PureOps.Ideal.Laws

noncomputable section

namespace LayerNormForms

open Idealize.ShloMosaic
open scoped BigOperators

variable {ι : Type*} [Fintype ι]

/-! ### In the reals -/

/-- The coercion `ℝ → EReal` commutes with a finite sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The textbook identity: with `m` the mean of `r` over `N = card ι` points, the mean of the squares
    minus the square of the mean is the mean of the squared deviations from `m`. -/
theorem real_variance_forms (r : ι → ℝ) (N : ℝ) (hN : N = (Fintype.card ι : ℝ)) (hN0 : 0 < N) :
    (∑ i, r i * r i) * (1 / N) - ((∑ i, r i) * (1 / N)) * ((∑ i, r i) * (1 / N))
      = (∑ i, (r i - (∑ j, r j) * (1 / N)) * (r i - (∑ j, r j) * (1 / N))) * (1 / N) := by
  have hN' : N ≠ 0 := ne_of_gt hN0
  generalize hm : (∑ j, r j) * (1 / N) = m
  have h2 : ∑ i, r i = N * m := by rw [← hm]; field_simp
  have h1 : ∑ i, (r i - m) * (r i - m) = (∑ i, r i * r i) - 2 * m * (∑ i, r i) + N * (m * m) := by
    have e1 : ∀ i, (r i - m) * (r i - m) = r i * r i - 2 * m * r i + m * m := fun i => by ring
    simp only [e1]
    rw [Finset.sum_add_distrib, Finset.sum_sub_distrib, ← Finset.mul_sum, Finset.sum_const,
      Finset.card_univ, nsmul_eq_mul, ← hN]
  rw [h1, h2]
  field_simp
  ring

/-- The mean of the squared deviations is not negative. -/
theorem real_variance_nonneg (r : ι → ℝ) (m N : ℝ) (hN0 : 0 < N) :
    0 ≤ (∑ i, (r i - m) * (r i - m)) * (1 / N) :=
  mul_nonneg (Finset.sum_nonneg fun i _ => mul_self_nonneg _) (by positivity)

/-! ### On the extended reals, at finite data -/

section Forms

variable (x : ι → EReal) (hx : ∀ i, ∃ r : ℝ, x i = (r : EReal))
variable (N : ℝ) (hN : N = (Fintype.card ι : ℝ)) (hN0 : 0 < N)

include hx hN0 in
/-- The mean of finite data is the real mean. -/
theorem mean_real : ∃ r : ι → ℝ, (∀ i, x i = (r i : EReal)) ∧
    Ideal.div (∑ i, x i) (N : EReal) = (((∑ i, r i) * (1 / N) : ℝ) : EReal) := by
  choose r hr using hx
  refine ⟨r, hr, ?_⟩
  rw [Ideal.div_coe (ne_of_gt hN0), show x = fun i => ((r i : ℝ) : EReal) from funext hr, coe_sum,
    ← EReal.coe_mul]

include hx hN hN0 in
/-- Both forms of the variance are one real `v ≥ 0`: the real mean of the squared deviations. -/
theorem variance_forms_real : ∃ v : ℝ, 0 ≤ v ∧
    Ideal.div (∑ i, x i * x i) (N : EReal)
        - Ideal.div (∑ i, x i) (N : EReal) * Ideal.div (∑ i, x i) (N : EReal) = (v : EReal) ∧
    Ideal.div (∑ i, (x i - Ideal.div (∑ j, x j) (N : EReal)) * (x i - Ideal.div (∑ j, x j) (N : EReal)))
        (N : EReal) = (v : EReal) := by
  obtain ⟨r, hr, hmu⟩ := mean_real x hx N hN0
  have hxr : x = fun i => ((r i : ℝ) : EReal) := funext hr
  refine ⟨(∑ i, (r i - (∑ j, r j) * (1 / N)) * (r i - (∑ j, r j) * (1 / N))) * (1 / N),
    real_variance_nonneg r _ N hN0, ?_, ?_⟩
  · rw [hmu, Ideal.div_coe (ne_of_gt hN0), ← real_variance_forms r N hN hN0, hxr]
    simp only [← EReal.coe_mul]
    rw [coe_sum, ← EReal.coe_mul, ← EReal.coe_sub]
  · rw [hmu, Ideal.div_coe (ne_of_gt hN0), hxr]
    simp only [← EReal.coe_sub, ← EReal.coe_mul]
    rw [coe_sum, ← EReal.coe_mul]

include hx hN hN0 in
/-- (1) "Mean of the squares minus the square of the mean" equals "mean of the squared deviations". -/
theorem variance_forms_eq :
    Ideal.div (∑ i, x i * x i) (N : EReal)
        - Ideal.div (∑ i, x i) (N : EReal) * Ideal.div (∑ i, x i) (N : EReal)
      = Ideal.div (∑ i, (x i - Ideal.div (∑ j, x j) (N : EReal)) * (x i - Ideal.div (∑ j, x j) (N : EReal)))
          (N : EReal) := by
  obtain ⟨v, _, hK, hR⟩ := variance_forms_real x hx N hN hN0
  rw [hK, hR]

/-- The square root of a real `v ≥ 0`, plus a real `e > 0`, is a real `> 0`. -/
theorem sqrt_add_pos {v : ℝ} (hv : 0 ≤ v) {e : ℝ} (he : 0 < e) :
    Ideal.sqrt (v : EReal) + (e : EReal) = ((Real.sqrt v + e : ℝ) : EReal) ∧ 0 < Real.sqrt v + e := by
  refine ⟨?_, add_pos_of_nonneg_of_pos (Real.sqrt_nonneg v) he⟩
  rw [Ideal.sqrt_coe, if_neg (not_lt.mpr hv), EReal.coe_add]

include hx hN hN0 in
/-- (2) The denominator `√vR + e` is a real `> 0` — and `√vK + e` is the same real. -/
theorem denom_real_pos (e : ℝ) (he : 0 < e) : ∃ s : ℝ, 0 < s ∧
    Ideal.sqrt (Ideal.div (∑ i, (x i - Ideal.div (∑ j, x j) (N : EReal)) * (x i - Ideal.div (∑ j, x j) (N : EReal)))
        (N : EReal)) + (e : EReal) = (s : EReal) ∧
    Ideal.sqrt (Ideal.div (∑ i, x i * x i) (N : EReal)
        - Ideal.div (∑ i, x i) (N : EReal) * Ideal.div (∑ i, x i) (N : EReal)) + (e : EReal) = (s : EReal) := by
  obtain ⟨v, hv, hK, hR⟩ := variance_forms_real x hx N hN hN0
  obtain ⟨h1, h2⟩ := sqrt_add_pos hv he
  exact ⟨Real.sqrt v + e, h2, by rw [hR, h1], by rw [hK, h1]⟩

include hx hN hN0 in
/-- (3) A deviation times the reciprocal `1 / (√vK + e)` is the deviation divided by `√vR + e`. -/
theorem normalize_forms_eq (e : ℝ) (he : 0 < e) (i : ι) :
    (x i - Ideal.div (∑ j, x j) (N : EReal))
        * Ideal.div 1 (Ideal.sqrt (Ideal.div (∑ i, x i * x i) (N : EReal)
            - Ideal.div (∑ i, x i) (N : EReal) * Ideal.div (∑ i, x i) (N : EReal)) + (e : EReal))
      = Ideal.div (x i - Ideal.div (∑ j, x j) (N : EReal))
          (Ideal.sqrt (Ideal.div (∑ i, (x i - Ideal.div (∑ j, x j) (N : EReal)) * (x i - Ideal.div (∑ j, x j) (N : EReal)))
            (N : EReal)) + (e : EReal)) := by
  obtain ⟨s, hs, hR, hK⟩ := denom_real_pos x hx N hN hN0 e he
  rw [hR, hK, Ideal.div_coe (ne_of_gt hs), Ideal.div_coe (ne_of_gt hs), one_mul]

include hx hN hN0 in
/-- (4) The two "normalise, scale by `w`, shift by `b`, clamp at zero" expressions agree, and their
    common value is a real. -/
theorem norm_affine_relu_forms (e : ℝ) (he : 0 < e) (w b : ℝ) (i : ι) :
    max ((x i - Ideal.div (∑ j, x j) (N : EReal))
        * Ideal.div 1 (Ideal.sqrt (Ideal.div (∑ i, x i * x i) (N : EReal)
            - Ideal.div (∑ i, x i) (N : EReal) * Ideal.div (∑ i, x i) (N : EReal)) + (e : EReal))
        * (w : EReal) + (b : EReal)) 0
      = max (Ideal.div (x i - Ideal.div (∑ j, x j) (N : EReal))
          (Ideal.sqrt (Ideal.div (∑ i, (x i - Ideal.div (∑ j, x j) (N : EReal)) * (x i - Ideal.div (∑ j, x j) (N : EReal)))
            (N : EReal)) + (e : EReal))
        * (w : EReal) + (b : EReal)) 0
    ∧ ∃ y : ℝ, max (Ideal.div (x i - Ideal.div (∑ j, x j) (N : EReal))
          (Ideal.sqrt (Ideal.div (∑ i, (x i - Ideal.div (∑ j, x j) (N : EReal)) * (x i - Ideal.div (∑ j, x j) (N : EReal)))
            (N : EReal)) + (e : EReal))
        * (w : EReal) + (b : EReal)) 0 = (y : EReal) := by
  refine ⟨by rw [normalize_forms_eq x hx N hN hN0 e he i], ?_⟩
  obtain ⟨s, hs, hR, _⟩ := denom_real_pos x hx N hN hN0 e he
  obtain ⟨r, hr, hmu⟩ := mean_real x hx N hN0
  refine ⟨max ((r i - (∑ j, r j) * (1 / N)) * (1 / s) * w + b) 0, ?_⟩
  rw [hR, hmu, Ideal.div_coe (ne_of_gt hs), hr i, ← EReal.coe_sub, ← EReal.coe_mul, ← EReal.coe_mul,
    ← EReal.coe_add, ← EReal.coe_zero]
  exact (EReal.coe_strictMono.monotone.map_max).symm

end Forms

end LayerNormForms
-- ==== Proof.NormForms.lean ====
/-
  The two ways of writing the whole-tensor normalisation followed by the affine map and the rectifier, as functions
  of an arbitrary 50000 × 128 array x, a weight w and a bias b read at the entry's column, and their agreement on arrays
  of real numbers. With n = 6400000 the number of entries, mean = (Σ x)/n and ε the small positive constant:
    * the form that uses the mean of the squares minus the square of the mean as the variance and multiplies each
      deviation by the reciprocal 1/(√var + ε);
    * the form that uses the mean of the squared deviations as the variance and divides each deviation by √var + ε.
  For real entries the two variances are the same non-negative real (Σ(x−mean)² = Σx² − n·mean²), √var + ε is a positive
  real, and multiplying by a reciprocal is dividing; so the two forms agree entry by entry and the common value is a
  real number.
-/
import proofs.«144501_j25658134627030_1_alg».proof.Proof.LibLayerNormForms
import proofs.«144501_j25658134627030_1_alg».proof.Proof.Consts
import Idealize.ShloMosaic.Shape

noncomputable section

namespace Cert.NormForms

open Idealize.ShloMosaic
open scoped BigOperators

/-- Row and column of an entry of a 50000 × 128 array. -/
abbrev RF : Type := (⟨2, ![50000, 128]⟩ : Shape).Idx

/-- The variance as the mean of the squares minus the square of the mean; each deviation times the reciprocal of
    √var + ε; then the affine map and the rectifier. -/
def recipForm (x : RF → EReal) (w b : EReal) (i : RF) : EReal :=
  max ((x i - Ideal.div (∑ j, x j) ((6400000 : ℝ) : EReal))
        * Ideal.div 1 (Ideal.sqrt (Ideal.div (∑ i, x i * x i) ((6400000 : ℝ) : EReal)
            - Ideal.div (∑ i, x i) ((6400000 : ℝ) : EReal) * Ideal.div (∑ i, x i) ((6400000 : ℝ) : EReal))
          + (((10995116 : ℝ) / 2 ^ 40 : ℝ) : EReal))
      * w + b) 0

/-- The variance as the mean of the squared deviations; each deviation divided by √var + ε; then the affine map and the
    rectifier. -/
def quotForm (x : RF → EReal) (w b : EReal) (i : RF) : EReal :=
  max (Ideal.div (x i - Ideal.div (∑ j, x j) ((6400000 : ℝ) : EReal))
        (Ideal.sqrt (Ideal.div (∑ i, (x i - Ideal.div (∑ j, x j) ((6400000 : ℝ) : EReal))
              * (x i - Ideal.div (∑ j, x j) ((6400000 : ℝ) : EReal))) ((6400000 : ℝ) : EReal))
          + (((10995116 : ℝ) / 2 ^ 40 : ℝ) : EReal))
      * w + b) 0

/-- A 50000 × 128 array has 6400000 entries. -/
theorem count_eq : (6400000 : ℝ) = (Fintype.card RF : ℝ) := by
  rw [Shape.card_idx, Shape.numel, Fin.prod_univ_two]
  norm_num [Shape.size]

/-- On an array of real numbers, with a real weight and a real bias, the two forms agree at every entry. -/
theorem recipForm_eq_quotForm (x : RF → EReal) (hx : ∀ i, ∃ r : ℝ, x i = (r : EReal)) (w b : EReal)
    (hw : ∃ r : ℝ, w = (r : EReal)) (hb : ∃ r : ℝ, b = (r : EReal)) (i : RF) :
    recipForm x w b i = quotForm x w b i := by
  obtain ⟨w', rfl⟩ := hw
  obtain ⟨b', rfl⟩ := hb
  exact (LayerNormForms.norm_affine_relu_forms x hx 6400000 count_eq (by norm_num) _ Cert.Consts.eps_pos w' b' i).1

/-- On an array of real numbers, with a real weight and a real bias, the normalised, mapped and rectified entry is a
    real number. -/
theorem quotForm_real (x : RF → EReal) (hx : ∀ i, ∃ r : ℝ, x i = (r : EReal)) (w b : EReal)
    (hw : ∃ r : ℝ, w = (r : EReal)) (hb : ∃ r : ℝ, b = (r : EReal)) (i : RF) :
    ∃ y : ℝ, quotForm x w b i = (y : EReal) := by
  obtain ⟨w', rfl⟩ := hw
  obtain ⟨b', rfl⟩ := hb
  exact (LayerNormForms.norm_affine_relu_forms x hx 6400000 count_eq (by norm_num) _ Cert.Consts.eps_pos w' b' i).2

end Cert.NormForms

end
-- ==== Proof.RefNorm.lean ====
/-
  The reference's whole-tensor normalisation, read at an entry. In each layer the reference sums the aggregated
  activations, divides by the number of entries to get the mean, subtracts it, sums the squared deviations, divides
  again to get the variance, adds the small constant to its square root, divides each deviation by the result,
  multiplies by the layer's weight and adds its bias (both read at the entry's column), and takes the maximum with 0.
-/
import proofs.«144501_j25658134627030_1_alg».proof.Proof.RefReadP
import proofs.«144501_j25658134627030_1_alg».proof.Proof.NormForms

noncomputable section

namespace Cert.ReferenceIdeal.NormStages

open Cert.ReferenceIdeal Cert.ReferenceIdeal.ReadP Idealize.ShloMosaic Cert.NormForms

variable (x0 : (⟨S50000x128, .f32⟩ : BufTy).Contents (Elt Ideal)) (x1 : (⟨S2x640000, .i32⟩ : BufTy).Contents (Elt Ideal))
  (x3 : (⟨S128x128, .f32⟩ : BufTy).Contents (Elt Ideal)) (x4 x5 x6 : (⟨S128, .f32⟩ : BufTy).Contents (Elt Ideal))
  (x7 : (⟨S128x128, .f32⟩ : BufTy).Contents (Elt Ideal)) (x8 x9 x10 : (⟨S128, .f32⟩ : BufTy).Contents (Elt Ideal))

/-- Layer 1: the reference's normalised, mapped and rectified activations at an entry are the quotient form of its
    aggregated activations, with the layer's weight and bias read at the entry's column. -/
theorem relu_norm1_apply (i : S50000x128.Idx) :
    val_main_v64 (F := Ideal) x0 x1 x3 x4 x5 x6 i
      = quotForm (val_main_v46 (F := Ideal) x0 x1 x3 x4) (x5 (ValueIdx.ix1 (n := 128) (i 1))) (x6 (ValueIdx.ix1 (n := 128) (i 1))) i := by
  have ew : idx_main_v58 (idx_main_v59 i) = ValueIdx.ix1 (n := 128) (i 1) := funext fun a => match a with | ⟨0, _⟩ => rfl
  have eb : idx_main_v61 (idx_main_v62 i) = ValueIdx.ix1 (n := 128) (i 1) := funext fun a => match a with | ⟨0, _⟩ => rfl
  simp only [val_main_v64_apply, val_main_v63_apply, val_main_v60_apply, val_main_v57_apply, val_main_v50_apply, val_main_v49_apply, val_main_v48_apply, val_main_v47_apply, val_main_v56_apply, val_main_v55_apply, val_main_v54_apply, val_main_v53_apply, val_main_v52_apply, val_main_v51_apply, val_main_v59_apply, val_main_v58_apply, val_main_v62_apply, val_main_v61_apply, val_main_call1_v0_apply, val_main_call1_cst_apply, val_main_cst_9_apply, val_main_cst_11_apply, val_main_cst_10_apply, val_main_cst_12_apply, val_main_cst_13_apply, ew, eb,
    Ideal.ofBits_def, Ideal.hostDivf_def, Ideal.hostUnary_sqrt_def, Ideal.subf_def, Ideal.mulf_def, Ideal.addf_def, Ideal.maximumf_def,
    Cert.Consts.ofBits_zero, Cert.Consts.ofBits_count, Cert.Consts.ofBits_eps, zero_add]
  rfl

/-- Layer 2: the reference's normalised, mapped and rectified activations at an entry are the quotient form of its
    aggregated activations, with the layer's weight and bias read at the entry's column. -/
theorem relu_norm2_apply (i : S50000x128.Idx) :
    val_main_v122 (F := Ideal) x0 x1 x3 x4 x5 x6 x7 x8 x9 x10 i
      = quotForm (val_main_v104 (F := Ideal) x0 x1 x3 x4 x5 x6 x7 x8) (x9 (ValueIdx.ix1 (n := 128) (i 1))) (x10 (ValueIdx.ix1 (n := 128) (i 1))) i := by
  have ew : idx_main_v116 (idx_main_v117 i) = ValueIdx.ix1 (n := 128) (i 1) := funext fun a => match a with | ⟨0, _⟩ => rfl
  have eb : idx_main_v119 (idx_main_v120 i) = ValueIdx.ix1 (n := 128) (i 1) := funext fun a => match a with | ⟨0, _⟩ => rfl
  simp only [val_main_v122_apply, val_main_v121_apply, val_main_v118_apply, val_main_v115_apply, val_main_v108_apply, val_main_v107_apply, val_main_v106_apply, val_main_v105_apply, val_main_v114_apply, val_main_v113_apply, val_main_v112_apply, val_main_v111_apply, val_main_v110_apply, val_main_v109_apply, val_main_v117_apply, val_main_v116_apply, val_main_v120_apply, val_main_v119_apply, val_main_call3_v0_apply, val_main_call3_cst_apply, val_main_cst_25_apply, val_main_cst_27_apply, val_main_cst_26_apply, val_main_cst_28_apply, val_main_cst_29_apply, ew, eb,
    Ideal.ofBits_def, Ideal.hostDivf_def, Ideal.hostUnary_sqrt_def, Ideal.subf_def, Ideal.mulf_def, Ideal.addf_def, Ideal.maximumf_def,
    Cert.Consts.ofBits_zero, Cert.Consts.ofBits_count, Cert.Consts.ofBits_eps, zero_add]
  rfl

end Cert.ReferenceIdeal.NormStages

end
-- ==== Proof.NormBridge.lean ====
/-
  The kernel's normalisation against the reference's, layer by layer. The statistics region leaves the sum S and the sum
  of squares Q of the aggregated activations; the host code between the regions forms mean = S/n and the reciprocal
  1/(√(Q/n − mean²) + ε); the normalising region multiplies each deviation by that reciprocal, applies the weight and the
  bias of the entry's column and takes the maximum with 0. The reference divides each deviation by √(mean of the squared
  deviations) + ε. On real activations the two agree.
-/
import proofs.«144501_j25658134627030_1_alg».proof.Proof.NormRelu
import proofs.«144501_j25658134627030_1_alg».proof.Proof.SumSquares
import proofs.«144501_j25658134627030_1_alg».proof.Proof.SumSquares4
import proofs.«144501_j25658134627030_1_alg».proof.Proof.NormScalars
import proofs.«144501_j25658134627030_1_alg».proof.Proof.RefNorm

set_option maxRecDepth 65536

noncomputable section

namespace Cert.KernelIdeal.NormBridge

open Idealize.ShloMosaic Idealize.ShloMosaic.TcCoe Idealize.SL.Sem Idealize.ShloMosaic.ValueIdx
open Idealize.ShloMosaic.Pipeline (Dat)
open Cert.KernelIdeal Cert.KernelIdeal.Gen Cert.NormForms
open Cert.ReferenceIdeal.ReadP (val_main_v46 val_main_v64 val_main_v104 val_main_v122)

variable (m : (ℓ : Loc nD τ sig) → Buf (Elt Ideal) ℓ) (ρ : Dev nD → PrngReg) (c : Dev nD)

/-- Layer 1's aggregated activations as the kernel holds them before its statistics region. -/
abbrev act1 : S50000x128.Idx → EReal := W5 m ρ c (Proc.devRef .tc main_v46)

/-- Layer 1: the statistics region's first accumulator ends at the sum of the aggregated activations. -/
theorem sum1_eq : (∑ j : S50000x128.Idx, act1 m ρ c j) = W6 m ρ c (Proc.devRef .tc main_v47_0) (ix2 0 0) :=
  ((congrFun (W6_arr m ρ c 1) (ix2 0 0)).trans (Cert.Proof.SumSquares.final1_sum (V5 m ρ) c (ix2 0 0))).symm

/-- Layer 1: the statistics region's second accumulator ends at the sum of their squares. -/
theorem sq1_eq : (∑ j : S50000x128.Idx, act1 m ρ c j * act1 m ρ c j) = W6 m ρ c (Proc.devRef .tc main_v47_1) (ix2 0 0) :=
  ((congrFun (W6_arr m ρ c 2) (ix2 0 0)).trans (Cert.Proof.SumSquares.final1_sq (V5 m ρ) c (ix2 0 0))).symm

/-- Layer 1, the kernel's side: after the normalising region the output array holds, at every entry, the reciprocal
    form of the layer's aggregated activations. -/
theorem norm1_entry (i : S50000x128.Idx) :
    W8 m ρ c (Proc.devRef .tc main_v61) i
      = recipForm (act1 m ρ c) ((m ((c : Thread nD τ).loc main_arg5)) (ix1 (n := 128) (i 1))) ((m ((c : Thread nD τ).loc main_arg6)) (ix1 (n := 128) (i 1))) i := by
  refine (congrFun (W8_arr m ρ c 5) i).trans ?_
  rw [NormRelu.final2_fun (V7 m ρ) c
    (W5 m ρ c (Proc.devRef .tc main_v46) : S50000x128.Idx → EReal)
    (W7 m ρ c (Proc.devRef .tc main_v59) : S1x1.Idx → EReal)
    (W7 m ρ c (Proc.devRef .tc main_v60) : S1x1.Idx → EReal)
    (W7 m ρ c (Proc.devRef .tc main_v57) : S1x128.Idx → EReal)
    (W7 m ρ c (Proc.devRef .tc main_v58) : S1x128.Idx → EReal)
    (Carry.v46_at7 m ρ c) rfl rfl rfl rfl]
  have hmu := NormScalars.mean1_at m ρ c
  have hinv := NormScalars.inv1_at m ρ c
  rw [← sum1_eq m ρ c] at hmu
  rw [← sum1_eq m ρ c, ← sq1_eq m ρ c] at hinv
  beta_reduce
  rw [hmu, hinv, NormScalars.weight1_at m ρ c (i 1), NormScalars.bias1_at m ρ c (i 1)]
  rfl

/-- Layer 1: the kernel's normalised, mapped and rectified activations are the reference's, once the aggregated
    activations agree and are real numbers, the weight and the bias being real. -/
theorem relu1_eq (hagg : W5 m ρ c (Proc.devRef .tc main_v46) = val_main_v46 (F := Ideal) (m ((c : Thread nD τ).loc main_arg0)) (m ((c : Thread nD τ).loc main_arg1)) (m ((c : Thread nD τ).loc main_arg3)) (m ((c : Thread nD τ).loc main_arg4)))
    (hreal : ∀ i, ∃ r : ℝ, val_main_v46 (F := Ideal) (m ((c : Thread nD τ).loc main_arg0)) (m ((c : Thread nD τ).loc main_arg1)) (m ((c : Thread nD τ).loc main_arg3)) (m ((c : Thread nD τ).loc main_arg4)) i = (r : EReal))
    (hw : ∀ j, ∃ r : ℝ, (m ((c : Thread nD τ).loc main_arg5)) j = (r : EReal)) (hb : ∀ j, ∃ r : ℝ, (m ((c : Thread nD τ).loc main_arg6)) j = (r : EReal)) :
    W8 m ρ c (Proc.devRef .tc main_v61) = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  funext i
  have hagg' : act1 m ρ c = val_main_v46 (F := Ideal) (m ((c : Thread nD τ).loc main_arg0)) (m ((c : Thread nD τ).loc main_arg1)) (m ((c : Thread nD τ).loc main_arg3)) (m ((c : Thread nD τ).loc main_arg4)) := hagg
  rw [norm1_entry, hagg', Cert.ReferenceIdeal.NormStages.relu_norm1_apply]
  exact recipForm_eq_quotForm _ hreal _ _ (hw _) (hb _) i

/-- Layer 2's aggregated activations as the kernel holds them before its statistics region. -/
abbrev act2 : S50000x128.Idx → EReal := W10 m ρ c (Proc.devRef .tc main_v78)

/-- Layer 2: the statistics region's first accumulator ends at the sum of the aggregated activations. -/
theorem sum2_eq : (∑ j : S50000x128.Idx, act2 m ρ c j) = W11 m ρ c (Proc.devRef .tc main_v79_0) (ix2 0 0) :=
  ((congrFun (W11_arr m ρ c 1) (ix2 0 0)).trans (Cert.Proof.SumSquares4.final4_sum (V10 m ρ) c (ix2 0 0))).symm

/-- Layer 2: the statistics region's second accumulator ends at the sum of their squares. -/
theorem sq2_eq : (∑ j : S50000x128.Idx, act2 m ρ c j * act2 m ρ c j) = W11 m ρ c (Proc.devRef .tc main_v79_1) (ix2 0 0) :=
  ((congrFun (W11_arr m ρ c 2) (ix2 0 0)).trans (Cert.Proof.SumSquares4.final4_sq (V10 m ρ) c (ix2 0 0))).symm

/-- Layer 2, the kernel's side: after the normalising region the output array holds, at every entry, the reciprocal
    form of the layer's aggregated activations. -/
theorem norm2_entry (i : S50000x128.Idx) :
    W13 m ρ c (Proc.devRef .tc main_v93) i
      = recipForm (act2 m ρ c) ((m ((c : Thread nD τ).loc main_arg9)) (ix1 (n := 128) (i 1))) ((m ((c : Thread nD τ).loc main_arg10)) (ix1 (n := 128) (i 1))) i := by
  refine (congrFun (W13_arr m ρ c 5) i).trans ?_
  rw [NormRelu.final5_fun (V12 m ρ) c
    (W10 m ρ c (Proc.devRef .tc main_v78) : S50000x128.Idx → EReal)
    (W12 m ρ c (Proc.devRef .tc main_v91) : S1x1.Idx → EReal)
    (W12 m ρ c (Proc.devRef .tc main_v92) : S1x1.Idx → EReal)
    (W12 m ρ c (Proc.devRef .tc main_v89) : S1x128.Idx → EReal)
    (W12 m ρ c (Proc.devRef .tc main_v90) : S1x128.Idx → EReal)
    (Carry.v78_at12 m ρ c) rfl rfl rfl rfl]
  have hmu := NormScalars.mean2_at m ρ c
  have hinv := NormScalars.inv2_at m ρ c
  rw [← sum2_eq m ρ c] at hmu
  rw [← sum2_eq m ρ c, ← sq2_eq m ρ c] at hinv
  beta_reduce
  rw [hmu, hinv, NormScalars.weight2_at m ρ c (i 1), NormScalars.bias2_at m ρ c (i 1)]
  rfl

/-- Layer 2: the kernel's normalised, mapped and rectified activations are the reference's, once the aggregated
    activations agree and are real numbers, the weight and the bias being real. -/
theorem relu2_eq (hagg : W10 m ρ c (Proc.devRef .tc main_v78) = val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (hreal : ∀ i, ∃ r : ℝ, val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i = (r : EReal))
    (hw : ∀ j, ∃ r : ℝ, (m ((c : Thread nD τ).loc main_arg9)) j = (r : EReal)) (hb : ∀ j, ∃ r : ℝ, (m ((c : Thread nD τ).loc main_arg10)) j = (r : EReal)) :
    W13 m ρ c (Proc.devRef .tc main_v93) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  have hagg' : act2 m ρ c = val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := hagg
  rw [norm2_entry, hagg', Cert.ReferenceIdeal.NormStages.relu_norm2_apply]
  exact recipForm_eq_quotForm _ hreal _ _ (hw _) (hb _) i

end Cert.KernelIdeal.NormBridge

end
-- ==== Proof.LibRealEntries.lean ====
/-
  Real-valued entries. An extended real is REAL when it is the image of a real number, that is
  neither of the two infinities; a vector has real entries when every entry is real. This module
  shows that the host operations of a graph-convolution layer — gathers, accumulating scatters,
  contractions, sums, the pointwise arithmetic, the layout operations, the two constants zero and
  one, and the guarded inverse square root of a degree vector — keep that property. Nothing here
  mentions a program: every statement is generic in the shapes and in the dimension records.
-/
import Mathlib.Data.EReal.Inv
import Mathlib.Algebra.BigOperators.Group.Finset.Basic
import Idealize.ShloMosaic.PureOps.Ideal
import Idealize.ShloMosaic.PureOps.Ideal.Laws
import Idealize.ShloMosaic.PureOps.ShapeOps
import Idealize.ShloMosaic.PureOps.Contract
import Idealize.ShloMosaic.PureOps.Vector

noncomputable section

namespace Cert.RealEntries

open Idealize.ShloMosaic
open scoped BigOperators

/-! ## One extended real -/

/-- An extended real is REAL when it is a real number's image: neither infinity. -/
def IsReal (x : EReal) : Prop := ∃ r : ℝ, x = (r : EReal)

/-- Every entry of the vector is a real number. -/
def AllReal {ι : Type*} (x : ι → EReal) : Prop := ∀ i, ∃ r : ℝ, x i = (r : EReal)

/-- A vector has real entries exactly when each entry is real. -/
theorem allReal_iff {ι : Type*} (x : ι → EReal) : AllReal x ↔ ∀ i, IsReal (x i) := Iff.rfl

/-- A real number's image is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- A real extended real is not the top element. -/
theorem IsReal.ne_top {a : EReal} (h : IsReal a) : a ≠ ⊤ := by
  obtain ⟨r, rfl⟩ := h; exact EReal.coe_ne_top r

/-- A real extended real is not the bottom element. -/
theorem IsReal.ne_bot {a : EReal} (h : IsReal a) : a ≠ ⊥ := by
  obtain ⟨r, rfl⟩ := h; exact EReal.coe_ne_bot r

/-- The sum of two reals is real. -/
theorem IsReal.add {a b : EReal} (ha : IsReal a) (hb : IsReal b) : IsReal (a + b) := by
  obtain ⟨r, rfl⟩ := ha; obtain ⟨s, rfl⟩ := hb
  exact ⟨r + s, (EReal.coe_add r s).symm⟩

/-- The difference of two reals is real. -/
theorem IsReal.sub {a b : EReal} (ha : IsReal a) (hb : IsReal b) : IsReal (a - b) := by
  obtain ⟨r, rfl⟩ := ha; obtain ⟨s, rfl⟩ := hb
  exact ⟨r - s, (EReal.coe_sub r s).symm⟩

/-- The product of two reals is real. -/
theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- The negative of a real is real. -/
theorem IsReal.neg {a : EReal} (ha : IsReal a) : IsReal (-a) := by
  obtain ⟨r, rfl⟩ := ha
  exact ⟨-r, (EReal.coe_neg r).symm⟩

/-- The greater of two reals is one of them, hence real. -/
theorem IsReal.max {a b : EReal} (ha : IsReal a) (hb : IsReal b) : IsReal (max a b) := by
  rcases le_total a b with h | h
  · rw [max_eq_right h]; exact hb
  · rw [max_eq_left h]; exact ha

/-- The lesser of two reals is one of them, hence real. -/
theorem IsReal.min {a b : EReal} (ha : IsReal a) (hb : IsReal b) : IsReal (min a b) := by
  rcases le_total a b with h | h
  · rw [min_eq_left h]; exact ha
  · rw [min_eq_right h]; exact hb

/-- A finite sum of reals is real: induction on the index set, the empty sum being zero. -/
theorem IsReal.sum {ι : Type*} (s : Finset ι) (f : ι → EReal) :
    (∀ i ∈ s, IsReal (f i)) → IsReal (∑ i ∈ s, f i) := by
  classical
  refine Finset.induction_on s ?_ ?_
  · intro _
    rw [Finset.sum_empty]; exact isReal_zero
  · intro a s ha ih h
    rw [Finset.sum_insert ha]
    exact (h a (Finset.mem_insert_self a s)).add (ih fun i hi => h i (Finset.mem_insert_of_mem hi))

/-- A vector each of whose entries is an entry of a vector with real entries has real entries. -/
theorem AllReal.of_entries {ι κ : Type*} {x : ι → EReal} {y : κ → EReal} (hx : AllReal x)
    (h : ∀ j, ∃ i, y j = x i) : AllReal y := fun j => by
  obtain ⟨i, hi⟩ := h j
  rw [hi]; exact hx i

/-- A vector of real entries read through any re-indexing has real entries. -/
theorem AllReal.comp {ι κ : Type*} {x : ι → EReal} (hx : AllReal x) (f : κ → ι) :
    AllReal (fun j => x (f j)) := fun j => hx (f j)

/-- The constant vector at a real has real entries. -/
theorem allReal_const {ι : Type*} {a : EReal} (ha : IsReal a) : AllReal (fun _ : ι => a) := fun _ => ha

/-! ## Pointwise arithmetic -/

section Pointwise
variable {s : Shape} {φ : FTy}

/-- The entrywise sum of two vectors with real entries has real entries. -/
theorem allReal_addf (x y : FVec Ideal s φ) (hx : AllReal x) (hy : AllReal y) :
    AllReal (addf (F := Ideal) x y) := fun i => IsReal.add (hx i) (hy i)

/-- The entrywise difference of two vectors with real entries has real entries. -/
theorem allReal_subf (x y : FVec Ideal s φ) (hx : AllReal x) (hy : AllReal y) :
    AllReal (subf (F := Ideal) x y) := fun i => IsReal.sub (hx i) (hy i)

/-- The entrywise product of two vectors with real entries has real entries. -/
theorem allReal_mulf (x y : FVec Ideal s φ) (hx : AllReal x) (hy : AllReal y) :
    AllReal (mulf (F := Ideal) x y) := fun i => IsReal.mul (hx i) (hy i)

/-- The entrywise maximum of two vectors with real entries has real entries. -/
theorem allReal_maximumf (x y : FVec Ideal s φ) (hx : AllReal x) (hy : AllReal y) :
    AllReal (maximumf (F := Ideal) x y) := fun i => IsReal.max (hx i) (hy i)

/-- The entrywise minimum of two vectors with real entries has real entries. -/
theorem allReal_minimumf (x y : FVec Ideal s φ) (hx : AllReal x) (hy : AllReal y) :
    AllReal (minimumf (F := Ideal) x y) := fun i => IsReal.min (hx i) (hy i)

/-- The entrywise negative of a vector with real entries has real entries. -/
theorem allReal_host_negf (x : FVec Ideal s φ) (hx : AllReal x) :
    AllReal (Host.negf (F := Ideal) x) := fun i => IsReal.neg (hx i)

/-- The exponential of a real is a real, so the entrywise exponential keeps real entries. -/
theorem allReal_host_exp (x : FVec Ideal s φ) (hx : AllReal x) :
    AllReal (Host.exp (F := Ideal) x) := fun i => by
  obtain ⟨r, hr⟩ := hx i
  refine ⟨Real.exp r, ?_⟩
  show Ideal.exp (x i) = _
  rw [hr, Ideal.exp_coe]

end Pointwise

/-! ## Layout operations: each entry of the result is an entry of the operand -/

section Layout
variable {s t : Shape}

/-- Each entry of a broadcast along named axes is an entry of the operand. -/
theorem broadcastInDim_entry {α : Type} (dims : Fin s.rank → Fin t.rank) (h : s.BroadcastsInDim t dims)
    (x : s.Idx → α) (j : t.Idx) : ∃ i, broadcastInDim t dims h x j = x i := ⟨_, rfl⟩

/-- A broadcast along named axes of a vector with real entries has real entries. -/
theorem allReal_broadcastInDim (dims : Fin s.rank → Fin t.rank) (h : s.BroadcastsInDim t dims)
    (x : s.Idx → EReal) (hx : AllReal x) : AllReal (broadcastInDim t dims h x) :=
  hx.of_entries (broadcastInDim_entry dims h x)

/-- Each entry of a trailing-axes broadcast is an entry of the operand. -/
theorem broadcastTo_entry {α : Type} (h : s.Broadcasts t) (x : s.Idx → α) (j : t.Idx) :
    ∃ i, broadcastTo t x h j = x i := ⟨_, rfl⟩

/-- A trailing-axes broadcast of a vector with real entries has real entries. -/
theorem allReal_broadcastTo (h : s.Broadcasts t) (x : s.Idx → EReal) (hx : AllReal x) :
    AllReal (broadcastTo t x h) := hx.of_entries (broadcastTo_entry h x)

/-- The splat of one real has real entries. -/
theorem allReal_broadcast (a : EReal) (ha : IsReal a) : AllReal (broadcast t a) := fun _ => ha

/-- Each entry of a reshape is an entry of the operand (the one at the same row-major position). -/
theorem shapeCast_entry {α : Type} (h : s.ShapeCasts t) (x : s.Idx → α) (j : t.Idx) :
    ∃ i, shapeCast t x h j = x i := ⟨_, rfl⟩

/-- A reshape of a vector with real entries has real entries. -/
theorem allReal_shapeCast (h : s.ShapeCasts t) (x : s.Idx → EReal) (hx : AllReal x) :
    AllReal (shapeCast t x h) := hx.of_entries (shapeCast_entry h x)

/-- Each entry of a unit-stride slice is an entry of the operand. -/
theorem extractStridedSlice_entry {α : Type} (off : Fin s.rank → Nat) (h : s.Slices off t) (x : s.Idx → α)
    (j : t.Idx) : ∃ i, extractStridedSlice t off x h j = x i := ⟨_, rfl⟩

/-- A unit-stride slice of a vector with real entries has real entries. -/
theorem allReal_extractStridedSlice (off : Fin s.rank → Nat) (h : s.Slices off t) (x : s.Idx → EReal)
    (hx : AllReal x) : AllReal (extractStridedSlice t off x h) :=
  hx.of_entries (extractStridedSlice_entry off h x)

/-- A lane-by-lane choice between two vectors with real entries has real entries, whatever the mask. -/
theorem allReal_select (c : IVec s 1) (a b : s.Idx → EReal) (ha : AllReal a) (hb : AllReal b) :
    AllReal (select c a b) := fun i => by
  show IsReal (if c i = 1 then a i else b i)
  split
  · exact ha i
  · exact hb i

end Layout

/-! ## Gather, accumulating scatter, contraction, sum -/

section Indexed
variable {φ : FTy}

/-- Each entry of a gather is the operand's entry at the index the start indices send it to. -/
theorem gather_entry {α : Type} {s si t : Shape} {w : Nat} (d : GatherDims s si t) (x : s.Idx → α)
    (idx : IVec si w) (j : t.Idx) : ∃ i, Host.gather d x idx j = x i := ⟨_, rfl⟩

/-- A gather out of a vector with real entries has real entries, whatever the start indices. -/
theorem allReal_gather {s si t : Shape} {w : Nat} (d : GatherDims s si t) (x : FVec Ideal s φ)
    (idx : IVec si w) (hx : AllReal x) : AllReal (Host.gather d x idx) :=
  hx.of_entries (gather_entry d x idx)

/-- An accumulating scatter at an index is the operand's entry there plus the sum of the updates landing on it. -/
theorem scatterAdd_apply {s si u : Shape} {w : Nat} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- An accumulating scatter of updates with real entries into a vector with real entries has real
    entries: each entry is a real plus a finite sum of reals. -/
theorem allReal_scatterAdd {s si u : Shape} {w : Nat} (d : ScatterDims s si u) (x : FVec Ideal s φ)
    (idx : IVec si w) (upd : FVec Ideal u φ) (hx : AllReal x) (hu : AllReal upd) :
    AllReal (Host.scatterAdd (F := Ideal) d x idx upd) := fun i => by
  show IsReal (Host.scatterAdd (F := Ideal) d x idx upd i)
  rw [scatterAdd_apply]
  exact IsReal.add (hx i) (IsReal.sum _ _ fun j _ => hu j)

/-- A contraction of two operands with real entries has real entries: each entry is a finite sum of
    products of reals. -/
theorem allReal_dotGeneral {sl sr so : Shape} {φ₁ φ₂ : FTy} (d : DotDims sl sr so)
    (prec : Option ContractPrecision) (l : FVec Ideal sl φ₁) (r : FVec Ideal sr φ₂)
    (hl : AllReal l) (hr : AllReal r) : AllReal (Host.dotGeneral (F := Ideal) d prec l r) := fun j => by
  show IsReal (FloatOps.dotGeneral (F := Ideal) d prec .single l r j)
  rw [Ideal.dotGeneral_apply]
  exact IsReal.sum _ _ fun k _ => IsReal.mul (hl _) (hr _)

/-- A host sum at an index is the initial value plus the sum of the operand's entries that reduce to it. -/
theorem reduceAdd_apply {s t u : Shape} {axes : List (Fin s.rank)} (x : FVec Ideal s φ)
    (init : u.Idx → Ideal φ) (h : s.ReducesTo axes t) (hu : 0 < u.numel) (j : t.Idx) :
    Host.reduceAdd (F := Ideal) x init h hu j
      = init (Shape.Idx.first hu) + ∑ i ∈ Finset.univ.filter (fun i => h.drop i = j), x i := rfl

/-- A host sum of a vector with real entries from a real initial value has real entries. -/
theorem allReal_reduceAdd {s t u : Shape} {axes : List (Fin s.rank)} (x : FVec Ideal s φ)
    (init : u.Idx → Ideal φ) (h : s.ReducesTo axes t) (hu : 0 < u.numel) (hx : AllReal x)
    (hi : AllReal init) : AllReal (Host.reduceAdd (F := Ideal) x init h hu) := fun j => by
  show IsReal (Host.reduceAdd (F := Ideal) x init h hu j)
  rw [reduceAdd_apply]
  exact IsReal.add (hi _) (IsReal.sum _ _ fun i _ => hx i)

end Indexed

/-! ## The constants zero and one -/

section Constants

/-- The single-precision pattern of `+0.0` denotes the real number zero. -/
theorem ofBits_zero : Ideal.ofBits .f32 0x00000000#32 = 0 := Ideal.ofBits_zero_f32

/-- The single-precision pattern of `1.0` (sign 0, biased exponent 127, fraction 0) denotes the real number one. -/
theorem ofBits_one : Ideal.ofBits .f32 0x3F800000#32 = 1 := by
  simp [Ideal.ofBits, Ideal.ieee, -EReal.coe_mul]; norm_num

/-- Every entry of the splat of `+0.0` is zero. -/
theorem constant_zero_apply (S : Shape) (i : S.Idx) :
    constant (F := Ideal) S .f32 0x00000000#32 i = 0 := ofBits_zero

/-- Every entry of the splat of `1.0` is one. -/
theorem constant_one_apply (S : Shape) (i : S.Idx) :
    constant (F := Ideal) S .f32 0x3F800000#32 i = 1 := ofBits_one

/-- The splat of `+0.0` has real entries. -/
theorem allReal_constant_zero (S : Shape) : AllReal (constant (F := Ideal) S .f32 0x00000000#32) := fun i => by
  show IsReal (constant (F := Ideal) S .f32 0x00000000#32 i)
  rw [constant_zero_apply]; exact isReal_zero

/-- The splat of `1.0` has real entries. -/
theorem allReal_constant_one (S : Shape) : AllReal (constant (F := Ideal) S .f32 0x3F800000#32) := fun i => by
  show IsReal (constant (F := Ideal) S .f32 0x3F800000#32 i)
  rw [constant_one_apply]; exact isReal_one

/-- Every entry of a broadcast of the splat of `+0.0` is zero. -/
theorem broadcastInDim_constant_zero_apply {s t : Shape} (dims : Fin s.rank → Fin t.rank)
    (h : s.BroadcastsInDim t dims) (j : t.Idx) :
    broadcastInDim t dims h (constant (F := Ideal) s .f32 0x00000000#32) j = 0 := ofBits_zero

/-- Every entry of a broadcast of the splat of `1.0` is one. -/
theorem broadcastInDim_constant_one_apply {s t : Shape} (dims : Fin s.rank → Fin t.rank)
    (h : s.BroadcastsInDim t dims) (j : t.Idx) :
    broadcastInDim t dims h (constant (F := Ideal) s .f32 0x3F800000#32) j = 1 := ofBits_one

end Constants

/-! ## The guarded inverse square root of a degree vector -/

section Normaliser

/-- The ordered comparison "greater than" answers the set bit exactly when its first operand is the greater. -/
theorem cmp_ogt_eq_one_iff (x y : EReal) : Ideal.cmp .ogt x y = 1#1 ↔ y < x := by
  show BitVec.ofBool (decide (y < x)) = 1#1 ↔ y < x
  by_cases h : y < x
  · rw [decide_eq_true h]; exact ⟨fun _ => h, fun _ => rfl⟩
  · rw [decide_eq_false h]; exact ⟨fun e => absurd e (by decide), fun e => absurd e h⟩

/-- The inverse square root of a positive real is the real `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The inverse square root of a positive real is real. -/
theorem isReal_rsqrt_of_pos {a : EReal} (ha : IsReal a) (h : 0 < a) : IsReal (Ideal.rsqrt a) := by
  obtain ⟨r, rfl⟩ := ha
  have hr : (0 : ℝ) < r := by exact_mod_cast h
  rw [rsqrt_coe_of_pos hr]; exact isReal_coe _

/-- The guarded inverse square root, entry by entry: where the entry of `deg` exceeds the entry of `z` it is
    the inverse square root of that entry, elsewhere the entry of `z'`. -/
theorem guarded_rsqrt_apply {s : Shape} {φ : FTy} (deg z z' : FVec Ideal s φ) (i : s.Idx) :
    select (cmpf (F := Ideal) .ogt deg z) (Host.rsqrt (F := Ideal) deg) z' i
      = if z i < deg i then Ideal.rsqrt (deg i) else z' i := by
  show (if Ideal.cmp .ogt (deg i) (z i) = 1#1 then Ideal.rsqrt (deg i) else z' i) = _
  by_cases h : z i < deg i
  · rw [if_pos h, if_pos ((cmp_ogt_eq_one_iff _ _).mpr h)]
  · rw [if_neg h, if_neg (fun e => h ((cmp_ogt_eq_one_iff _ _).mp e))]

/-- The guarded inverse square root of a vector with real entries has real entries, the two guards being
    zero vectors: the inverse square root is taken only at the positive entries, where it is a real, and
    every other entry is zero. -/
theorem allReal_guarded_rsqrt {s : Shape} {φ : FTy} (deg z z' : FVec Ideal s φ) (hdeg : AllReal deg)
    (hz : ∀ i, z i = 0) (hz' : ∀ i, z' i = 0) :
    AllReal (select (cmpf (F := Ideal) .ogt deg z) (Host.rsqrt (F := Ideal) deg) z') := fun i => by
  show IsReal (select (cmpf (F := Ideal) .ogt deg z) (Host.rsqrt (F := Ideal) deg) z' i)
  rw [guarded_rsqrt_apply, hz i, hz' i]
  split
  · rename_i h
    exact isReal_rsqrt_of_pos (hdeg i) h
  · exact isReal_zero

/-- The degree normaliser in the form a host program spells it: the comparison against a broadcast of
    the splat of `+0.0`, the inverse square root, and — through the identity conversion a `where` makes of
    its scalar — another broadcast of the splat of `+0.0` as the fallback. With real degrees its entries are real. -/
theorem allReal_degree_normaliser {s₀ s₁ t : Shape} (dims₀ : Fin s₀.rank → Fin t.rank)
    (h₀ : s₀.BroadcastsInDim t dims₀) (dims₁ : Fin s₁.rank → Fin t.rank) (h₁ : s₁.BroadcastsInDim t dims₁)
    (deg : FVec Ideal t .f32) (hdeg : AllReal deg) :
    AllReal (select
      (cmpf (F := Ideal) .ogt deg (broadcastInDim t dims₀ h₀ (constant (F := Ideal) s₀ .f32 0x00000000#32)))
      (Host.rsqrt (F := Ideal) deg)
      (broadcastInDim t dims₁ h₁ (id (constant (F := Ideal) s₁ .f32 0x00000000#32)))) :=
  allReal_guarded_rsqrt deg _ _ hdeg (fun _ => ofBits_zero) (fun _ => ofBits_zero)

/-- The degree normaliser is, entry by entry, `(√d)⁻¹` at a positive degree `d` and zero elsewhere. -/
theorem degree_normaliser_apply {s₀ s₁ t : Shape} (dims₀ : Fin s₀.rank → Fin t.rank)
    (h₀ : s₀.BroadcastsInDim t dims₀) (dims₁ : Fin s₁.rank → Fin t.rank) (h₁ : s₁.BroadcastsInDim t dims₁)
    (deg : FVec Ideal t .f32) (i : t.Idx) :
    select
      (cmpf (F := Ideal) .ogt deg (broadcastInDim t dims₀ h₀ (constant (F := Ideal) s₀ .f32 0x00000000#32)))
      (Host.rsqrt (F := Ideal) deg)
      (broadcastInDim t dims₁ h₁ (id (constant (F := Ideal) s₁ .f32 0x00000000#32))) i
      = if 0 < deg i then Ideal.rsqrt (deg i) else 0 := by
  rw [guarded_rsqrt_apply]
  show (if Ideal.ofBits .f32 0x00000000#32 < deg i then Ideal.rsqrt (deg i) else Ideal.ofBits .f32 0x00000000#32) = _
  rw [ofBits_zero]

end Normaliser

/-! ## Quotient and square root -/

section DivSqrt
variable {s : Shape} {φ : FTy}

/-- The quotient of a real by a nonzero real is real: it is the product with the reciprocal. -/
theorem isReal_div {a b : EReal} (ha : IsReal a) (hb : IsReal b) (hb0 : b ≠ 0) : IsReal (Ideal.div a b) := by
  obtain ⟨q, rfl⟩ := hb
  have hq : q ≠ 0 := fun e => hb0 (by rw [e]; rfl)
  rw [Ideal.div_coe hq]
  exact ha.mul (isReal_coe _)

/-- The entrywise quotient of a vector with real entries by a vector whose entries are nonzero reals has real entries. -/
theorem allReal_host_divf (x y : FVec Ideal s φ) (hx : AllReal x) (hy : AllReal y) (hy0 : ∀ i, y i ≠ 0) :
    AllReal (Host.divf (F := Ideal) x y) := fun i => by
  show IsReal (Ideal.div (x i) (y i))
  exact isReal_div (hx i) (hy i) (hy0 i)

/-- The same with each divisor entry given as a nonzero real. -/
theorem allReal_host_divf' (x y : FVec Ideal s φ) (hx : AllReal x)
    (hy : ∀ i, ∃ q : ℝ, q ≠ 0 ∧ y i = (q : EReal)) : AllReal (Host.divf (F := Ideal) x y) :=
  allReal_host_divf x y hx (fun i => let ⟨q, _, e⟩ := hy i; ⟨q, e⟩)
    (fun i => by
      obtain ⟨q, hq, e⟩ := hy i
      rw [e]; exact_mod_cast hq)

/-- The square root of a nonnegative real is the real `√r`. -/
theorem sqrt_coe_of_nonneg {r : ℝ} (h : 0 ≤ r) : Ideal.sqrt (r : EReal) = ((Real.sqrt r : ℝ) : EReal) := by
  rw [Ideal.sqrt_coe, if_neg (not_lt.mpr h)]

/-- The square root of a nonnegative real is real. -/
theorem isReal_sqrt {a : EReal} (ha : IsReal a) (h0 : 0 ≤ a) : IsReal (Ideal.sqrt a) := by
  obtain ⟨r, rfl⟩ := ha
  have hr : (0 : ℝ) ≤ r := by exact_mod_cast h0
  rw [sqrt_coe_of_nonneg hr]; exact isReal_coe _

/-- The square root of a nonnegative real is nonnegative. -/
theorem sqrt_nonneg {a : EReal} (ha : IsReal a) (h0 : 0 ≤ a) : 0 ≤ Ideal.sqrt a := by
  obtain ⟨r, rfl⟩ := ha
  have hr : (0 : ℝ) ≤ r := by exact_mod_cast h0
  rw [sqrt_coe_of_nonneg hr]
  exact_mod_cast Real.sqrt_nonneg r

/-- The entrywise square root of a vector whose entries are nonnegative reals has real entries. -/
theorem allReal_host_sqrt (x : FVec Ideal s φ) (hx : AllReal x) (h0 : ∀ i, 0 ≤ x i) :
    AllReal (Host.sqrt (F := Ideal) x) := fun i => by
  show IsReal (Ideal.sqrt (x i))
  exact isReal_sqrt (hx i) (h0 i)

end DivSqrt

end Cert.RealEntries

end
-- ==== Proof.RealStages.lean ====
/-
  Every entry of the aggregated activations of either layer is a real number when the float inputs are. The in-degree
  of a node is a sum of ones added to zero, so it is a real; deg^(-1/2) is taken only where the degree is positive, and
  0 stands elsewhere, so the normaliser is a real; an edge weight is a product of two of its entries; the projected
  features are sums of products of reals; gathering moves entries, scaling multiplies reals, scatter-adding sums them
  into zeros, and the bias is real. The first layer's normalised and rectified activations are then reals by the
  agreement of the two normalisation forms, and the second layer repeats the argument on them.
-/
import proofs.«144501_j25658134627030_1_alg».proof.Proof.RefNorm
import proofs.«144501_j25658134627030_1_alg».proof.Proof.LibRealEntries

noncomputable section

namespace Cert.ReferenceIdeal.RealStages

open Cert.ReferenceIdeal Cert.ReferenceIdeal.ReadP Idealize.ShloMosaic Cert.NormForms Cert.RealEntries

variable (x0 : (⟨S50000x128, .f32⟩ : BufTy).Contents (Elt Ideal)) (x1 : (⟨S2x640000, .i32⟩ : BufTy).Contents (Elt Ideal))
  (x3 : (⟨S128x128, .f32⟩ : BufTy).Contents (Elt Ideal)) (x4 x5 x6 : (⟨S128, .f32⟩ : BufTy).Contents (Elt Ideal))
  (x7 : (⟨S128x128, .f32⟩ : BufTy).Contents (Elt Ideal)) (x8 x9 x10 : (⟨S128, .f32⟩ : BufTy).Contents (Elt Ideal))

/-- The in-degrees (first copy) are reals: ones scatter-added into zeros. -/
theorem real_degree1 : AllReal (val_main_v11 (F := Ideal) x1) := by
  unfold val_main_v11 val_main_v9 val_main_v8 val_main_cst_0 val_main_cst
  exact allReal_scatterAdd _ _ _ _ (allReal_broadcastInDim _ _ _ (allReal_constant_zero _)) (allReal_broadcastInDim _ _ _ (allReal_constant_one _))

/-- The normaliser deg^(-1/2), 0 where the degree is not positive (first copy), is real. -/
theorem real_normaliser1 : AllReal (val_main_v15 (F := Ideal) x1) := by
  unfold val_main_v15 val_main_v13 val_main_v14 val_main_v12 val_main_call0_v1 val_main_call0_v0 val_main_cst_1 val_main_cst_2
  exact allReal_degree_normaliser _ _ _ _ _ (real_degree1 x1)

/-- The edge weights (first copy) are reals. -/
theorem real_weights1 : AllReal (val_main_v30 (F := Ideal) x1) := by
  unfold val_main_v30 val_main_v22 val_main_v29
  exact allReal_mulf _ _ (allReal_gather (φ := .f32) _ _ _ (real_normaliser1 x1)) (allReal_gather (φ := .f32) _ _ _ (real_normaliser1 x1))

/-- The first layer's aggregated activations are reals. -/
theorem real_layer1 (h0 : AllReal x0) (h3 : AllReal x3) (h4 : AllReal x4) : AllReal (val_main_v46 (F := Ideal) x0 x1 x3 x4) := by
  unfold val_main_v46 val_main_v43 val_main_v45 val_main_v44 val_main_v41 val_main_v40 val_main_v39 val_main_v38 val_main_v37 val_main_v7 val_main_cst_8
  exact allReal_addf _ _
    (allReal_scatterAdd _ _ _ _ (allReal_broadcastInDim _ _ _ (allReal_constant_zero _))
      (allReal_mulf _ _ (allReal_gather _ _ _ (allReal_dotGeneral _ _ _ _ h0 h3))
        (allReal_broadcastInDim _ _ _ (allReal_broadcastInDim _ _ _ (real_weights1 x1)))))
    (allReal_broadcastInDim _ _ _ (allReal_broadcastInDim _ _ _ h4))

/-- The first layer's normalised, mapped and rectified activations are reals. -/
theorem real_relu1 (h0 : AllReal x0) (h3 : AllReal x3) (h4 : AllReal x4) (h5 : AllReal x5) (h6 : AllReal x6) :
    AllReal (val_main_v64 (F := Ideal) x0 x1 x3 x4 x5 x6) := by
  intro i
  rw [Cert.ReferenceIdeal.NormStages.relu_norm1_apply]
  exact quotForm_real _ (real_layer1 x0 x1 x3 x4 h0 h3 h4) _ _ (h5 _) (h6 _) i

/-- The in-degrees (second copy) are reals. -/
theorem real_degree2 : AllReal (val_main_v69 (F := Ideal) x1) := by
  unfold val_main_v69 val_main_v67 val_main_v66 val_main_cst_15 val_main_cst_14
  exact allReal_scatterAdd _ _ _ _ (allReal_broadcastInDim _ _ _ (allReal_constant_zero _)) (allReal_broadcastInDim _ _ _ (allReal_constant_one _))

/-- The normaliser (second copy) is real. -/
theorem real_normaliser2 : AllReal (val_main_v73 (F := Ideal) x1) := by
  unfold val_main_v73 val_main_v71 val_main_v72 val_main_v70 val_main_call2_v1 val_main_call2_v0 val_main_cst_16 val_main_cst_17
  exact allReal_degree_normaliser _ _ _ _ _ (real_degree2 x1)

/-- The edge weights (second copy) are reals. -/
theorem real_weights2 : AllReal (val_main_v88 (F := Ideal) x1) := by
  unfold val_main_v88 val_main_v80 val_main_v87
  exact allReal_mulf _ _ (allReal_gather (φ := .f32) _ _ _ (real_normaliser2 x1)) (allReal_gather (φ := .f32) _ _ _ (real_normaliser2 x1))

/-- The second layer's aggregated activations are reals. -/
theorem real_layer2 (h0 : AllReal x0) (h3 : AllReal x3) (h4 : AllReal x4) (h5 : AllReal x5) (h6 : AllReal x6)
    (h7 : AllReal x7) (h8 : AllReal x8) : AllReal (val_main_v104 (F := Ideal) x0 x1 x3 x4 x5 x6 x7 x8) := by
  unfold val_main_v104 val_main_v101 val_main_v103 val_main_v102 val_main_v99 val_main_v98 val_main_v97 val_main_v96 val_main_v95 val_main_v65 val_main_cst_24
  exact allReal_addf _ _
    (allReal_scatterAdd _ _ _ _ (allReal_broadcastInDim _ _ _ (allReal_constant_zero _))
      (allReal_mulf _ _ (allReal_gather _ _ _ (allReal_dotGeneral _ _ _ _ (real_relu1 x0 x1 x3 x4 x5 x6 h0 h3 h4 h5 h6) h7))
        (allReal_broadcastInDim _ _ _ (allReal_broadcastInDim _ _ _ (real_weights2 x1)))))
    (allReal_broadcastInDim _ _ _ (allReal_broadcastInDim _ _ _ h8))

end Cert.ReferenceIdeal.RealStages

end
-- ==== Proof.FiniteInputs.lean ====
/-
  From the precondition to "every float input holds real numbers".

  The precondition says, on every core, that a printed predicate of the thirteen argument arrays is the
  truth word 1. The predicate is the conjunction, over the eleven float arguments (0, 3, 4, ..., 12; arguments
  1 and 2 are integer arrays), of all(|x| < +∞): the absolute value |x| = max x (-x) of each entry, compared
  by ordered less-than against the scalar +∞ (the f32 word 0x7F800000) broadcast to the array's shape, and
  the truth words of all entries reduced by "and" from 1 to a single word.

  Over the extended reals this says that no entry is -∞ or +∞: |x| < +∞ fails exactly at x = ±∞, where
  |x| = +∞. So every entry is a real number. The steps: a conjunction of truth words is 1 only if both are;
  a reduction by "and" over all axes is 1 only if every element is; the element test is the strict
  inequality max x (-x) < ⊤, which the three cases of an extended real (-∞, a real, +∞) settle.
-/
import proofs.«144501_j25658134627030_1_alg».proof.Defs
import Idealize.ShloMosaic.Lib.ReduceAll
import Idealize.ShloMosaic.Lib.ValueIdx
import Idealize.ShloMosaic.PureOps.Ideal

noncomputable section

namespace FiniteInputs

open Idealize.ShloMosaic Idealize.SL.Sem

/-- The rank-0 shape: one index. -/
abbrev S0 : Shape := ⟨0, ![]⟩

instance : Subsingleton S0.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (-x) lies strictly below +∞ is a real number:
    at -∞ and at +∞ the absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞, as the comparison word it prints to: if the ordered less-than of
    |x| against the word of +∞ is the word 1, then x is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  change BitVec.ofBool (decide (max x (-x) < ⊤)) = 1#1 at h
  by_cases hlt : max x (-x) < ⊤
  · exact real_of_abs_lt_top x hlt
  · rw [decide_eq_false hlt] at h
    exact absurd h (by decide)

/-- The same at an index of an array of any shape: the array |x| compared, elementwise, against
    the scalar +∞ broadcast to the shape. -/
theorem real_of_cmpf_abs {s : Shape} (hb : S0.BroadcastsInDim s ![]) (x : FVec Ideal s .f32) (i : s.Idx)
    (h : cmpf .olt (Host.absf x) (broadcastInDim s ![] hb (constant (F := Ideal) S0 .f32 0x7F800000#32)) i = 1#1) :
    ∃ r : ℝ, x i = (r : EReal) :=
  real_of_cmp (x i) h

/-- all(|x| < +∞): if the conjunction over every index of the element tests, reduced to the one
    index of a rank-0 result, is the word 1, then every entry of x is a real number. -/
theorem all_real {s : Shape} {axes : List (Fin s.rank)} (hb : S0.BroadcastsInDim s ![]) (hr : s.ReducesTo axes S0)
    (hu : 0 < S0.numel) (x : FVec Ideal s .f32) (init : IVec S0 1)
    (e : Host.reduce IntOp.andi
        (cmpf .olt (Host.absf x) (broadcastInDim s ![] hb (constant (F := Ideal) S0 .f32 0x7F800000#32)))
        init hr hu ValueIdx.ix0 = 1#1)
    (i : s.Idx) : ∃ r : ℝ, x i = (r : EReal) :=
  real_of_cmpf_abs hb x i (Host.reduce_andi_all _ init hr hu ValueIdx.ix0 e i)

/-- A conjunction of two truth words that is 1 at an index: both are 1 there. -/
theorem andi_one {s : Shape} {a b : IVec s 1} {i : s.Idx} (h : andi a b i = 1#1) : a i = 1#1 ∧ b i = 1#1 :=
  IntOp.andi_eq_one.1 h

/-! ## The precondition decoded -/

variable [Cert.Pre_finite_inputs.Facts]

/-- Under the precondition, on every core, every entry of each of the eleven float argument arrays is a
    real number. The predicate's value at its one index is a left-nested conjunction of eleven reductions;
    it is split from the outside in (argument 12 first), and each reduction is read by `all_real`. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal)) := by
  have e := congrFun (h c) ValueIdx.ix0
  dsimp only [Cert.Pre_finite_inputs.fn, Cert.Pre_finite_inputs.fn_part1, Cert.Pre_finite_inputs.fn_part2,
    Cert.Pre_finite_inputs.fn_part3] at e
  obtain ⟨e, h12⟩ := andi_one e
  obtain ⟨e, h11⟩ := andi_one e
  obtain ⟨e, h10⟩ := andi_one e
  obtain ⟨e, h9⟩ := andi_one e
  obtain ⟨e, h8⟩ := andi_one e
  obtain ⟨e, h7⟩ := andi_one e
  obtain ⟨e, h6⟩ := andi_one e
  obtain ⟨e, h5⟩ := andi_one e
  obtain ⟨e, h4⟩ := andi_one e
  obtain ⟨h0, h3⟩ := andi_one e
  exact ⟨all_real _ _ _ _ _ h0,
    all_real _ _ _ _ _ h3,
    all_real _ _ _ _ _ h4,
    all_real _ _ _ _ _ h5,
    all_real _ _ _ _ _ h6,
    all_real _ _ _ _ _ h7,
    all_real _ _ _ _ _ h8,
    all_real _ _ _ _ _ h9,
    all_real _ _ _ _ _ h10,
    all_real _ _ _ _ _ h11,
    all_real _ _ _ _ _ h12⟩

/-! ## One statement per float argument -/

/-- Every entry of float argument 0 is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (real_args m h c).1

/-- Every entry of float argument 3 is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (real_args m h c).2.1

/-- Every entry of float argument 4 is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (real_args m h c).2.2.1

/-- Every entry of float argument 5 is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (real_args m h c).2.2.2.1

/-- Every entry of float argument 6 is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (real_args m h c).2.2.2.2.1

/-- Every entry of float argument 7 is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (real_args m h c).2.2.2.2.2.1

/-- Every entry of float argument 8 is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (real_args m h c).2.2.2.2.2.2.1

/-- Every entry of float argument 9 is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (real_args m h c).2.2.2.2.2.2.2.1

/-- Every entry of float argument 10 is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (real_args m h c).2.2.2.2.2.2.2.2.1

/-- Every entry of float argument 11 is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (real_args m h c).2.2.2.2.2.2.2.2.2.1

/-- Every entry of float argument 12 is a real number. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (real_args m h c).2.2.2.2.2.2.2.2.2.2

end FiniteInputs

end
-- ==== Proof.Result.lean ====
/-
  The idealized kernel's result is the reference's. Under the precondition every float argument holds real numbers.
  The first region's product is the reference's projection; the same host operations aggregate it along the edges; the
  aggregated activations are real, so the kernel's normalisation (reciprocal form) and the reference's (quotient form)
  agree; the second layer repeats the three steps on the rectified activations; and the same pooling, linear head and
  logistic function end both programs.
-/
import proofs.«144501_j25658134627030_1_alg».proof.Proof.HostLayers
import proofs.«144501_j25658134627030_1_alg».proof.Proof.Projections
import proofs.«144501_j25658134627030_1_alg».proof.Proof.NormBridge
import proofs.«144501_j25658134627030_1_alg».proof.Proof.RealStages
import proofs.«144501_j25658134627030_1_alg».proof.Proof.FiniteInputs

set_option maxRecDepth 16384

noncomputable section

namespace Cert.KernelIdeal.Result

open Idealize.ShloMosaic Idealize.ShloMosaic.TcCoe Idealize.SL.Sem
open Cert.KernelIdeal Cert.KernelIdeal.Gen
open Cert.ReferenceIdeal.ReadP (val_main_v145)
open Cert.ReferenceIdeal.RealStages (real_layer1 real_layer2)

variable [Cert.Pre_finite_inputs.Facts]
variable (m : (ℓ : Loc nD τ sig) → Buf (Elt Ideal) ℓ) (ρ : Dev nD → PrngReg) (c : Dev nD)

/-- Under the precondition the result buffer's final contents are the reference's last stage at the same arguments. -/
theorem result_eq (hpre : Cert.Pre_KernelIdeal m) :
    W14 m ρ c (Proc.devRef .tc main_v116) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h0 := FiniteInputs.real_arg0 m hpre c
  have h3 := FiniteInputs.real_arg3 m hpre c
  have h4 := FiniteInputs.real_arg4 m hpre c
  have h5 := FiniteInputs.real_arg5 m hpre c
  have h6 := FiniteInputs.real_arg6 m hpre c
  have h7 := FiniteInputs.real_arg7 m hpre c
  have h8 := FiniteInputs.real_arg8 m hpre c
  have h9 := FiniteInputs.real_arg9 m hpre c
  have h10 := FiniteInputs.real_arg10 m hpre c
  have p1 := Cert.KernelIdeal.Projections.proj1_eq m ρ c
  have a1 := Cert.KernelIdeal.HostLayers.layer1_eq m ρ c p1
  have r1 := Cert.KernelIdeal.NormBridge.relu1_eq m ρ c a1 (real_layer1 _ _ _ _ h0 h3 h4) h5 h6
  have p2 := Cert.KernelIdeal.Projections.proj2_eq m ρ c r1
  have a2 := Cert.KernelIdeal.HostLayers.layer2_eq m ρ c p2
  have r2 := Cert.KernelIdeal.NormBridge.relu2_eq m ρ c a2 (real_layer2 _ _ _ _ _ _ _ _ h0 h3 h4 h5 h6 h7 h8) h9 h10
  exact Cert.KernelIdeal.HostLayers.out_eq m ρ c r2

end Cert.KernelIdeal.Result

end
-- ==== Proof.lean ====
/-
  Two graph-convolution layers, each followed by a whole-tensor normalisation, an affine map and a rectifier, then mean
  pooling over graphs, a linear head and the logistic function. The kernel computes the two dense projections, the sums
  for the normalisation and the normalise–map–rectify passes in blocked kernel regions over ten blocks of 5000 rows, and
  everything else (degrees, edge weights, gathering, scatter-adding, pooling, head) in host operations; the reference does
  it all in host operations. Over the extended reals, for finite inputs, the results agree:
    * a blocked product of rows, its operands rounded to a narrower format, is the whole product (rounding is the
      identity at the exact instance, and a row of the product depends on that row of the left factor only);
    * ten partial sums over blocks of rows add up to the sum over the whole array;
    * the variance written as the mean of the squares minus the square of the mean is the mean of the squared
      deviations, and multiplying by 1/(√var + ε) is dividing by √var + ε — for real data, which is what the
      precondition gives after following realness through the degrees, the edge weights and the aggregation;
    * all other operations are literally the same on both sides.
  The frames of the two kernel programs are the generated ones; the reference's frame is its run with the result
  dropped; the idealization rewrote nothing, so there is nothing to preserve.
-/
import proofs.«144501_j25658134627030_1_alg».proof.Defs
import proofs.«144501_j25658134627030_1_alg».proof.Proof.Gen.Kernel
import proofs.«144501_j25658134627030_1_alg».proof.Proof.Gen.Kernel.Skeleton
import proofs.«144501_j25658134627030_1_alg».proof.Proof.Gen.Kernel.Launch
import proofs.«144501_j25658134627030_1_alg».proof.Proof.Gen.Kernel.Points
import proofs.«144501_j25658134627030_1_alg».proof.Proof.Gen.Kernel.Frame
import proofs.«144501_j25658134627030_1_alg».proof.Proof.Gen.KernelIdeal
import proofs.«144501_j25658134627030_1_alg».proof.Proof.Gen.KernelIdeal.Skeleton
import proofs.«144501_j25658134627030_1_alg».proof.Proof.Gen.KernelIdeal.Launch
import proofs.«144501_j25658134627030_1_alg».proof.Proof.Gen.KernelIdeal.Points
import proofs.«144501_j25658134627030_1_alg».proof.Proof.Gen.KernelIdeal.Frame
import proofs.«144501_j25658134627030_1_alg».proof.Proof.Gen.ReferenceIdeal
import proofs.«144501_j25658134627030_1_alg».proof.Proof.Gen.Pre_finite_inputs
import proofs.«144501_j25658134627030_1_alg».proof.Proof.KernelRun
import proofs.«144501_j25658134627030_1_alg».proof.Proof.Result
import Idealize.ShloMosaic.Adequacy
import Idealize.ShloMosaic.Init

noncomputable section

namespace Cert.Proof

open Idealize.ShloMosaic Idealize.ShloMosaic.TcCoe Idealize.SL.Sem

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The two idealized programs, run from memories that agree on the arguments, end with the same result: the kernel's
    run names its result as the fold's last contents, the reference's run as its last stage, and the two are equal under
    the precondition. -/
theorem algebraic : Cert.algebraic_KernelIdeal_ReferenceIdeal := by
  intro m ρ m' ρ' hpre hagree
  refine ⟨fun c => Cert.KernelIdeal.Gen.W14 m ρ c (Proc.devRef .tc Cert.KernelIdeal.main_v116),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v145_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Result.result_eq m ρ c hpre).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
